-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S64x10 .f32) (main_arg14 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x10 .f32 := Host.absf main_arg13
  let main_cst_20 : FVec F S_ .f32 := constant S_ .f32 0x7F800000#32
  let main_v55 : FVec F S64x10 .f32 := broadcastInDim S64x10 ![] bcast_S_S64x10 main_cst_20
  let main_v56 : IVec S64x10 1 := cmpf .olt main_v54 main_v55
  let main_c_21 : IVec S_ 1 := constantI S_ 1 1#1
  let main_v57 : IVec S_ 1 := (fun x v => Host.reduce IntOp.andi x v reducesTo_S64x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S4x128 .f32) (main_arg10 : FVec F S4x128 .f32) (main_arg11 : FVec F S128x64 .f32) (main_arg12 : FVec F S64 .f32) (main_arg13 : FVec F S64x10 .f32) (main_arg14 : FVec F S10 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S4x128 .f32) (main_arg7 : FVec F S4x128 .f32) (main_arg8 : FVec F S4x128 .f32) (main_arg9 : FVec F S4x128 .f32) (main_arg10 : FVec F S4x128 .f32) (main_arg11 : FVec F S128x64 .f32) (main_arg12 : FVec F S64 .f32) (main_arg13 : FVec F S64x10 .f32) (main_arg14 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S4x128 .f32) (main_arg10 : FVec F S4x128 .f32) (main_arg11 : FVec F S128x64 .f32) (main_arg12 : FVec F S64 .f32) (main_arg13 : FVec F S64x10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S5000x128 : Shape := ⟨2, ![5000, 128]⟩
abbrev S5000x1 : Shape := ⟨2, ![5000, 1]⟩
abbrev S1x128 : Shape := ⟨2, ![1, 128]⟩
abbrev S1600000x128 : Shape := ⟨2, ![1600000, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S256x10 : Shape := ⟨2, ![256, 10]⟩
abbrev S1x10 : Shape := ⟨2, ![1, 10]⟩

abbrev nBuf : Space → Nat
  | .hbm => 162
  | .vmem => 64
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S4x128, .f32⟩
  | 10 => ⟨S4x128, .f32⟩
  | 11 => ⟨S128x64, .f32⟩
  | 12 => ⟨S64, .f32⟩
  | 13 => ⟨S64x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S1x128x128, .f32⟩
  | 31 => ⟨S128x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128x128, .f32⟩
  | 57 => ⟨S128x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128x128, .f32⟩
  | 83 => ⟨S128x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128x128, .f32⟩
  | 109 => ⟨S128x128, .f32⟩
  | 110 => ⟨S100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S1x128, .f32⟩
  | 125 => ⟨S128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S100000x128, .f32⟩
  | 7 => ⟨S_, .f32⟩
  | 8 => ⟨S256x128, .f32⟩
  | 9 => ⟨S100000x1, .i32⟩
  | 10 => ⟨S256x128, .f32⟩
  | 11 => ⟨S_, .f32⟩
  | 12 => ⟨S100000, .f32⟩
  | 13 => ⟨S_, .f32⟩
  | 14 => ⟨S256, .f32⟩
  | 15 => ⟨S100000x1, .i32⟩
  | 16 => ⟨S256, .f32⟩
  | 17 => ⟨S_, .f32⟩
  | 18 => ⟨S256, .f32⟩
  | 19 => ⟨S256, .f32⟩
  | 20 => ⟨S256x1, .f32⟩
  | 21 => ⟨S256x128, .f32⟩
  | 22 => ⟨S256x128, .f32⟩
  | 23 => ⟨S256x64, .f32⟩
  | 24 => ⟨S1x64, .f32⟩
  | 25 => ⟨S256x64, .f32⟩
  | 26 => ⟨S256x64, .f32⟩
  | 27 => ⟨S_, .f32⟩
  | 28 => ⟨S256x64, .f32⟩
  | 29 => ⟨S256x64, .f32⟩
  | 30 => ⟨S256x10, .f32⟩
  | 31 => ⟨S1x10, .f32⟩
  | 32 => ⟨S256x10, .f32⟩
  | 33 => ⟨S256x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S5000x1, .f32⟩
  | .local _ .vmem, ⟨6, _⟩ => ⟨S5000x1, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S5000x1, .f32⟩
  | .local _ .vmem, ⟨47, _⟩ => ⟨S5000x1, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128, .f32⟩
  | .local _ .vmem, ⟨56, _⟩ => ⟨S128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S5000x1, .f32⟩
  | .local _ .vmem, ⟨61, _⟩ => ⟨S5000x1, .f32⟩
  | .local _ .vmem, ⟨62, _⟩ => ⟨S5000x128, .f32⟩
  | .local _ .vmem, ⟨63, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_7 : Ref sig .tc := ⟨.hbm, 85, rfl⟩
abbrev main_v61 : Ref sig .tc := ⟨.hbm, 86, rfl⟩
abbrev main_v62 : Ref sig .tc := ⟨.hbm, 87, rfl⟩
abbrev main_c_8 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_10 : Ref sig .tc := ⟨.hbm, 111, rfl⟩
abbrev main_v84 : Ref sig .tc := ⟨.hbm, 112, rfl⟩
abbrev main_v85 : Ref sig .tc := ⟨.hbm, 113, rfl⟩
abbrev main_c_11 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_12 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_13 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_14 : Ref sig .tc := ⟨.hbm, 139, rfl⟩
abbrev main_v108 : Ref sig .tc := ⟨.hbm, 140, rfl⟩
abbrev main_cst_15 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_16 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_call0_cst : Ref sig .tc := ⟨.hbm, 155, rfl⟩
abbrev main_call0_v0 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg9_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg7_1 : Ref sig .tc := ⟨.vmem, 61, rfl⟩
abbrev cc4_stg8_0 : Ref sig .tc := ⟨.vmem, 62, rfl⟩
abbrev cc4_stg8_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem9_0 : DmaSem sig := 35
abbrev cc2_sem9_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47
abbrev cc3_sem8_0 : DmaSem sig := 48
abbrev cc3_sem9_0 : DmaSem sig := 49
abbrev cc3_sem9_1 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem7_1 : DmaSem sig := 61
abbrev cc4_sem8_0 : DmaSem sig := 62
abbrev cc4_sem8_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  shapeCasts_S5000x128_S5000x128 : S5000x128.ShapeCasts S5000x128
  shapeCasts_S128_S128 : S128.ShapeCasts S128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S100000x1.size a
  hwx3_7 : ∀ i : grid3.Coords, EltTy.bits .f32 = 32 ∨ (Rect.block (s := S100000x1) S5000x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S100000x1.size a
  hwx4_7 : ∀ i : grid4.Coords, EltTy.bits .f32 = 32 ∨ (Rect.block (s := S100000x1) S5000x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S100000x128.size a
  hwx4_8 : ∀ i : grid4.Coords, EltTy.bits .f32 = 32 ∨ (Rect.block (s := S100000x128) S5000x128.size (cc4_transform_8 i) (hinb4_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S5000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v36) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S5000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v59) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v60) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v11) S5000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v82) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v93) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v103) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v11) S5000x1.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v104) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S1x128x128 : Shape := ⟨3, ![1, 128, 128]⟩
abbrev S1600000x128 : Shape := ⟨2, ![1600000, 128]⟩
abbrev S100000x1 : Shape := ⟨2, ![100000, 1]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S256x10 : Shape := ⟨2, ![256, 10]⟩
abbrev S1x10 : Shape := ⟨2, ![1, 10]⟩

abbrev nBuf : Space → Nat
  | .hbm => 303
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S4x128, .f32⟩
  | 10 => ⟨S4x128, .f32⟩
  | 11 => ⟨S128x64, .f32⟩
  | 12 => ⟨S64, .f32⟩
  | 13 => ⟨S64x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S1x128x128, .f32⟩
  | 57 => ⟨S128x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S1600000x1, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S100000x1, .f32⟩
  | 76 => ⟨S100000x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S1600000x1, .f32⟩
  | 124 => ⟨S1600000x128, .f32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S128, .f32⟩
  | 18 => ⟨S_, .f32⟩
  | 19 => ⟨S128, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x1, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x1, .f32⟩
  | 113 => ⟨S100000x128, .f32⟩
  | 114 => ⟨S100000x128, .f32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S128, .f32⟩
  | _ => ⟨S100000x128, .f32⟩

abbrev hbmTy0_2 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S256x128, .f32⟩
  | 22 => ⟨S100000x1, .i32⟩
  | 23 => ⟨S256x128, .f32⟩
  | 24 => ⟨S_, .f32⟩
  | 25 => ⟨S100000, .f32⟩
  | 26 => ⟨S_, .f32⟩
  | 27 => ⟨S256, .f32⟩
  | 28 => ⟨S100000x1, .i32⟩
  | 29 => ⟨S256, .f32⟩
  | 30 => ⟨S_, .f32⟩
  | 31 => ⟨S256, .f32⟩
  | 32 => ⟨S256, .f32⟩
  | 33 => ⟨S256x1, .f32⟩
  | 34 => ⟨S256x128, .f32⟩
  | 35 => ⟨S256x128, .f32⟩
  | 36 => ⟨S256x64, .f32⟩
  | 37 => ⟨S1x64, .f32⟩
  | 38 => ⟨S256x64, .f32⟩
  | 39 => ⟨S256x64, .f32⟩
  | 40 => ⟨S_, .f32⟩
  | 41 => ⟨S256x64, .f32⟩
  | 42 => ⟨S256x64, .f32⟩
  | 43 => ⟨S256x10, .f32⟩
  | 44 => ⟨S1x10, .f32⟩
  | 45 => ⟨S256x10, .f32⟩
  | 46 => ⟨S256x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_8 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call1_cst : Ref sig .tc := ⟨.hbm, 108, rfl⟩
abbrev main_call1_v0 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_9 : Ref sig .tc := ⟨.hbm, 114, rfl⟩
abbrev main_v84 : Ref sig .tc := ⟨.hbm, 115, rfl⟩
abbrev main_v85 : Ref sig .tc := ⟨.hbm, 116, rfl⟩
abbrev main_c_10 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_11 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_12 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_call2_cst : Ref sig .tc := ⟨.hbm, 163, rfl⟩
abbrev main_call2_v0 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_c_13 : Ref sig .tc := ⟨.hbm, 169, rfl⟩
abbrev main_v133 : Ref sig .tc := ⟨.hbm, 170, rfl⟩
abbrev main_v134 : Ref sig .tc := ⟨.hbm, 171, rfl⟩
abbrev main_c_14 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_15 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_16 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_call3_cst : Ref sig .tc := ⟨.hbm, 218, rfl⟩
abbrev main_call3_v0 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_c_17 : Ref sig .tc := ⟨.hbm, 224, rfl⟩
abbrev main_v182 : Ref sig .tc := ⟨.hbm, 225, rfl⟩
abbrev main_v183 : Ref sig .tc := ⟨.hbm, 226, rfl⟩
abbrev main_c_18 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_cst_19 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_cst_20 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_call4_cst : Ref sig .tc := ⟨.hbm, 273, rfl⟩
abbrev main_call4_v0 : Ref sig .tc := ⟨.hbm, 274, rfl⟩
abbrev main_v227 : Ref sig .tc := ⟨.hbm, 275, rfl⟩
abbrev main_cst_21 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_cst_22 : Ref sig .tc := ⟨.hbm, 280, rfl⟩
abbrev main_v231 : Ref sig .tc := ⟨.hbm, 281, rfl⟩
abbrev main_cst_23 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_cst_24 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_call5_cst : Ref sig .tc := ⟨.hbm, 296, rfl⟩
abbrev main_call5_v0 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128_S1x128_0_0 : S4x128.Slices ![0, 0] S1x128
  shapeCasts_S1x128_S128 : S1x128.ShapeCasts S128
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KRun.lean ====
/-
  The idealized kernel program's run with its result NAMED: every weakly fair execution of @main terminates, nothing
  faulting, the result buffer holding what the last boundary of the program's thirteen segments holds there
  (`Gen.W13`: the launch memory folded through the host stretches and the five regions' write-backs), the
  argument arrays as launched.
-/
import proofs.«150997_j34024730919242_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run, read at the result buffer and at every argument. -/
theorem run_named : θ_run defs (onTc (τ := τ) (main (F := F))) ⟨m, fun _ => 0, ρ⟩ (fun r => ∀ c : Dev nD,
      r.2.mem ((c.tc : Thread nD τ).loc main_v125) = W13 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v125 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.Named

end
-- ==== Proof.KKept.lean ====
/-
  What the idealized kernel program's buffers hold at the boundaries of its segments, for the buffers the later
  segments read: an argument array, the two rows of the edge list and the column of node factors are written once
  (or never) and keep their contents through every later host stretch and every region that does not write them.
-/
import proofs.«150997_j34024730919242_2_alg».proof.Proof.Gen.KernelIdeal.Frame
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.SL.Sem Idealize.ShloMosaic.StableHlo

/-- No operation of the host stretches writes the buffer in question: each operation's written buffer is another one. -/
macro "nw" : tactic => `(tactic| (
  refine List.forall_iff_forall_mem.mp ?_
  simp only [hostOps0, hostOps1, hostOps2, hostOps3, hostOps4, hostOps5, hostOps5_1, hostOps5_2, List.flatten_cons,
    List.flatten_nil, List.append_nil, List.cons_append, List.nil_append, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## Buffers no region touches: the edge rows and the arguments the host stretches slice -/

theorem at2_main_v1 : W2 m ρ c (Proc.devRef .tc main_v1) = W1 m ρ c (Proc.devRef .tc main_v1) := W2_of_ne m ρ c main_v1 (by decide)
theorem at4_main_v1 : W4 m ρ c (Proc.devRef .tc main_v1) = W1 m ρ c (Proc.devRef .tc main_v1) :=
  (W4_of_ne m ρ c main_v1 (by decide)).trans ((after_of_forall_not_mem hostOps1 _ (by nw)).trans (at2_main_v1 m ρ c))
theorem at6_main_v1 : W6 m ρ c (Proc.devRef .tc main_v1) = W1 m ρ c (Proc.devRef .tc main_v1) :=
  (W6_of_ne m ρ c main_v1 (by decide)).trans ((after_of_forall_not_mem hostOps2 _ (by nw)).trans (at4_main_v1 m ρ c))
theorem at8_main_v1 : W8 m ρ c (Proc.devRef .tc main_v1) = W1 m ρ c (Proc.devRef .tc main_v1) :=
  (W8_of_ne m ρ c main_v1 (by decide)).trans ((after_of_forall_not_mem hostOps3 _ (by nw)).trans (at6_main_v1 m ρ c))
theorem at10_main_v1 : W10 m ρ c (Proc.devRef .tc main_v1) = W1 m ρ c (Proc.devRef .tc main_v1) :=
  (W10_of_ne m ρ c main_v1 (by decide)).trans ((after_of_forall_not_mem hostOps4 _ (by nw)).trans (at8_main_v1 m ρ c))
theorem at2_main_v3 : W2 m ρ c (Proc.devRef .tc main_v3) = W1 m ρ c (Proc.devRef .tc main_v3) := W2_of_ne m ρ c main_v3 (by decide)
theorem at4_main_v3 : W4 m ρ c (Proc.devRef .tc main_v3) = W1 m ρ c (Proc.devRef .tc main_v3) :=
  (W4_of_ne m ρ c main_v3 (by decide)).trans ((after_of_forall_not_mem hostOps1 _ (by nw)).trans (at2_main_v3 m ρ c))
theorem at6_main_v3 : W6 m ρ c (Proc.devRef .tc main_v3) = W1 m ρ c (Proc.devRef .tc main_v3) :=
  (W6_of_ne m ρ c main_v3 (by decide)).trans ((after_of_forall_not_mem hostOps2 _ (by nw)).trans (at4_main_v3 m ρ c))
theorem at8_main_v3 : W8 m ρ c (Proc.devRef .tc main_v3) = W1 m ρ c (Proc.devRef .tc main_v3) :=
  (W8_of_ne m ρ c main_v3 (by decide)).trans ((after_of_forall_not_mem hostOps3 _ (by nw)).trans (at6_main_v3 m ρ c))
theorem at10_main_v3 : W10 m ρ c (Proc.devRef .tc main_v3) = W1 m ρ c (Proc.devRef .tc main_v3) :=
  (W10_of_ne m ρ c main_v3 (by decide)).trans ((after_of_forall_not_mem hostOps4 _ (by nw)).trans (at8_main_v3 m ρ c))
theorem at2_main_arg2 : W2 m ρ c (Proc.devRef .tc main_arg2) = W1 m ρ c (Proc.devRef .tc main_arg2) := W2_of_ne m ρ c main_arg2 (by decide)
theorem at4_main_arg2 : W4 m ρ c (Proc.devRef .tc main_arg2) = W1 m ρ c (Proc.devRef .tc main_arg2) :=
  (W4_of_ne m ρ c main_arg2 (by decide)).trans ((after_of_forall_not_mem hostOps1 _ (by nw)).trans (at2_main_arg2 m ρ c))
theorem at6_main_arg2 : W6 m ρ c (Proc.devRef .tc main_arg2) = W1 m ρ c (Proc.devRef .tc main_arg2) :=
  (W6_of_ne m ρ c main_arg2 (by decide)).trans ((after_of_forall_not_mem hostOps2 _ (by nw)).trans (at4_main_arg2 m ρ c))
theorem at8_main_arg2 : W8 m ρ c (Proc.devRef .tc main_arg2) = W1 m ρ c (Proc.devRef .tc main_arg2) :=
  (W8_of_ne m ρ c main_arg2 (by decide)).trans ((after_of_forall_not_mem hostOps3 _ (by nw)).trans (at6_main_arg2 m ρ c))
theorem at10_main_arg2 : W10 m ρ c (Proc.devRef .tc main_arg2) = W1 m ρ c (Proc.devRef .tc main_arg2) :=
  (W10_of_ne m ρ c main_arg2 (by decide)).trans ((after_of_forall_not_mem hostOps4 _ (by nw)).trans (at8_main_arg2 m ρ c))
theorem at2_main_arg5 : W2 m ρ c (Proc.devRef .tc main_arg5) = W1 m ρ c (Proc.devRef .tc main_arg5) := W2_of_ne m ρ c main_arg5 (by decide)
theorem at4_main_arg5 : W4 m ρ c (Proc.devRef .tc main_arg5) = W1 m ρ c (Proc.devRef .tc main_arg5) :=
  (W4_of_ne m ρ c main_arg5 (by decide)).trans ((after_of_forall_not_mem hostOps1 _ (by nw)).trans (at2_main_arg5 m ρ c))
theorem at6_main_arg5 : W6 m ρ c (Proc.devRef .tc main_arg5) = W1 m ρ c (Proc.devRef .tc main_arg5) :=
  (W6_of_ne m ρ c main_arg5 (by decide)).trans ((after_of_forall_not_mem hostOps2 _ (by nw)).trans (at4_main_arg5 m ρ c))
theorem at8_main_arg5 : W8 m ρ c (Proc.devRef .tc main_arg5) = W1 m ρ c (Proc.devRef .tc main_arg5) :=
  (W8_of_ne m ρ c main_arg5 (by decide)).trans ((after_of_forall_not_mem hostOps3 _ (by nw)).trans (at6_main_arg5 m ρ c))
theorem at10_main_arg5 : W10 m ρ c (Proc.devRef .tc main_arg5) = W1 m ρ c (Proc.devRef .tc main_arg5) :=
  (W10_of_ne m ρ c main_arg5 (by decide)).trans ((after_of_forall_not_mem hostOps4 _ (by nw)).trans (at8_main_arg5 m ρ c))
theorem at2_main_arg6 : W2 m ρ c (Proc.devRef .tc main_arg6) = W1 m ρ c (Proc.devRef .tc main_arg6) := W2_of_ne m ρ c main_arg6 (by decide)
theorem at4_main_arg6 : W4 m ρ c (Proc.devRef .tc main_arg6) = W1 m ρ c (Proc.devRef .tc main_arg6) :=
  (W4_of_ne m ρ c main_arg6 (by decide)).trans ((after_of_forall_not_mem hostOps1 _ (by nw)).trans (at2_main_arg6 m ρ c))
theorem at6_main_arg6 : W6 m ρ c (Proc.devRef .tc main_arg6) = W1 m ρ c (Proc.devRef .tc main_arg6) :=
  (W6_of_ne m ρ c main_arg6 (by decide)).trans ((after_of_forall_not_mem hostOps2 _ (by nw)).trans (at4_main_arg6 m ρ c))
theorem at8_main_arg6 : W8 m ρ c (Proc.devRef .tc main_arg6) = W1 m ρ c (Proc.devRef .tc main_arg6) :=
  (W8_of_ne m ρ c main_arg6 (by decide)).trans ((after_of_forall_not_mem hostOps3 _ (by nw)).trans (at6_main_arg6 m ρ c))
theorem at10_main_arg6 : W10 m ρ c (Proc.devRef .tc main_arg6) = W1 m ρ c (Proc.devRef .tc main_arg6) :=
  (W10_of_ne m ρ c main_arg6 (by decide)).trans ((after_of_forall_not_mem hostOps4 _ (by nw)).trans (at8_main_arg6 m ρ c))
theorem at2_main_arg7 : W2 m ρ c (Proc.devRef .tc main_arg7) = W1 m ρ c (Proc.devRef .tc main_arg7) := W2_of_ne m ρ c main_arg7 (by decide)
theorem at4_main_arg7 : W4 m ρ c (Proc.devRef .tc main_arg7) = W1 m ρ c (Proc.devRef .tc main_arg7) :=
  (W4_of_ne m ρ c main_arg7 (by decide)).trans ((after_of_forall_not_mem hostOps1 _ (by nw)).trans (at2_main_arg7 m ρ c))
theorem at6_main_arg7 : W6 m ρ c (Proc.devRef .tc main_arg7) = W1 m ρ c (Proc.devRef .tc main_arg7) :=
  (W6_of_ne m ρ c main_arg7 (by decide)).trans ((after_of_forall_not_mem hostOps2 _ (by nw)).trans (at4_main_arg7 m ρ c))
theorem at8_main_arg7 : W8 m ρ c (Proc.devRef .tc main_arg7) = W1 m ρ c (Proc.devRef .tc main_arg7) :=
  (W8_of_ne m ρ c main_arg7 (by decide)).trans ((after_of_forall_not_mem hostOps3 _ (by nw)).trans (at6_main_arg7 m ρ c))
theorem at10_main_arg7 : W10 m ρ c (Proc.devRef .tc main_arg7) = W1 m ρ c (Proc.devRef .tc main_arg7) :=
  (W10_of_ne m ρ c main_arg7 (by decide)).trans ((after_of_forall_not_mem hostOps4 _ (by nw)).trans (at8_main_arg7 m ρ c))
theorem at2_main_arg8 : W2 m ρ c (Proc.devRef .tc main_arg8) = W1 m ρ c (Proc.devRef .tc main_arg8) := W2_of_ne m ρ c main_arg8 (by decide)
theorem at4_main_arg8 : W4 m ρ c (Proc.devRef .tc main_arg8) = W1 m ρ c (Proc.devRef .tc main_arg8) :=
  (W4_of_ne m ρ c main_arg8 (by decide)).trans ((after_of_forall_not_mem hostOps1 _ (by nw)).trans (at2_main_arg8 m ρ c))
theorem at6_main_arg8 : W6 m ρ c (Proc.devRef .tc main_arg8) = W1 m ρ c (Proc.devRef .tc main_arg8) :=
  (W6_of_ne m ρ c main_arg8 (by decide)).trans ((after_of_forall_not_mem hostOps2 _ (by nw)).trans (at4_main_arg8 m ρ c))
theorem at8_main_arg8 : W8 m ρ c (Proc.devRef .tc main_arg8) = W1 m ρ c (Proc.devRef .tc main_arg8) :=
  (W8_of_ne m ρ c main_arg8 (by decide)).trans ((after_of_forall_not_mem hostOps3 _ (by nw)).trans (at6_main_arg8 m ρ c))
theorem at10_main_arg8 : W10 m ρ c (Proc.devRef .tc main_arg8) = W1 m ρ c (Proc.devRef .tc main_arg8) :=
  (W10_of_ne m ρ c main_arg8 (by decide)).trans ((after_of_forall_not_mem hostOps4 _ (by nw)).trans (at8_main_arg8 m ρ c))
theorem at2_main_arg9 : W2 m ρ c (Proc.devRef .tc main_arg9) = W1 m ρ c (Proc.devRef .tc main_arg9) := W2_of_ne m ρ c main_arg9 (by decide)
theorem at4_main_arg9 : W4 m ρ c (Proc.devRef .tc main_arg9) = W1 m ρ c (Proc.devRef .tc main_arg9) :=
  (W4_of_ne m ρ c main_arg9 (by decide)).trans ((after_of_forall_not_mem hostOps1 _ (by nw)).trans (at2_main_arg9 m ρ c))
theorem at6_main_arg9 : W6 m ρ c (Proc.devRef .tc main_arg9) = W1 m ρ c (Proc.devRef .tc main_arg9) :=
  (W6_of_ne m ρ c main_arg9 (by decide)).trans ((after_of_forall_not_mem hostOps2 _ (by nw)).trans (at4_main_arg9 m ρ c))
theorem at8_main_arg9 : W8 m ρ c (Proc.devRef .tc main_arg9) = W1 m ρ c (Proc.devRef .tc main_arg9) :=
  (W8_of_ne m ρ c main_arg9 (by decide)).trans ((after_of_forall_not_mem hostOps3 _ (by nw)).trans (at6_main_arg9 m ρ c))
theorem at10_main_arg9 : W10 m ρ c (Proc.devRef .tc main_arg9) = W1 m ρ c (Proc.devRef .tc main_arg9) :=
  (W10_of_ne m ρ c main_arg9 (by decide)).trans ((after_of_forall_not_mem hostOps4 _ (by nw)).trans (at8_main_arg9 m ρ c))
theorem at2_main_arg10 : W2 m ρ c (Proc.devRef .tc main_arg10) = W1 m ρ c (Proc.devRef .tc main_arg10) := W2_of_ne m ρ c main_arg10 (by decide)
theorem at4_main_arg10 : W4 m ρ c (Proc.devRef .tc main_arg10) = W1 m ρ c (Proc.devRef .tc main_arg10) :=
  (W4_of_ne m ρ c main_arg10 (by decide)).trans ((after_of_forall_not_mem hostOps1 _ (by nw)).trans (at2_main_arg10 m ρ c))
theorem at6_main_arg10 : W6 m ρ c (Proc.devRef .tc main_arg10) = W1 m ρ c (Proc.devRef .tc main_arg10) :=
  (W6_of_ne m ρ c main_arg10 (by decide)).trans ((after_of_forall_not_mem hostOps2 _ (by nw)).trans (at4_main_arg10 m ρ c))
theorem at8_main_arg10 : W8 m ρ c (Proc.devRef .tc main_arg10) = W1 m ρ c (Proc.devRef .tc main_arg10) :=
  (W8_of_ne m ρ c main_arg10 (by decide)).trans ((after_of_forall_not_mem hostOps3 _ (by nw)).trans (at6_main_arg10 m ρ c))
theorem at10_main_arg10 : W10 m ρ c (Proc.devRef .tc main_arg10) = W1 m ρ c (Proc.devRef .tc main_arg10) :=
  (W10_of_ne m ρ c main_arg10 (by decide)).trans ((after_of_forall_not_mem hostOps4 _ (by nw)).trans (at8_main_arg10 m ρ c))
theorem at2_main_arg11 : W2 m ρ c (Proc.devRef .tc main_arg11) = W1 m ρ c (Proc.devRef .tc main_arg11) := W2_of_ne m ρ c main_arg11 (by decide)
theorem at4_main_arg11 : W4 m ρ c (Proc.devRef .tc main_arg11) = W1 m ρ c (Proc.devRef .tc main_arg11) :=
  (W4_of_ne m ρ c main_arg11 (by decide)).trans ((after_of_forall_not_mem hostOps1 _ (by nw)).trans (at2_main_arg11 m ρ c))
theorem at6_main_arg11 : W6 m ρ c (Proc.devRef .tc main_arg11) = W1 m ρ c (Proc.devRef .tc main_arg11) :=
  (W6_of_ne m ρ c main_arg11 (by decide)).trans ((after_of_forall_not_mem hostOps2 _ (by nw)).trans (at4_main_arg11 m ρ c))
theorem at8_main_arg11 : W8 m ρ c (Proc.devRef .tc main_arg11) = W1 m ρ c (Proc.devRef .tc main_arg11) :=
  (W8_of_ne m ρ c main_arg11 (by decide)).trans ((after_of_forall_not_mem hostOps3 _ (by nw)).trans (at6_main_arg11 m ρ c))
theorem at10_main_arg11 : W10 m ρ c (Proc.devRef .tc main_arg11) = W1 m ρ c (Proc.devRef .tc main_arg11) :=
  (W10_of_ne m ρ c main_arg11 (by decide)).trans ((after_of_forall_not_mem hostOps4 _ (by nw)).trans (at8_main_arg11 m ρ c))
theorem at2_main_arg12 : W2 m ρ c (Proc.devRef .tc main_arg12) = W1 m ρ c (Proc.devRef .tc main_arg12) := W2_of_ne m ρ c main_arg12 (by decide)
theorem at4_main_arg12 : W4 m ρ c (Proc.devRef .tc main_arg12) = W1 m ρ c (Proc.devRef .tc main_arg12) :=
  (W4_of_ne m ρ c main_arg12 (by decide)).trans ((after_of_forall_not_mem hostOps1 _ (by nw)).trans (at2_main_arg12 m ρ c))
theorem at6_main_arg12 : W6 m ρ c (Proc.devRef .tc main_arg12) = W1 m ρ c (Proc.devRef .tc main_arg12) :=
  (W6_of_ne m ρ c main_arg12 (by decide)).trans ((after_of_forall_not_mem hostOps2 _ (by nw)).trans (at4_main_arg12 m ρ c))
theorem at8_main_arg12 : W8 m ρ c (Proc.devRef .tc main_arg12) = W1 m ρ c (Proc.devRef .tc main_arg12) :=
  (W8_of_ne m ρ c main_arg12 (by decide)).trans ((after_of_forall_not_mem hostOps3 _ (by nw)).trans (at6_main_arg12 m ρ c))
theorem at10_main_arg12 : W10 m ρ c (Proc.devRef .tc main_arg12) = W1 m ρ c (Proc.devRef .tc main_arg12) :=
  (W10_of_ne m ρ c main_arg12 (by decide)).trans ((after_of_forall_not_mem hostOps4 _ (by nw)).trans (at8_main_arg12 m ρ c))
theorem at2_main_arg13 : W2 m ρ c (Proc.devRef .tc main_arg13) = W1 m ρ c (Proc.devRef .tc main_arg13) := W2_of_ne m ρ c main_arg13 (by decide)
theorem at4_main_arg13 : W4 m ρ c (Proc.devRef .tc main_arg13) = W1 m ρ c (Proc.devRef .tc main_arg13) :=
  (W4_of_ne m ρ c main_arg13 (by decide)).trans ((after_of_forall_not_mem hostOps1 _ (by nw)).trans (at2_main_arg13 m ρ c))
theorem at6_main_arg13 : W6 m ρ c (Proc.devRef .tc main_arg13) = W1 m ρ c (Proc.devRef .tc main_arg13) :=
  (W6_of_ne m ρ c main_arg13 (by decide)).trans ((after_of_forall_not_mem hostOps2 _ (by nw)).trans (at4_main_arg13 m ρ c))
theorem at8_main_arg13 : W8 m ρ c (Proc.devRef .tc main_arg13) = W1 m ρ c (Proc.devRef .tc main_arg13) :=
  (W8_of_ne m ρ c main_arg13 (by decide)).trans ((after_of_forall_not_mem hostOps3 _ (by nw)).trans (at6_main_arg13 m ρ c))
theorem at10_main_arg13 : W10 m ρ c (Proc.devRef .tc main_arg13) = W1 m ρ c (Proc.devRef .tc main_arg13) :=
  (W10_of_ne m ρ c main_arg13 (by decide)).trans ((after_of_forall_not_mem hostOps4 _ (by nw)).trans (at8_main_arg13 m ρ c))
theorem at2_main_arg14 : W2 m ρ c (Proc.devRef .tc main_arg14) = W1 m ρ c (Proc.devRef .tc main_arg14) := W2_of_ne m ρ c main_arg14 (by decide)
theorem at4_main_arg14 : W4 m ρ c (Proc.devRef .tc main_arg14) = W1 m ρ c (Proc.devRef .tc main_arg14) :=
  (W4_of_ne m ρ c main_arg14 (by decide)).trans ((after_of_forall_not_mem hostOps1 _ (by nw)).trans (at2_main_arg14 m ρ c))
theorem at6_main_arg14 : W6 m ρ c (Proc.devRef .tc main_arg14) = W1 m ρ c (Proc.devRef .tc main_arg14) :=
  (W6_of_ne m ρ c main_arg14 (by decide)).trans ((after_of_forall_not_mem hostOps2 _ (by nw)).trans (at4_main_arg14 m ρ c))
theorem at8_main_arg14 : W8 m ρ c (Proc.devRef .tc main_arg14) = W1 m ρ c (Proc.devRef .tc main_arg14) :=
  (W8_of_ne m ρ c main_arg14 (by decide)).trans ((after_of_forall_not_mem hostOps3 _ (by nw)).trans (at6_main_arg14 m ρ c))
theorem at10_main_arg14 : W10 m ρ c (Proc.devRef .tc main_arg14) = W1 m ρ c (Proc.devRef .tc main_arg14) :=
  (W10_of_ne m ρ c main_arg14 (by decide)).trans ((after_of_forall_not_mem hostOps4 _ (by nw)).trans (at8_main_arg14 m ρ c))

/-! ## The arguments at the first region's entry are the launch contents -/

theorem at1_main_arg2 : W1 m ρ c (Proc.devRef .tc main_arg2) = m ((c : Thread nD τ).loc main_arg2) :=
  after_of_forall_not_mem hostOps0 _ (by nw)
theorem at1_main_arg5 : W1 m ρ c (Proc.devRef .tc main_arg5) = m ((c : Thread nD τ).loc main_arg5) :=
  after_of_forall_not_mem hostOps0 _ (by nw)
theorem at1_main_arg6 : W1 m ρ c (Proc.devRef .tc main_arg6) = m ((c : Thread nD τ).loc main_arg6) :=
  after_of_forall_not_mem hostOps0 _ (by nw)
theorem at1_main_arg7 : W1 m ρ c (Proc.devRef .tc main_arg7) = m ((c : Thread nD τ).loc main_arg7) :=
  after_of_forall_not_mem hostOps0 _ (by nw)
theorem at1_main_arg8 : W1 m ρ c (Proc.devRef .tc main_arg8) = m ((c : Thread nD τ).loc main_arg8) :=
  after_of_forall_not_mem hostOps0 _ (by nw)
theorem at1_main_arg9 : W1 m ρ c (Proc.devRef .tc main_arg9) = m ((c : Thread nD τ).loc main_arg9) :=
  after_of_forall_not_mem hostOps0 _ (by nw)
theorem at1_main_arg10 : W1 m ρ c (Proc.devRef .tc main_arg10) = m ((c : Thread nD τ).loc main_arg10) :=
  after_of_forall_not_mem hostOps0 _ (by nw)
theorem at1_main_arg11 : W1 m ρ c (Proc.devRef .tc main_arg11) = m ((c : Thread nD τ).loc main_arg11) :=
  after_of_forall_not_mem hostOps0 _ (by nw)
theorem at1_main_arg12 : W1 m ρ c (Proc.devRef .tc main_arg12) = m ((c : Thread nD τ).loc main_arg12) :=
  after_of_forall_not_mem hostOps0 _ (by nw)
theorem at1_main_arg13 : W1 m ρ c (Proc.devRef .tc main_arg13) = m ((c : Thread nD τ).loc main_arg13) :=
  after_of_forall_not_mem hostOps0 _ (by nw)
theorem at1_main_arg14 : W1 m ρ c (Proc.devRef .tc main_arg14) = m ((c : Thread nD τ).loc main_arg14) :=
  after_of_forall_not_mem hostOps0 _ (by nw)
theorem at1_main_arg0 : W1 m ρ c (Proc.devRef .tc main_arg0) = m ((c : Thread nD τ).loc main_arg0) :=
  after_of_forall_not_mem hostOps0 _ (by nw)
theorem at1_main_arg3 : W1 m ρ c (Proc.devRef .tc main_arg3) = m ((c : Thread nD τ).loc main_arg3) :=
  after_of_forall_not_mem hostOps0 _ (by nw)
theorem at1_main_arg4 : W1 m ρ c (Proc.devRef .tc main_arg4) = m ((c : Thread nD τ).loc main_arg4) :=
  after_of_forall_not_mem hostOps0 _ (by nw)

/-! ## The column of node factors: an input window of every region -/

theorem at2_main_v11 : W2 m ρ c (Proc.devRef .tc main_v11) = W1 m ρ c (Proc.devRef .tc main_v11) :=
  (W2_arr m ρ c 4).trans (((dat0 (V1 m ρ) c).arrAt_in 4 rfl _).trans (A_eq0 (V1 m ρ) c 4))
theorem at3_main_v11 : W3 m ρ c (Proc.devRef .tc main_v11) = W1 m ρ c (Proc.devRef .tc main_v11) :=
  (after_of_forall_not_mem hostOps1 _ (by nw)).trans (at2_main_v11 m ρ c)
theorem at4_main_v11 : W4 m ρ c (Proc.devRef .tc main_v11) = W1 m ρ c (Proc.devRef .tc main_v11) :=
  ((W4_arr m ρ c 7).trans (((dat1 (V3 m ρ) c).arrAt_in 7 rfl _).trans (A_eq1 (V3 m ρ) c 7))).trans (at3_main_v11 m ρ c)
theorem at5_main_v11 : W5 m ρ c (Proc.devRef .tc main_v11) = W1 m ρ c (Proc.devRef .tc main_v11) :=
  (after_of_forall_not_mem hostOps2 _ (by nw)).trans (at4_main_v11 m ρ c)
theorem at6_main_v11 : W6 m ρ c (Proc.devRef .tc main_v11) = W1 m ρ c (Proc.devRef .tc main_v11) :=
  ((W6_arr m ρ c 7).trans (((dat2 (V5 m ρ) c).arrAt_in 7 rfl _).trans (A_eq2 (V5 m ρ) c 7))).trans (at5_main_v11 m ρ c)
theorem at7_main_v11 : W7 m ρ c (Proc.devRef .tc main_v11) = W1 m ρ c (Proc.devRef .tc main_v11) :=
  (after_of_forall_not_mem hostOps3 _ (by nw)).trans (at6_main_v11 m ρ c)
theorem at8_main_v11 : W8 m ρ c (Proc.devRef .tc main_v11) = W1 m ρ c (Proc.devRef .tc main_v11) :=
  ((W8_arr m ρ c 7).trans (((dat3 (V7 m ρ) c).arrAt_in 7 rfl _).trans (A_eq3 (V7 m ρ) c 7))).trans (at7_main_v11 m ρ c)
theorem at9_main_v11 : W9 m ρ c (Proc.devRef .tc main_v11) = W1 m ρ c (Proc.devRef .tc main_v11) :=
  (after_of_forall_not_mem hostOps4 _ (by nw)).trans (at8_main_v11 m ρ c)

/-! ## A region's output passes the host stretch after it unchanged -/

theorem at3_main_v14 : W3 m ρ c (Proc.devRef .tc main_v14) = W2 m ρ c (Proc.devRef .tc main_v14) :=
  after_of_forall_not_mem hostOps1 _ (by nw)
theorem at5_main_v37 : W5 m ρ c (Proc.devRef .tc main_v37) = W4 m ρ c (Proc.devRef .tc main_v37) :=
  after_of_forall_not_mem hostOps2 _ (by nw)
theorem at7_main_v60 : W7 m ρ c (Proc.devRef .tc main_v60) = W6 m ρ c (Proc.devRef .tc main_v60) :=
  after_of_forall_not_mem hostOps3 _ (by nw)
theorem at9_main_v83 : W9 m ρ c (Proc.devRef .tc main_v83) = W8 m ρ c (Proc.devRef .tc main_v83) :=
  after_of_forall_not_mem hostOps4 _ (by nw)

end Cert.KernelIdeal.Kept

end
-- ==== Proof.KTail.lean ====
/-
  The kernel program's last host stretches — the mean over each graph's nodes and the two-layer read-out — as one
  function of the node features the last region wrote and of the arguments they read. The reference program ends
  with the same operations, so this function is never opened: the two results are equal once the node features are.
-/
import proofs.«150997_j34024730919242_2_alg».proof.Proof.KKept

set_option maxRecDepth 16384

noncomputable section

namespace Cert.KernelIdeal.Tail

open Cert.KernelIdeal Cert.KernelIdeal.Facts₀
open Idealize.ShloMosaic Idealize.ShloMosaic.TcCoe Idealize.SL.Sem Idealize.ShloMosaic.StableHlo

/-- Graph means of the node features `h` along the assignment `batch`, then `max (· w1 + b1) 0`, then `· w2 + b2`. -/
def tailOp (h : FVec Ideal S100000x128 .f32) (batch : IVec S100000 32) (w1 : FVec Ideal S128x64 .f32)
    (b1 : FVec Ideal S64 .f32) (w2 : FVec Ideal S64x10 .f32) (b2 : FVec Ideal S10 .f32) : FVec Ideal S256x10 .f32 :=
  addf (Host.dotGeneral (F := Ideal) dot_S256x64_S64x10_S256x10_1_0_0_1_n_n none
      (maximumf (addf (Host.dotGeneral (F := Ideal) dot_S256x128_S128x64_S256x64_1_0_0_1_n_n none
          (Host.divf
            (Host.scatterAdd (F := Ideal) scatter_S256x128_S100000x1_S100000x128_1_0_0_1
              (broadcastInDim S256x128 ![] bcast_S_S256x128 (constant (F := Ideal) S_ .f32 0x00000000#32))
              (broadcastInDim S100000x1 ![0] bcast_S100000_S100000x1_0 batch) h)
            (broadcastInDim S256x128 ![0, 1] bcast_S256x1_S256x128_0_1 (broadcastInDim S256x1 ![0] bcast_S256_S256x1_0
              (maximumf
                (Host.scatterAdd (F := Ideal) scatter_S256_S100000x1_S100000_n_0_0_1
                  (broadcastInDim S256 ![] bcast_S_S256 (constant (F := Ideal) S_ .f32 0x00000000#32))
                  (broadcastInDim S100000x1 ![0] bcast_S100000_S100000x1_0 batch)
                  (broadcastInDim S100000 ![] bcast_S_S100000 (constant (F := Ideal) S_ .f32 0x3F800000#32)))
                (broadcastInDim S256 ![] bcast_S_S256 (constant (F := Ideal) S_ .f32 0x3F800000#32))))))
          w1) (broadcastInDim S256x64 ![0, 1] bcast_S1x64_S256x64_0_1 (broadcastInDim S1x64 ![1] bcast_S64_S1x64_1 b1)))
        (broadcastInDim S256x64 ![] bcast_S_S256x64 (constant (F := Ideal) S_ .f32 0x00000000#32)))
      w2) (broadcastInDim S256x10 ![0, 1] bcast_S1x10_S256x10_0_1 (broadcastInDim S1x10 ![1] bcast_S10_S1x10_1 b2))

variable (m : (ℓ : Loc nD τ sig) → Buf (Elt Ideal) ℓ) (ρ : Dev nD → PrngReg) (c : Dev nD)

set_option maxHeartbeats 2000000 in
/-- The program's result is the read-out of the node features the last region left. -/
theorem result_eq : (Gen.W13 m ρ c (Proc.devRef .tc main_v125) : S256x10.Idx → EReal)
    = tailOp (Gen.W10 m ρ c (Proc.devRef .tc main_v104) : FVec Ideal S100000x128 .f32) (m ((c : Thread nD τ).loc main_arg2)) (m ((c : Thread nD τ).loc main_arg11))
        (m ((c : Thread nD τ).loc main_arg12)) (m ((c : Thread nD τ).loc main_arg13)) (m ((c : Thread nD τ).loc main_arg14)) := by
  have e13 : Gen.W12 m ρ c (Proc.devRef .tc main_arg13) = m ((c : Thread nD τ).loc main_arg13) :=
    (after_of_forall_not_mem Gen.hostOps5_1 _ (by nw)).trans ((after_of_forall_not_mem Gen.hostOps5 _ (by nw)).trans
      ((Kept.at10_main_arg13 m ρ c).trans (Kept.at1_main_arg13 m ρ c)))
  have e14 : Gen.W12 m ρ c (Proc.devRef .tc main_arg14) = m ((c : Thread nD τ).loc main_arg14) :=
    (after_of_forall_not_mem Gen.hostOps5_1 _ (by nw)).trans ((after_of_forall_not_mem Gen.hostOps5 _ (by nw)).trans
      ((Kept.at10_main_arg14 m ρ c).trans (Kept.at1_main_arg14 m ρ c)))
  have e2 : Gen.W10 m ρ c (Proc.devRef .tc main_arg2) = m ((c : Thread nD τ).loc main_arg2) :=
    (Kept.at10_main_arg2 m ρ c).trans (Kept.at1_main_arg2 m ρ c)
  have e11 : Gen.W10 m ρ c (Proc.devRef .tc main_arg11) = m ((c : Thread nD τ).loc main_arg11) :=
    (Kept.at10_main_arg11 m ρ c).trans (Kept.at1_main_arg11 m ρ c)
  have e12 : Gen.W10 m ρ c (Proc.devRef .tc main_arg12) = m ((c : Thread nD τ).loc main_arg12) :=
    (Kept.at10_main_arg12 m ρ c).trans (Kept.at1_main_arg12 m ρ c)
  have s3 : (Gen.W13 m ρ c (Proc.devRef .tc main_v125) : S256x10.Idx → EReal)
      = addf (Host.dotGeneral (F := Ideal) (φ₁ := .f32) (φ₂ := .f32) dot_S256x64_S64x10_S256x10_1_0_0_1_n_n none (Gen.W12 m ρ c (Proc.devRef .tc main_v121) : FVec Ideal S256x64 .f32)
          (Gen.W12 m ρ c (Proc.devRef .tc main_arg13) : FVec Ideal S64x10 .f32))
        (broadcastInDim S256x10 ![0, 1] bcast_S1x10_S256x10_0_1 (broadcastInDim S1x10 ![1] bcast_S10_S1x10_1
          (Gen.W12 m ρ c (Proc.devRef .tc main_arg14) : FVec Ideal S10 .f32))) := by
    show StableHlo.after Gen.hostOps5_2 (Gen.W12 m ρ c) (Proc.devRef .tc main_v125) = _
    generalize Gen.W12 m ρ c = W
    after_results
    all_goals rfl
  have s2 : (Gen.W12 m ρ c (Proc.devRef .tc main_v121) : S256x64.Idx → EReal)
      = maximumf (Gen.W11 m ρ c (Proc.devRef .tc main_v120) : FVec Ideal S256x64 .f32)
          (broadcastInDim S256x64 ![] bcast_S_S256x64 (constant (F := Ideal) S_ .f32 0x00000000#32)) := by
    show StableHlo.after Gen.hostOps5_1 (Gen.W11 m ρ c) (Proc.devRef .tc main_v121) = _
    generalize Gen.W11 m ρ c = W
    after_results
    all_goals rfl
  have s1 : (Gen.W11 m ρ c (Proc.devRef .tc main_v120) : S256x64.Idx → EReal)
      = addf (Host.dotGeneral (F := Ideal) (φ₁ := .f32) (φ₂ := .f32) dot_S256x128_S128x64_S256x64_1_0_0_1_n_n none
          (Host.divf
            (Host.scatterAdd (F := Ideal) scatter_S256x128_S100000x1_S100000x128_1_0_0_1
              (broadcastInDim S256x128 ![] bcast_S_S256x128 (constant (F := Ideal) S_ .f32 0x00000000#32))
              (broadcastInDim S100000x1 ![0] bcast_S100000_S100000x1_0 (Gen.W10 m ρ c (Proc.devRef .tc main_arg2) : IVec S100000 32))
              (Gen.W10 m ρ c (Proc.devRef .tc main_v104) : FVec Ideal S100000x128 .f32))
            (broadcastInDim S256x128 ![0, 1] bcast_S256x1_S256x128_0_1 (broadcastInDim S256x1 ![0] bcast_S256_S256x1_0
              (maximumf
                (Host.scatterAdd (F := Ideal) scatter_S256_S100000x1_S100000_n_0_0_1
                  (broadcastInDim S256 ![] bcast_S_S256 (constant (F := Ideal) S_ .f32 0x00000000#32))
                  (broadcastInDim S100000x1 ![0] bcast_S100000_S100000x1_0 (Gen.W10 m ρ c (Proc.devRef .tc main_arg2) : IVec S100000 32))
                  (broadcastInDim S100000 ![] bcast_S_S100000 (constant (F := Ideal) S_ .f32 0x3F800000#32)))
                (broadcastInDim S256 ![] bcast_S_S256 (constant (F := Ideal) S_ .f32 0x3F800000#32))))))
          (Gen.W10 m ρ c (Proc.devRef .tc main_arg11) : FVec Ideal S128x64 .f32))
        (broadcastInDim S256x64 ![0, 1] bcast_S1x64_S256x64_0_1 (broadcastInDim S1x64 ![1] bcast_S64_S1x64_1
          (Gen.W10 m ρ c (Proc.devRef .tc main_arg12) : FVec Ideal S64 .f32))) := by
    show StableHlo.after Gen.hostOps5 (Gen.W10 m ρ c) (Proc.devRef .tc main_v120) = _
    generalize Gen.W10 m ρ c = W
    after_results
    all_goals rfl
  rw [s3, s2, s1, e13, e14, e2, e11, e12]
  rfl

end Cert.KernelIdeal.Tail

end
-- ==== Proof.LibScatter.lean ====
/-
  A host scatter read at one index.

  `Host.scatter d f x idx upd` is the left fold, over the update indices in row-major order, of the step
  "replace the element at the update's landing index by `f` of it and the update". Read at one operand
  index `i` the fold only sees the updates that land on `i`; when at most one does, the result there is
  `f (x i) (upd j)` for that one update `j`, or `x i` when none lands. Where an update lands
  (`ScatterDims.resultIdx?`) is, coordinate by coordinate, its start plus its window coordinate.
-/
import Idealize.ShloMosaic.PureOps

namespace Idealize.ShloMosaic

/-! ## A fold of pointwise overwrites, read at one index -/

section Fold

variable {ι κ α : Type} (g : ι → Option κ) (f : α → α → α) (v : ι → α)
  (step : (κ → α) → ι → (κ → α)) (i : κ)

/-- A fold of steps none of which touches `i` leaves the value at `i`. -/
theorem foldl_overwrite_miss (hmiss : ∀ r n, g n ≠ some i → step r n i = r i) :
    ∀ (l : List ι) (r : κ → α), (∀ n ∈ l, g n ≠ some i) → l.foldl step r i = r i
  | [], _, _ => rfl
  | a :: l, r, h => by
    rw [List.foldl_cons, foldl_overwrite_miss hmiss l (step r a) fun n hn => h n (List.mem_cons_of_mem _ hn)]
    exact hmiss r a (h a List.mem_cons_self)

/-- A fold over a list without repetitions in which exactly one step, `n`, touches `i`: the value at `i`
    is that step's. -/
theorem foldl_overwrite_hit (hmiss : ∀ r n, g n ≠ some i → step r n i = r i)
    (hhit : ∀ r n, g n = some i → step r n i = f (r i) (v n)) (n : ι) (hn : g n = some i) :
    ∀ (l : List ι) (r : κ → α), l.Nodup → n ∈ l → (∀ n' ∈ l, g n' = some i → n' = n) →
      l.foldl step r i = f (r i) (v n)
  | [], _, _, hmem, _ => absurd hmem List.not_mem_nil
  | a :: l, r, hnd, hmem, huniq => by
    rw [List.foldl_cons]
    by_cases ha : a = n
    · subst ha
      have hnot : a ∉ l := (List.nodup_cons.mp hnd).1
      rw [foldl_overwrite_miss g step i hmiss l (step r a) fun n' hn' hg =>
        hnot (huniq n' (List.mem_cons_of_mem _ hn') hg ▸ hn')]
      exact hhit r a hn
    · have hga : g a ≠ some i := fun hg => ha (huniq a List.mem_cons_self hg)
      have hmem' : n ∈ l := (List.mem_cons.mp hmem).resolve_left fun e => ha e.symm
      rw [foldl_overwrite_hit hmiss hhit n hn l (step r a) (List.nodup_cons.mp hnd).2 hmem'
        fun n' hn' => huniq n' (List.mem_cons_of_mem _ hn'), hmiss r a hga]

end Fold

/-! ## The host scatter at an index -/

namespace Host

variable {s si u : Shape} {α : Type} {w : Nat}

/-- The scatter's step leaves an index the update does not land on. -/
private theorem scatter_step_miss (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  generalize d.resultIdx? (u.rowMajor.symm n) idx = o at h
  cases o with
  | none => rfl
  | some k =>
    have hne : i ≠ k := fun e => h (congrArg some e.symm)
    dsimp only
    exact if_neg hne

/-- The scatter's step at the index the update lands on. -/
private theorem scatter_step_hit (d : ScatterDims s si u) (f : α → α → α) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then f (r k) (upd (u.rowMajor.symm n)) else r i'
      | none => r) i = f (r i) (upd (u.rowMajor.symm n)) := by
  generalize d.resultIdx? (u.rowMajor.symm n) idx = o at h
  cases o with
  | none => exact absurd h (by simp)
  | some k =>
    have hk : k = i := Option.some.inj h
    subst hk
    dsimp only
    exact if_pos rfl

/-- No update lands on `i`: the scatter leaves the operand's element. -/
theorem scatter_apply_of_miss (d : ScatterDims s si u) (f : α → α → α) (x : s.Idx → α) (idx : IVec si w) (upd : u.Idx → α)
    (i : s.Idx) (hmiss : ∀ j, d.resultIdx? j idx ≠ some i) : Host.scatter d f x idx upd i = x i := by
  unfold Host.scatter
  exact foldl_overwrite_miss (fun n => d.resultIdx? (u.rowMajor.symm n) idx) _ i
    (fun r n h => scatter_step_miss d f idx upd i r n h) _ x fun n _ => hmiss _

/-- Exactly one update, `j`, lands on `i`: the scatter's element there is `f` of the operand's and that update. -/
theorem scatter_apply_of_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  unfold Host.scatter
  have hn : d.resultIdx? (u.rowMajor.symm (u.rowMajor j)) idx = some i := by rw [Equiv.symm_apply_apply]; exact hj
  have h := foldl_overwrite_hit (fun n => d.resultIdx? (u.rowMajor.symm n) idx) f (fun n => upd (u.rowMajor.symm n)) _ i
    (fun r n h => scatter_step_miss d f idx upd i r n h) (fun r n h => scatter_step_hit d f idx upd i r n h)
    (u.rowMajor j) hn (List.finRange u.numel) x (List.nodup_finRange _) (List.mem_finRange _)
    (fun n' _ hg => (Equiv.symm_apply_eq _).mp (huniq _ hg))
  exact h.trans (by rw [Equiv.symm_apply_apply])

end Host

/-! ## Where an update lands -/

namespace ScatterDims

variable {s si u : Shape} (d : ScatterDims s si u) {w : Nat}

/-- Update `j` lands on `i` exactly when, on every operand axis, `i`'s coordinate is the start plus the
    window coordinate. -/
theorem resultIdx?_eq_some_iff (j : u.Idx) (idx : IVec si w) (i : s.Idx) :
    d.resultIdx? j idx = some i ↔ ∀ a, ((i a).val : Int) = d.start j idx a + d.window j a := by
  unfold resultIdx?
  constructor
  · intro h a
    split at h
    · rename_i hb
      have e := congrFun (Option.some.inj h) a
      have e' : (d.start j idx a + ↑(d.window j a)).toNat = (i a).val := congrArg Fin.val e
      have := (hb a).1
      omega
    · exact absurd h (by simp)
  · intro h
    have hb : ∀ a, 0 ≤ d.start j idx a + ↑(d.window j a) ∧ d.start j idx a + ↑(d.window j a) < ↑(s.size a) := fun a => by
      have := h a; have := (i a).isLt; omega
    rw [dif_pos hb]
    refine congrArg some (funext fun a => Fin.ext ?_)
    show (d.start j idx a + ↑(d.window j a)).toNat = (i a).val
    have := h a; omega

end ScatterDims

end Idealize.ShloMosaic
-- ==== Proof.LibEdges.lean ====
/-
  Gathers and accumulating scatters along the node axis, read at an index.

  An array of `E` node numbers (signed 32-bit words, as an `[E, 1]` column of start indices) selects rows of a
  node-indexed operand (`[N]` or `[N, C]`): a gather reads the operand at the number clamped into `[0, N − 1]`;
  an accumulating scatter adds update `e` to the operand's row whose number IS the word read signed, and drops it
  when that is no row. At the extended reals the accumulating scatter at row `n` is the operand's entry plus the sum
  over all `e` of the updates whose number is `n`.
-/
import Idealize.ShloMosaic.Lib.ValueIdx
import Idealize.ShloMosaic.PureOps.Ideal.Laws
import proofs.«150997_j34024730919242_2_alg».proof.Proof.LibScatter

noncomputable section

open scoped BigOperators

namespace Cert.Edges

open Idealize.ShloMosaic Idealize.ShloMosaic.ValueIdx

variable {α : Type}

/-! ## Gathers -/

/-- Rows of an `[N, C]` operand selected by `E` start indices. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an `[N]` operand selected by `E` start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A word read signed and clamped into `[0, N − 1]`: the row a gather reads. -/
def clampRow (N : Nat) (hN : 0 < N) (v : BitVec 32) : Fin N := ⟨min v.toInt.toNat (N - 1), by omega⟩

/-- Entry `(e, f)` of the gathered rows is the operand's entry `f` in the row start index `e` names. -/
theorem rowsGather_apply {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (f : Fin C) :
    Host.gather (rowsGather N C E wf) x idx (ix2 e f) = x (ix2 (clampRow N hN (idx (ix2 e 0))) f) := by
  unfold Host.gather
  congr 1
  funext a
  refine Fin.ext ?_
  have hsi : (rowsGather N C E wf).siIdx (ix2 e f) ⟨List.idxOf (0 : Fin 2) (rowsGather N C E wf).startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show (rowsGather N C E wf).start (ix2 e f) idx 0 + (rowsGather N C E wf).batchCoord (ix2 e f) 0
      + (rowsGather N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl), hsi]
    rfl
  | ⟨1, _⟩ =>
    show (rowsGather N C E wf).start (ix2 e f) idx 1 + (rowsGather N C E wf).batchCoord (ix2 e f) 1
      + (rowsGather N C E wf).offCoord (ix2 e f) 1 = f.val
    rw [GatherDims.batchCoord_eq_zero _ _ _ List.not_mem_nil]
    have hs : (rowsGather N C E wf).start (ix2 e f) idx 1 = 0 := by
      unfold GatherDims.start
      rw [dif_neg (show (1 : Fin 2) ∉ ([0] : List (Fin 2)) by decide)]
    rw [hs]
    simp only [Nat.add_zero, Nat.zero_add]
    rfl

/-- Entry `e` of the gathered vector is the operand's entry that start index `e` names. -/
theorem vecGather_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGather N E wf) x idx (ix1 e) = x (ix1 (clampRow N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Accumulating scatters -/

/-- Updates `[E, C]` added into rows of an `[N, C]` operand. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Updates `[E]` added into entries of an `[N]` operand. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `(e, f)` lands on `(n, g)` exactly when index `e`, read signed, is `n`, and `f = g`. -/
theorem rowsScatter_lands {N C E : Nat} (wf : ScatterDims.WF ⟨2, ![N, C]⟩ ⟨2, ![E, 1]⟩ ⟨2, ![E, C]⟩ [1] [0] [0] 1)
    (idx : IVec ⟨2, ![E, 1]⟩ 32) (e : Fin E) (f : Fin C) (n : Fin N) (g : Fin C) :
    (rowsScatter N C E wf).resultIdx? (ix2 e f) idx = some (ix2 n g) ↔ (idx (ix2 e 0)).toInt = (n.val : ℤ) ∧ f = g := by
  rw [ScatterDims.resultIdx?_eq_some_iff]
  have hsi : (rowsScatter N C E wf).siIdx (ix2 e f) ⟨List.idxOf (0 : Fin 2) (rowsScatter N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (rowsScatter N C E wf).start (ix2 e f) idx 0 = (idx (ix2 e 0)).toInt := by
    unfold ScatterDims.start
    rw [dif_pos (show (0 : Fin 2) ∈ (rowsScatter N C E wf).scatterDimsToOperandDims from List.mem_singleton.mpr rfl), hsi]
  have h1 : (rowsScatter N C E wf).start (ix2 e f) idx 1 = 0 := by
    unfold ScatterDims.start
    rw [dif_neg (show (1 : Fin 2) ∉ ([0] : List (Fin 2)) by decide)]
  have w0 : (rowsScatter N C E wf).window (ix2 e f) 0 = 0 := by
    unfold ScatterDims.window
    have hm : (0 : Fin 2) ∉ (rowsScatter N C E wf).sKept := by
      show (0 : Fin 2) ∉ (List.finRange 2).filter (fun a => a ∉ ([0] : List (Fin 2)))
      decide
    rw [dif_neg hm]
  have w1 : (rowsScatter N C E wf).window (ix2 e f) 1 = f.val := by
    unfold ScatterDims.window
    have hm : (1 : Fin 2) ∈ (rowsScatter N C E wf).sKept := by
      show (1 : Fin 2) ∈ (List.finRange 2).filter (fun a => a ∉ ([0] : List (Fin 2)))
      decide
    rw [dif_pos hm]
    rfl
  constructor
  · intro h
    have a0 : (n.val : ℤ) = (rowsScatter N C E wf).start (ix2 e f) idx 0 + ((rowsScatter N C E wf).window (ix2 e f) 0 : ℕ) := h 0
    have a1 : (g.val : ℤ) = (rowsScatter N C E wf).start (ix2 e f) idx 1 + ((rowsScatter N C E wf).window (ix2 e f) 1 : ℕ) := h 1
    rw [h0, w0] at a0
    rw [h1, w1] at a1
    exact ⟨by omega, Fin.ext (by omega)⟩
  · rintro ⟨hn, rfl⟩ a
    match a with
    | ⟨0, _⟩ =>
      show (n.val : ℤ) = (rowsScatter N C E wf).start (ix2 e f) idx 0 + ((rowsScatter N C E wf).window (ix2 e f) 0 : ℕ)
      rw [h0, w0, hn]; simp
    | ⟨1, _⟩ =>
      show (f.val : ℤ) = (rowsScatter N C E wf).start (ix2 e f) idx 1 + ((rowsScatter N C E wf).window (ix2 e f) 1 : ℕ)
      rw [h1, w1]; simp

/-- Update `e` lands on entry `n` exactly when index `e`, read signed, is `n`. -/
theorem vecScatter_lands {N E : Nat} (wf : ScatterDims.WF ⟨1, ![N]⟩ ⟨2, ![E, 1]⟩ ⟨1, ![E]⟩ [] [0] [0] 1)
    (idx : IVec ⟨2, ![E, 1]⟩ 32) (e : Fin E) (n : Fin N) :
    (vecScatter N E wf).resultIdx? (ix1 e) idx = some (ix1 n) ↔ (idx (ix2 e 0)).toInt = (n.val : ℤ) := by
  rw [ScatterDims.resultIdx?_eq_some_iff]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (vecScatter N E wf).start (ix1 e) idx 0 = (idx (ix2 e 0)).toInt := by
    unfold ScatterDims.start
    rw [dif_pos (show (0 : Fin 1) ∈ (vecScatter N E wf).scatterDimsToOperandDims from List.mem_singleton.mpr rfl), hsi]
  have w0 : (vecScatter N E wf).window (ix1 e) 0 = 0 := by
    unfold ScatterDims.window
    have hm : (0 : Fin 1) ∉ (vecScatter N E wf).sKept := by
      show (0 : Fin 1) ∉ (List.finRange 1).filter (fun a => a ∉ ([0] : List (Fin 1)))
      decide
    rw [dif_neg hm]
  constructor
  · intro h
    have a0 : (n.val : ℤ) = (vecScatter N E wf).start (ix1 e) idx 0 + ((vecScatter N E wf).window (ix1 e) 0 : ℕ) := h 0
    rw [h0, w0] at a0
    omega
  · intro hn a
    obtain rfl : a = 0 := Subsingleton.elim _ _
    show (n.val : ℤ) = (vecScatter N E wf).start (ix1 e) idx 0 + ((vecScatter N E wf).window (ix1 e) 0 : ℕ)
    rw [h0, w0, hn]; simp

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The accumulating scatter of rows at the extended reals, at entry `(n, g)`: the operand's entry plus the sum
    over the updates `e` whose index is `n` of their entry `g`. -/
theorem rowsScatterAdd_apply {N C E : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32) (upd : FVec Ideal ⟨2, ![E, C]⟩ .f32) (n : Fin N) (g : Fin C) :
    Host.scatterAdd (F := Ideal) (rowsScatter N C E wf) x idx upd (ix2 n g)
      = x (ix2 n g) + ∑ e : Fin E, if (idx (ix2 e 0)).toInt = (n.val : ℤ) then upd (ix2 e g) else 0 := by
  show x (ix2 n g) + ∑ j ∈ Finset.univ.filter (fun j => (rowsScatter N C E wf).resultIdx? j idx = some (ix2 n g)), upd j = _
  congr 1
  rw [Finset.sum_filter, sum_idx2]
  refine Finset.sum_congr rfl fun e _ => ?_
  simp only [rowsScatter_lands]
  by_cases h : (idx (ix2 e 0)).toInt = (n.val : ℤ)
  · simp only [h, true_and, if_true]
    rw [Finset.sum_ite_eq' Finset.univ g (fun f => upd (ix2 e f))]
    simp
  · simp [h]

/-- The accumulating scatter of entries at the extended reals, at entry `n`: the operand's entry plus the sum
    of the updates `e` whose index is `n`. -/
theorem vecScatterAdd_apply {N E : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ 32) (upd : FVec Ideal ⟨1, ![E]⟩ .f32) (n : Fin N) :
    Host.scatterAdd (F := Ideal) (vecScatter N E wf) x idx upd (ix1 n)
      = x (ix1 n) + ∑ e : Fin E, if (idx (ix2 e 0)).toInt = (n.val : ℤ) then upd (ix1 e) else 0 := by
  show x (ix1 n) + ∑ j ∈ Finset.univ.filter (fun j => (vecScatter N E wf).resultIdx? j idx = some (ix1 n)), upd j = _
  congr 1
  rw [Finset.sum_filter, sum_idx1]
  refine Finset.sum_congr rfl fun e _ => ?_
  simp only [vecScatter_lands]

end Cert.Edges

end
-- ==== Proof.EdgeIdx.lean ====
/-
  Node numbers carried as signed 32-bit words.

  A message's source node is read from its word after the negative-index fix-up (a negative word has the node count
  100000 added) and clamped into the rows; a message is added to node `n` when its target word, read signed, IS
  `n`. A word that reads signed as a node number is left alone by the fix-up and by the clamp, so the row gathered
  at a message's target word is the node the message lands on.
-/
import Idealize.ShloMosaic.Lib.ValueIdx
import Idealize.ShloMosaic.Lib.ValueLayout
import Idealize.ShloMosaic.Lib.Pipeline.Value
import Idealize.ShloMosaic.Lib.Affine
import proofs.«150997_j34024730919242_2_alg».proof.Proof.LibEdges

noncomputable section

namespace Cert.Gcn4

open Idealize.ShloMosaic Idealize.ShloMosaic.ValueIdx

/-- The negative-index fix-up of one word. -/
def fixWord (w : BitVec 32) : BitVec 32 := Scalar.select (IntOp.cmpi .slt w 0#32) (IntOp.addi w 100000#32) w

/-- The row a gather reads at a word: fixed up, read signed, clamped into the 100000 rows. -/
def row (w : BitVec 32) : Fin 100000 := Cert.Edges.clampRow 100000 (by norm_num) (fixWord w)

/-- A word that reads signed as the node `n` gathers row `n`. -/
theorem row_of_toInt (w : BitVec 32) (n : Fin 100000) (h : w.toInt = (n.val : ℤ)) : row w = n := by
  have hfix : fixWord w = w := by
    unfold fixWord Scalar.select
    rw [if_neg]
    intro hc
    have hlt := (IntOp.cmpi_slt).mp hc
    have h0 : (0#32 : BitVec 32).toInt = 0 := by decide
    rw [h0] at hlt
    omega
  unfold row Cert.Edges.clampRow
  rw [hfix]
  refine Fin.ext ?_
  show min w.toInt.toNat (100000 - 1) = n.val
  have := n.isLt
  omega

/-- The column of fixed-up words, read at message `e`. -/
theorem fixCol_apply (h0 : (⟨0, ![]⟩ : Shape).BroadcastsInDim ⟨1, ![1600000]⟩ ![])
    (h1 : (⟨1, ![1600000]⟩ : Shape).BroadcastsInDim ⟨2, ![1600000, 1]⟩ ![0]) (src : IVec ⟨1, ![1600000]⟩ 32) (e : Fin 1600000) :
    broadcastInDim ⟨2, ![1600000, 1]⟩ ![0] h1
      (select (cmpi .slt src (broadcastInDim ⟨1, ![1600000]⟩ ![] h0 (constantI ⟨0, ![]⟩ 32 0#32)))
        (addi src (broadcastInDim ⟨1, ![1600000]⟩ ![] h0 (constantI ⟨0, ![]⟩ 32 100000#32))) src) (ix2 e 0)
      = fixWord (src (ix1 e)) := by
  rw [broadcastInDim_apply ![0] h1 _ (ix2 e 0) (ix1 e) (fun a => by
    obtain rfl : a = 0 := Subsingleton.elim _ _
    rfl)]
  rfl

/-- The column of raw words, read at message `e`. -/
theorem rawCol_apply (h1 : (⟨1, ![1600000]⟩ : Shape).BroadcastsInDim ⟨2, ![1600000, 1]⟩ ![0]) (dst : IVec ⟨1, ![1600000]⟩ 32)
    (e : Fin 1600000) : broadcastInDim ⟨2, ![1600000, 1]⟩ ![0] h1 dst (ix2 e 0) = dst (ix1 e) :=
  broadcastInDim_apply ![0] h1 _ (ix2 e 0) (ix1 e) (fun a => by
    obtain rfl : a = 0 := Subsingleton.elim _ _
    rfl)

end Cert.Gcn4

end
-- ==== Proof.KAgg.lean ====
/-
  The kernel program's aggregation between two regions, read at an entry: rows of a node-feature matrix are gathered
  at the messages' source words and added into a zero matrix at the messages' target words. Entry `(n, q)` of the
  result is the sum, over the messages that land on node `n`, of entry `q` of the row their source word names.
-/
import proofs.«150997_j34024730919242_2_alg».proof.KernelIdeal
import proofs.«150997_j34024730919242_2_alg».proof.Proof.Gen.KernelIdeal
import proofs.«150997_j34024730919242_2_alg».proof.Proof.EdgeIdx
import Idealize.ShloMosaic.PureOps.Ideal.Laws

noncomputable section

open scoped BigOperators

namespace Cert.KernelIdeal.Agg

open Cert.KernelIdeal Cert.KernelIdeal.Facts₀ Idealize.ShloMosaic Idealize.ShloMosaic.ValueIdx

/-- The host operations between two regions that aggregate the rows `y` along the edge list `(src, dst)`. -/
def aggOp (y : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 y
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

theorem agg_apply (y : FVec Ideal S100000x128 .f32) (src dst : IVec S1600000 32) (n : Fin 100000) (q : Fin 128) :
    aggOp y src dst (ix2 n q)
      = 0 + ∑ e : Fin 1600000, if (dst (ix1 e)).toInt = (n.val : ℤ) then y (ix2 (Cert.Gcn4.row (src (ix1 e))) q) else 0 := by
  unfold aggOp
  have wfS : ScatterDims.WF (⟨2, ![100000, 128]⟩ : Shape) ⟨2, ![1600000, 1]⟩ ⟨2, ![1600000, 128]⟩ [1] [0] [0] 1 :=
    scatter_S100000x128_S1600000x1_S1600000x128_1_0_0_1.wf
  have wfG : GatherDims.WF (⟨2, ![100000, 128]⟩ : Shape) ⟨2, ![1600000, 1]⟩ ⟨2, ![1600000, 128]⟩ [1] [0] [] [0] [] 1 ![1, 128] :=
    gather_S100000x128_S1600000x1_S1600000x128_1_0_n_n_0_1_1128.wf
  have hs : scatter_S100000x128_S1600000x1_S1600000x128_1_0_0_1 = Cert.Edges.rowsScatter 100000 128 1600000 wfS := rfl
  have hg : gather_S100000x128_S1600000x1_S1600000x128_1_0_n_n_0_1_1128 = Cert.Edges.rowsGather 100000 128 1600000 wfG := rfl
  rw [hs, hg, Cert.Edges.rowsScatterAdd_apply]
  refine congrArg₂ (· + ·) ?_ ?_
  · exact (broadcastInDim_apply (s := S_) (t := S100000x128) ![] bcast_S_S100000x128
      (constant (F := Ideal) S_ .f32 0x00000000#32) (ix2 n q) (fun a => a.elim0) (fun a => a.elim0)).trans Ideal.ofBits_zero_f32
  · refine Finset.sum_congr rfl fun e _ => ?_
    rw [Cert.Gcn4.rawCol_apply, Cert.Edges.rowsGather_apply (by norm_num), Cert.Gcn4.fixCol_apply]
    rfl

end Cert.KernelIdeal.Agg

end
-- ==== Proof.KHost.lean ====
/-
  The aggregates the idealized kernel program's host stretches compute between its regions, read at an entry, over
  the edge list as the first host stretch cut it out of the argument (its two rows of words keep their contents to
  the end of the program).
-/
import proofs.«150997_j34024730919242_2_alg».proof.Proof.KKept
import proofs.«150997_j34024730919242_2_alg».proof.Proof.KAgg

set_option maxRecDepth 16384

noncomputable section

open scoped BigOperators

namespace Cert.KernelIdeal.HostSide

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The messages' source words, as the first host stretch leaves them. -/
abbrev srcW : S1600000.Idx → BitVec 32 := W1 m ρ c (Proc.devRef .tc main_v1)
/-- The messages' target words. -/
abbrev dstW : S1600000.Idx → BitVec 32 := W1 m ρ c (Proc.devRef .tc main_v3)

/-- The rows region 0 wrote, as the host stretch after it finds them. -/
abbrev Y0 : S100000x128.Idx → EReal := W2 m ρ c (Proc.devRef .tc main_v14)
/-- The aggregate the host stretch before region 1 leaves. -/
abbrev A1 : S100000x128.Idx → EReal := W3 m ρ c (Proc.devRef .tc main_v24)

set_option maxHeartbeats 2000000 in
theorem A1_eq : A1 m ρ c = Agg.aggOp (Y0 m ρ c) (W2 m ρ c (Proc.devRef .tc main_v1)) (W2 m ρ c (Proc.devRef .tc main_v3)) := by
  show StableHlo.after hostOps1 (W2 m ρ c) (Proc.devRef .tc main_v24) = _
  after_results
  rfl

/-- Entry `(n, q)` of that aggregate: the rows summed along the edge list. -/
theorem agg1 (n : Fin 100000) (q : Fin 128) :
    A1 m ρ c (ix2 n q) = 0 + ∑ e : Fin 1600000, if (dstW m ρ c (ix1 e)).toInt = (n.val : ℤ)
        then Y0 m ρ c (ix2 (Cert.Gcn4.row (srcW m ρ c (ix1 e))) q) else 0 := by
  rw [A1_eq, Agg.agg_apply, Kept.at2_main_v3, Kept.at2_main_v1]

/-- The rows region 1 wrote, as the host stretch after it finds them. -/
abbrev Y1 : S100000x128.Idx → EReal := W4 m ρ c (Proc.devRef .tc main_v37)
/-- The aggregate the host stretch before region 2 leaves. -/
abbrev A2 : S100000x128.Idx → EReal := W5 m ρ c (Proc.devRef .tc main_v47)

set_option maxHeartbeats 2000000 in
theorem A2_eq : A2 m ρ c = Agg.aggOp (Y1 m ρ c) (W4 m ρ c (Proc.devRef .tc main_v1)) (W4 m ρ c (Proc.devRef .tc main_v3)) := by
  show StableHlo.after hostOps2 (W4 m ρ c) (Proc.devRef .tc main_v47) = _
  after_results
  rfl

/-- Entry `(n, q)` of that aggregate: the rows summed along the edge list. -/
theorem agg2 (n : Fin 100000) (q : Fin 128) :
    A2 m ρ c (ix2 n q) = 0 + ∑ e : Fin 1600000, if (dstW m ρ c (ix1 e)).toInt = (n.val : ℤ)
        then Y1 m ρ c (ix2 (Cert.Gcn4.row (srcW m ρ c (ix1 e))) q) else 0 := by
  rw [A2_eq, Agg.agg_apply, Kept.at4_main_v3, Kept.at4_main_v1]

/-- The rows region 2 wrote, as the host stretch after it finds them. -/
abbrev Y2 : S100000x128.Idx → EReal := W6 m ρ c (Proc.devRef .tc main_v60)
/-- The aggregate the host stretch before region 3 leaves. -/
abbrev A3 : S100000x128.Idx → EReal := W7 m ρ c (Proc.devRef .tc main_v70)

set_option maxHeartbeats 2000000 in
theorem A3_eq : A3 m ρ c = Agg.aggOp (Y2 m ρ c) (W6 m ρ c (Proc.devRef .tc main_v1)) (W6 m ρ c (Proc.devRef .tc main_v3)) := by
  show StableHlo.after hostOps3 (W6 m ρ c) (Proc.devRef .tc main_v70) = _
  after_results
  rfl

/-- Entry `(n, q)` of that aggregate: the rows summed along the edge list. -/
theorem agg3 (n : Fin 100000) (q : Fin 128) :
    A3 m ρ c (ix2 n q) = 0 + ∑ e : Fin 1600000, if (dstW m ρ c (ix1 e)).toInt = (n.val : ℤ)
        then Y2 m ρ c (ix2 (Cert.Gcn4.row (srcW m ρ c (ix1 e))) q) else 0 := by
  rw [A3_eq, Agg.agg_apply, Kept.at6_main_v3, Kept.at6_main_v1]

/-- The rows region 3 wrote, as the host stretch after it finds them. -/
abbrev Y3 : S100000x128.Idx → EReal := W8 m ρ c (Proc.devRef .tc main_v83)
/-- The aggregate the host stretch before region 4 leaves. -/
abbrev A4 : S100000x128.Idx → EReal := W9 m ρ c (Proc.devRef .tc main_v93)

set_option maxHeartbeats 2000000 in
theorem A4_eq : A4 m ρ c = Agg.aggOp (Y3 m ρ c) (W8 m ρ c (Proc.devRef .tc main_v1)) (W8 m ρ c (Proc.devRef .tc main_v3)) := by
  show StableHlo.after hostOps4 (W8 m ρ c) (Proc.devRef .tc main_v93) = _
  after_results
  rfl

/-- Entry `(n, q)` of that aggregate: the rows summed along the edge list. -/
theorem agg4 (n : Fin 100000) (q : Fin 128) :
    A4 m ρ c (ix2 n q) = 0 + ∑ e : Fin 1600000, if (dstW m ρ c (ix1 e)).toInt = (n.val : ℤ)
        then Y3 m ρ c (ix2 (Cert.Gcn4.row (srcW m ρ c (ix1 e))) q) else 0 := by
  rw [A4_eq, Agg.agg_apply, Kept.at8_main_v3, Kept.at8_main_v1]

end Cert.KernelIdeal.HostSide

end
-- ==== Proof.KBodyLib.lean ====
/-
  Reading the three operations of the kernel bodies that are not pointwise, at one entry (p, q) of a block of
  5000 rows and 128 columns.

  * A column [5000, 1] broadcast along the columns reads, at (p, q), the column's entry of row p.
  * A vector of 128 entries viewed as one row [1, 128] and broadcast along the rows reads, at (p, q), the
    vector's entry q.
  * The product of a [5000, 128] block with a [128, 128] matrix, accumulated into zero, reads at (p, q) the sum
    over k of the block's (p, k) times the matrix's (k, q): the contraction has one axis of 128 positions, and
    the sum over contraction positions is re-indexed by that axis's coordinate.
-/
import proofs.«150997_j34024730919242_2_alg».proof.Proof.Gen.KernelIdeal
import Idealize.ShloMosaic.Lib.ValueLayout
import Idealize.ShloMosaic.PureOps.Ideal.Laws

noncomputable section

open scoped BigOperators

namespace Cert.KernelIdeal.Regions

open Idealize.ShloMosaic Idealize.ShloMosaic.ValueIdx Cert.KernelIdeal

variable {α : Type}

/-- A column broadcast along the columns: entry (p, c) is the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector viewed as one row and broadcast along the rows: entry (p, c) is the vector's entry c. -/
theorem broadcastTo_row_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 (0 : Fin 1) c)

/-- The product's left operand is read on the output's row. -/
theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The product's right operand is read on the output's column. -/
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block-times-matrix product into a zero accumulator, at (p, q): the sum over the 128 contraction
    positions k of the block's (p, k) times the matrix's (k, q). -/
theorem matmul_zero_apply (prec : Option ContractPrecision) (lhs : FVec Ideal S5000x128 .f32) (rhs : FVec Ideal S128x128 .f32)
    (p : Fin 5000) (q : Fin 128) :
    matmul dot_S5000x128_S128x128_S5000x128_1_0_0_1_n_n prec lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n prec lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact dot_lhs_row _ _
      | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl (ix2 p q) _).trans hk
      | ⟨1, _⟩ => exact dot_rhs_col _ _)
  rw [el, er]

end Cert.KernelIdeal.Regions

end
-- ==== Proof.KBody0.lean ====
/-
  The body of the first kernel, read at one entry of its block of 5000 rows.

  For a row p of the block the body forms the first hidden layer, the rectified product of the row with the first
  weight matrix plus the bias, multiplies that hidden row by the second weight matrix, and scales the product's row
  by the row's factor. So entry (p, q) of what the body stores is
      (sum over k of  max ((sum over j of x (p, j) * w0 (j, k)) + b k) 0 * w1 (k, q)) * factor p.
-/
import proofs.«150997_j34024730919242_2_alg».proof.Proof.Gen.KernelIdeal.Frame
import proofs.«150997_j34024730919242_2_alg».proof.Proof.KBodyLib

noncomputable section

open scoped BigOperators

namespace Cert.KernelIdeal.Regions

open Idealize.ShloMosaic Idealize.ShloMosaic.ValueIdx Cert.KernelIdeal Cert.KernelIdeal.Gen

theorem zero2_0 : (![0, 0] : Fin 2 → Nat) = fun _ => 0 := funext fun a => by fin_cases a <;> rfl
theorem zero1_0 : (![0] : Fin 1 → Nat) = fun _ => 0 := funext fun a => by fin_cases a; rfl

/-- What the first kernel's body stores, at (p, q). -/
theorem out0_5_apply (x0 : Vec Ideal S5000x128 .f32) (x1 : Vec Ideal S128x128 .f32) (x2 : Vec Ideal S128 .f32)
    (x3 : Vec Ideal S128x128 .f32) (x4 : Vec Ideal S5000x1 .f32) (p : Fin 5000) (q : Fin 128) :
    out0_5 (F := Ideal) x0 x1 x2 x3 x4 (ix2 p q)
      = (∑ k : Fin 128, max ((∑ j : Fin 128, x0 (ix2 p j) * x1 (ix2 j k)) + x2 (ix1 k)) (Ideal.ofBits .f32 0x00000000#32)
          * x3 (ix2 k q)) * x4 (ix2 p 0) := by
  unfold out0_5
  rw [View.canon_unit_zero zero2_0]
  simp only [View.ld_unit_zero (S := S5000x128) zero2_0, View.ld_unit_zero (S := S128) zero1_0,
    View.ld_unit_zero (S := S5000x1) zero2_0, View.ld_unit_zero (S := S128x128) zero2_0]
  unfold k0_pay1
  simp only [shapeCast_self]
  refine (mulf_apply _ _ _).trans ?_
  rw [broadcastTo_a1_ab_apply]
  refine congrArg (· * x4 (ix2 p 0)) ?_
  refine (matmul_zero_apply _ _ _ p q).trans ?_
  refine Finset.sum_congr rfl fun k _ => ?_
  refine congrArg (· * x3 (ix2 k q)) ?_
  refine (maximumf_apply _ _ _).trans ?_
  refine congrArg₂ max ?_ rfl
  refine (addf_apply _ _ _).trans ?_
  rw [matmul_zero_apply, broadcastTo_row_apply]

end Cert.KernelIdeal.Regions

end
-- ==== Proof.Spec.lean ====
/-
  The pieces of the network both programs compute, read at one entry.

  Nodes are the 100000 rows of a feature matrix with 128 columns. `lin h w` is the product of a feature matrix with
  a 128 × 128 weight matrix; `hidden0` the first hidden layer, the rectified `x · w + b`; `norm` takes an aggregated
  entry `a` of column `q`, adds the layer's bias, normalises by the running mean and variance
  (`(· − mean) · (var + ε)^(-1/2) · γ + β`) and rectifies.
-/
import Idealize.ShloMosaic.PureOps.Ideal
import Idealize.ShloMosaic.Lib.ValueIdx

noncomputable section

open scoped BigOperators

namespace Cert.Gcn4

open Idealize.ShloMosaic Idealize.ShloMosaic.ValueIdx

/-- Entry `(n, q)` of the product of a feature matrix (given row by row) with a weight matrix. -/
def lin (h : Fin 100000 → Fin 128 → EReal) (w : (⟨2, ![128, 128]⟩ : Shape).Idx → EReal) (n : Fin 100000) (q : Fin 128) : EReal :=
  ∑ k : Fin 128, h n k * w (ix2 k q)

/-- The first hidden layer at `(n, q)`: `max (x · w + b) 0`. -/
def hidden0 (x : (⟨2, ![100000, 128]⟩ : Shape).Idx → EReal) (w : (⟨2, ![128, 128]⟩ : Shape).Idx → EReal)
    (b : (⟨1, ![128]⟩ : Shape).Idx → EReal) (n : Fin 100000) (q : Fin 128) : EReal :=
  max (lin (fun n k => x (ix2 n k)) w n q + b (ix1 q)) (Ideal.ofBits .f32 0x00000000#32)

/-- Bias, normalisation by running statistics and the rectifier, applied to an aggregated entry `a` of column `q`. -/
def norm (b rm rv g be : (⟨1, ![128]⟩ : Shape).Idx → EReal) (a : EReal) (q : Fin 128) : EReal :=
  max ((((a + b (ix1 q)) - rm (ix1 q)) * Ideal.rsqrt (rv (ix1 q) + Ideal.ofBits .f32 0x3727C5AC#32)) * g (ix1 q)
    + be (ix1 q)) (Ideal.ofBits .f32 0x00000000#32)

end Cert.Gcn4

end
-- ==== Proof.KRegionSpec.lean ====
/-
  The three whole-array results of the kernels, one entry at a time, over arrays given as functions on their literal
  index sets (100000 nodes, 128 columns).

  * projRow: the first kernel. Row n of the first hidden layer times the second weight matrix, scaled by the factor
    of node n.
  * combineRow: a combine-and-multiply kernel. The normalised hidden layer is formed entry by entry from the
    aggregated matrix and the layer's own matrix (their sum scaled by the node's factor, then bias, running
    statistics, scale, shift and rectifier); row n of it times the weight matrix, scaled by the factor of node n.
  * finalRow: the last kernel. The normalised hidden entry itself.
-/
import proofs.«150997_j34024730919242_2_alg».proof.Proof.Spec

noncomputable section

open scoped BigOperators

namespace Cert.KernelIdeal.Regions

open Idealize.ShloMosaic Idealize.ShloMosaic.ValueIdx

/-- Entry (n, q) of the first kernel's result. -/
def projRow (x : (⟨2, ![100000, 128]⟩ : Shape).Idx → EReal) (w0 : (⟨2, ![128, 128]⟩ : Shape).Idx → EReal)
    (b0 : (⟨1, ![128]⟩ : Shape).Idx → EReal) (w1 : (⟨2, ![128, 128]⟩ : Shape).Idx → EReal)
    (d : (⟨2, ![100000, 1]⟩ : Shape).Idx → EReal) (n : Fin 100000) (q : Fin 128) : EReal :=
  Cert.Gcn4.lin (Cert.Gcn4.hidden0 x w0 b0) w1 n q * d (ix2 n 0)

/-- Entry (n, q) of a combine-and-multiply kernel's result. -/
def combineRow (agg hw : (⟨2, ![100000, 128]⟩ : Shape).Idx → EReal) (b g be rm rv : (⟨1, ![128]⟩ : Shape).Idx → EReal)
    (d : (⟨2, ![100000, 1]⟩ : Shape).Idx → EReal) (w : (⟨2, ![128, 128]⟩ : Shape).Idx → EReal) (n : Fin 100000) (q : Fin 128) : EReal :=
  Cert.Gcn4.lin (fun n' k => Cert.Gcn4.norm b rm rv g be (d (ix2 n' 0) * (agg (ix2 n' k) + hw (ix2 n' k))) k) w n q * d (ix2 n 0)

/-- Entry (n, q) of the last kernel's result. -/
def finalRow (agg hw : (⟨2, ![100000, 128]⟩ : Shape).Idx → EReal) (b g be rm rv : (⟨1, ![128]⟩ : Shape).Idx → EReal)
    (d : (⟨2, ![100000, 1]⟩ : Shape).Idx → EReal) (n : Fin 100000) (q : Fin 128) : EReal :=
  Cert.Gcn4.norm b rm rv g be (d (ix2 n 0) * (agg (ix2 n q) + hw (ix2 n q))) q

end Cert.KernelIdeal.Regions

end
-- ==== Proof.KRegion0.lean ====
/-
  The first kernel: from the blocks to the whole array.

  The kernel runs over 20 grid points; point t works on rows 5000 t to 5000 t + 4999 of the input features and of the
  column of node factors, and on the whole of the two weight matrices and the bias. What point t writes back is rows
  5000 t ... of ONE function of the arrays as the region finds them: row n of the first hidden layer times the second
  weight matrix, scaled by the factor of node n. Row n is covered by point n / 5000, so after the last point the
  output array holds that function everywhere.
-/
import proofs.«150997_j34024730919242_2_alg».proof.Proof.KBody0
import proofs.«150997_j34024730919242_2_alg».proof.Proof.KRegionSpec
import Idealize.ShloMosaic.Lib.Pipeline.Value

noncomputable section

open scoped BigOperators

namespace Cert.KernelIdeal.Regions

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block index of every window at every grid point: the row windows move with the point, the weights and the
    bias stay at their one block. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The whole output array as one function of the arrays the region finds. -/
def whole0 (c : Dev nD) : S100000x128.Idx → EReal := fun i =>
  projRow (V c main_arg0) (V c main_arg3) (V c main_arg4) (V c main_v13) (V c main_v11)
    ⟨(i 0).val, idx2_lt0 i⟩ ⟨(i 1).val, idx2_lt1 i⟩

/-- The block of the input features at point t is rows 5000 t ... of the array. -/
theorem rows0_0 (c : Dev nD) (t : Fin cfg0.N) (p : Fin 5000) (n : Fin 100000) (hn : n.val = t.val * 5000 + p.val) (k : Fin 128) :
    iblk0 V c 0 t (ix2 p k) = (V c main_arg0 : S100000x128.Idx → EReal) (ix2 n k) := by
  obtain ⟨e00, e01, -⟩ := index_facts0 t
  show V c main_arg0 (((cfg0.win 0).blk t).view.emb (ix2 p k)) = _
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- The block of the column of node factors at point t is rows 5000 t ... of the column. -/
theorem rows0_4 (c : Dev nD) (t : Fin cfg0.N) (p : Fin 5000) (n : Fin 100000) (hn : n.val = t.val * 5000 + p.val) :
    iblk0 V c 4 t (ix2 p (0 : Fin 1)) = (V c main_v11 : S100000x1.Idx → EReal) (ix2 n (0 : Fin 1)) := by
  obtain ⟨-, -, -, -, -, -, -, e40, e41, -⟩ := index_facts0 t
  show V c main_v11 (((cfg0.win 4).blk t).view.emb (ix2 p (0 : Fin 1))) = _
  refine congrArg _ (funext fun a => Fin.ext ?_)
  match a with
  | ⟨0, _⟩ => show win0_4.index t (0 : Fin 2) * 5000 + 1 * p.val = n.val; omega
  | ⟨1, _⟩ => show win0_4.index t (1 : Fin 2) * 1 + 1 * 0 = 0; omega

/-- The block of a weight matrix or of the bias is the whole operand, at every point. -/
theorem small0_1 (c : Dev nD) (t : Fin cfg0.N) : iblk0 V c 1 t = (V c main_arg3 : S128x128.Idx → EReal) := by
  obtain ⟨-, -, e10, e11, -⟩ := index_facts0 t
  funext j
  show V c main_arg3 (((cfg0.win 1).blk t).view.emb j) = V c main_arg3 j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

theorem small0_2 (c : Dev nD) (t : Fin cfg0.N) : iblk0 V c 2 t = (V c main_arg4 : S128.Idx → EReal) := by
  obtain ⟨-, -, -, -, e, -⟩ := index_facts0 t
  funext j
  show V c main_arg4 (((cfg0.win 2).blk t).view.emb j) = V c main_arg4 j
  refine congrArg _ (funext fun a => Fin.ext ?_)
  match a with
  | ⟨0, _⟩ => show win0_2.index t (0 : Fin 1) * 128 + 1 * (j 0).val = (j 0).val; omega

theorem small0_3 (c : Dev nD) (t : Fin cfg0.N) : iblk0 V c 3 t = (V c main_v13 : S128x128.Idx → EReal) := by
  obtain ⟨-, -, -, -, -, e30, e31, -⟩ := index_facts0 t
  funext j
  show V c main_v13 (((cfg0.win 3).blk t).view.emb j) = V c main_v13 j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- What point t writes back is its block of the whole-array function. -/
theorem flushed0_eq (c : Dev nD) (t : Fin cfg0.N) :
    (dat0 (F := Ideal) V c).flushed 5 t = ((cfg0.win 5).blk t).view.read (Elt Ideal) (whole0 V c) := by
  show (cfg0.win 5).cut (grid0.coords t) ((dat0 V c).after 5 t) = _
  rw [after0_5]
  funext j
  obtain ⟨p, q, rfl⟩ : ∃ (p : Fin 5000) (q : Fin 128), j = ix2 p q := ⟨j 0, j 1, eq_ix2 j⟩
  have ht : t.val < 20 := Nat.lt_of_lt_of_eq t.isLt N_0
  have hn : t.val * 5000 + p.val < 100000 := by have := p.isLt; omega
  obtain ⟨-, -, -, -, -, -, -, -, -, e50, e51⟩ := index_facts0 t
  have hemb : ((cfg0.win 5).blk t).view.emb (ix2 p q) = (ix2 (⟨t.val * 5000 + p.val, hn⟩ : Fin 100000) q : S100000x128.Idx) :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  refine (out0_5_apply (iblk0 V c 0 t) (iblk0 V c 1 t) (iblk0 V c 2 t) (iblk0 V c 3 t) (iblk0 V c 4 t) p q).trans ?_
  rw [View.read_apply, hemb, small0_1, small0_2, small0_3, rows0_4 V c t p ⟨t.val * 5000 + p.val, hn⟩ rfl]
  simp only [rows0_0 V c t p ⟨t.val * 5000 + p.val, hn⟩ rfl]
  rfl

/-- A row of the array is in point t's block exactly when it is one of the block's 5000 rows. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v14).slice (win0_5.rect t)).set ↔ _
  rw [View.set_slice_whole, Rect.mem_set_unit]
  exact Iff.rfl

/-- Every row is covered: row r by point r / 5000. -/
theorem cover0 (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have htl : (i 0).val / 5000 < cfg0.N := Nat.lt_of_lt_of_eq (by omega : (i 0).val / 5000 < 20) N_0.symm
  obtain ⟨-, -, -, -, -, -, -, -, -, e50, e51⟩ := index_facts0 ⟨(i 0).val / 5000, htl⟩
  refine ⟨⟨(i 0).val / 5000, htl⟩, flush0_5 _, ?_⟩
  rw [mem_blk0]
  intro a
  match a with
  | ⟨0, _⟩ =>
    show win0_5.index ⟨(i 0).val / 5000, htl⟩ (0 : Fin 2) * 5000 ≤ (i 0).val ∧ (i 0).val < win0_5.index ⟨(i 0).val / 5000, htl⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, htl⟩ (1 : Fin 2) * 128 ≤ (i 1).val ∧ (i 1).val < win0_5.index ⟨(i 0).val / 5000, htl⟩ (1 : Fin 2) * 128 + 128
    rw [e51]; omega

/-- The output array after the region, entry by entry: row n of the first hidden layer times the second weight
    matrix, scaled by the factor of node n. -/
theorem region0_array (c : Dev nD) (n : Fin 100000) (q : Fin 128) :
    (dat0 (F := Ideal) V c).arrAt 5 cfg0.N (ix2 n q)
      = projRow (V c main_arg0) (V c main_arg3) (V c main_arg4) (V c main_v13) (V c main_v11) n q := by
  rw [(dat0 V c).arrAt_eq_of_cover 5 (whole0 V c) (fun t _ => flushed0_eq V c t) (cover0)]
  rfl

end Cert.KernelIdeal.Regions

end
-- ==== Proof.KBody1.lean ====
/-
  The body of the three combine-and-multiply kernels, read at one entry of its block of 5000 rows.

  For a row p of the block the body first forms, column by column, the normalised hidden entry: the row's factor
  times the sum of the aggregated entry and the row's own entry, then bias, running statistics, scale, shift and the
  rectifier. It multiplies that row by the 128 x 128 weight matrix and scales the product's row by the row's factor
  once more. So entry (p, q) of what the body stores is
      (sum over k of  norm(factor p * (agg (p, k) + own (p, k))) k * weight (k, q)) * factor p.
  The second and third kernels have the same body, so their stored blocks are the same function of their inputs.
-/
import proofs.«150997_j34024730919242_2_alg».proof.Proof.Gen.KernelIdeal.Frame
import proofs.«150997_j34024730919242_2_alg».proof.Proof.KBodyLib
import proofs.«150997_j34024730919242_2_alg».proof.Proof.Spec

noncomputable section

open scoped BigOperators

namespace Cert.KernelIdeal.Regions

open Idealize.ShloMosaic Idealize.ShloMosaic.ValueIdx Cert.KernelIdeal Cert.KernelIdeal.Gen

theorem zero2 : (![0, 0] : Fin 2 → Nat) = fun _ => 0 := funext fun a => by fin_cases a <;> rfl
theorem zero1 : (![0] : Fin 1 → Nat) = fun _ => 0 := funext fun a => by fin_cases a; rfl

/-- The product of the normalised hidden row with the weight matrix, at (p, q). -/
theorem combine_product_apply (v0 : Vec Ideal S5000x1 .f32) (v2 v4 : Vec Ideal S5000x128 .f32)
    (v9 v14 v19 v27 v32 : Vec Ideal S128 .f32) (v39 : Vec Ideal S128x128 .f32) (p : Fin 5000) (q : Fin 128) :
    k1_pay3 (F := Ideal) v0 v2 v4 v9 v14 v19 v27 v32 v39 (ix2 p q)
      = ∑ k : Fin 128, Cert.Gcn4.norm v9 v19 v14 v27 v32 (v0 (ix2 p 0) * (v2 (ix2 p k) + v4 (ix2 p k))) k * v39 (ix2 k q) := by
  unfold k1_pay3 k1_pay2
  simp only [shapeCast_self]
  refine (matmul_zero_apply _ _ _ p q).trans ?_
  refine Finset.sum_congr rfl fun k _ => ?_
  unfold Cert.Gcn4.norm
  simp only [maximumf_apply, addf_apply, mulf_apply, subf_apply, broadcast_apply, broadcastTo_row_apply, broadcastTo_a1_ab_apply]
  rfl

/-- What the first combine kernel's body stores, at (p, q). -/
theorem out1_9_apply (x0 x1 : Vec Ideal S5000x128 .f32) (x2 x3 x4 x5 x6 : Vec Ideal S128 .f32) (x7 : Vec Ideal S5000x1 .f32)
    (x8 : Vec Ideal S128x128 .f32) (p : Fin 5000) (q : Fin 128) :
    out1_9 (F := Ideal) x0 x1 x2 x3 x4 x5 x6 x7 x8 (ix2 p q)
      = (∑ k : Fin 128, Cert.Gcn4.norm x2 x5 x6 x3 x4 (x7 (ix2 p 0) * (x0 (ix2 p k) + x1 (ix2 p k))) k * x8 (ix2 k q)) * x7 (ix2 p 0) := by
  unfold out1_9
  rw [View.canon_unit_zero zero2]
  simp only [View.ld_unit_zero (S := S5000x128) zero2, View.ld_unit_zero (S := S128) zero1,
    View.ld_unit_zero (S := S5000x1) zero2, View.ld_unit_zero (S := S128x128) zero2]
  unfold k1_pay1 k1_pay4 k1_pay2
  refine (mulf_apply _ _ _).trans ?_
  rw [combine_product_apply, shapeCast_self, broadcastTo_a1_ab_apply]

/-- The second and third combine kernels store the same function of their inputs. -/
theorem out2_9_eq : @out2_9 = @out1_9 := rfl
theorem out3_9_eq : @out3_9 = @out1_9 := rfl

end Cert.KernelIdeal.Regions

end
-- ==== Proof.KRegion1.lean ====
/-
  Combine kernel number 1: from the blocks to the whole array.

  The kernel runs over 20 grid points; point t works on rows 5000 t to 5000 t + 4999 of the feature matrices and of the
  column of node factors, and on the whole of the small operands (bias, scale, shift, running statistics, weight).
  What point t writes back is rows 5000 t ... of ONE function of the arrays as the region finds them: row n of the
  normalised hidden layer times the weight matrix, scaled by the factor of node n. Row n is covered by point n / 5000,
  so after the last point the output array holds that function everywhere.
-/
import proofs.«150997_j34024730919242_2_alg».proof.Proof.KBody1
import proofs.«150997_j34024730919242_2_alg».proof.Proof.KRegionSpec
import Idealize.ShloMosaic.Lib.Pipeline.Value

noncomputable section

open scoped BigOperators

namespace Cert.KernelIdeal.Regions

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block index of every window at every grid point: the row windows move with the point, the small operands
    stay at their one block. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 1) = 0
    ∧ win1_4.index t (0 : Fin 1) = 0
    ∧ win1_5.index t (0 : Fin 1) = 0
    ∧ win1_6.index t (0 : Fin 1) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The whole output array as one function of the arrays the region finds. -/
def whole1 (c : Dev nD) : S100000x128.Idx → EReal := fun i =>
  combineRow (V c main_v24) (V c main_v14) (V c main_v26) (V c main_v28) (V c main_v30) (V c main_v32) (V c main_v34) (V c main_v11) (V c main_v36)
    ⟨(i 0).val, idx2_lt0 i⟩ ⟨(i 1).val, idx2_lt1 i⟩

/-- A row block of a feature matrix at point t is rows 5000 t ... of the array. -/
theorem rows1_0 (c : Dev nD) (t : Fin cfg1.N) (p : Fin 5000) (n : Fin 100000) (hn : n.val = t.val * 5000 + p.val) (k : Fin 128) :
    iblk1 V c 0 t (ix2 p k) = (V c main_v24 : S100000x128.Idx → EReal) (ix2 n k) := by
  obtain ⟨e00, e01, -⟩ := index_facts1 t
  show V c main_v24 (((cfg1.win 0).blk t).view.emb (ix2 p k)) = _
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

theorem rows1_1 (c : Dev nD) (t : Fin cfg1.N) (p : Fin 5000) (n : Fin 100000) (hn : n.val = t.val * 5000 + p.val) (k : Fin 128) :
    iblk1 V c 1 t (ix2 p k) = (V c main_v14 : S100000x128.Idx → EReal) (ix2 n k) := by
  obtain ⟨-, -, e10, e11, -⟩ := index_facts1 t
  show V c main_v14 (((cfg1.win 1).blk t).view.emb (ix2 p k)) = _
  refine congrArg _ (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- The block of the column of node factors at point t is rows 5000 t ... of the column. -/
theorem rows1_7 (c : Dev nD) (t : Fin cfg1.N) (p : Fin 5000) (n : Fin 100000) (hn : n.val = t.val * 5000 + p.val) :
    iblk1 V c 7 t (ix2 p (0 : Fin 1)) = (V c main_v11 : S100000x1.Idx → EReal) (ix2 n (0 : Fin 1)) := by
  obtain ⟨-, -, -, -, -, -, -, -, -, e70, e71, -⟩ := index_facts1 t
  show V c main_v11 (((cfg1.win 7).blk t).view.emb (ix2 p (0 : Fin 1))) = _
  refine congrArg _ (funext fun a => Fin.ext ?_)
  match a with
  | ⟨0, _⟩ => show win1_7.index t (0 : Fin 2) * 5000 + 1 * p.val = n.val; omega
  | ⟨1, _⟩ => show win1_7.index t (1 : Fin 2) * 1 + 1 * 0 = 0; omega

/-- The block of a small operand is the whole operand, at every point. -/
theorem small1_2 (c : Dev nD) (t : Fin cfg1.N) : iblk1 V c 2 t = (V c main_v26 : S128.Idx → EReal) := by
  obtain ⟨-, -, -, -, e, -⟩ := index_facts1 t
  funext j
  show V c main_v26 (((cfg1.win 2).blk t).view.emb j) = V c main_v26 j
  refine congrArg _ (funext fun a => Fin.ext ?_)
  match a with
  | ⟨0, _⟩ => show win1_2.index t (0 : Fin 1) * 128 + 1 * (j 0).val = (j 0).val; omega

theorem small1_3 (c : Dev nD) (t : Fin cfg1.N) : iblk1 V c 3 t = (V c main_v28 : S128.Idx → EReal) := by
  obtain ⟨-, -, -, -, -, e, -⟩ := index_facts1 t
  funext j
  show V c main_v28 (((cfg1.win 3).blk t).view.emb j) = V c main_v28 j
  refine congrArg _ (funext fun a => Fin.ext ?_)
  match a with
  | ⟨0, _⟩ => show win1_3.index t (0 : Fin 1) * 128 + 1 * (j 0).val = (j 0).val; omega

theorem small1_4 (c : Dev nD) (t : Fin cfg1.N) : iblk1 V c 4 t = (V c main_v30 : S128.Idx → EReal) := by
  obtain ⟨-, -, -, -, -, -, e, -⟩ := index_facts1 t
  funext j
  show V c main_v30 (((cfg1.win 4).blk t).view.emb j) = V c main_v30 j
  refine congrArg _ (funext fun a => Fin.ext ?_)
  match a with
  | ⟨0, _⟩ => show win1_4.index t (0 : Fin 1) * 128 + 1 * (j 0).val = (j 0).val; omega

theorem small1_5 (c : Dev nD) (t : Fin cfg1.N) : iblk1 V c 5 t = (V c main_v32 : S128.Idx → EReal) := by
  obtain ⟨-, -, -, -, -, -, -, e, -⟩ := index_facts1 t
  funext j
  show V c main_v32 (((cfg1.win 5).blk t).view.emb j) = V c main_v32 j
  refine congrArg _ (funext fun a => Fin.ext ?_)
  match a with
  | ⟨0, _⟩ => show win1_5.index t (0 : Fin 1) * 128 + 1 * (j 0).val = (j 0).val; omega

theorem small1_6 (c : Dev nD) (t : Fin cfg1.N) : iblk1 V c 6 t = (V c main_v34 : S128.Idx → EReal) := by
  obtain ⟨-, -, -, -, -, -, -, -, e, -⟩ := index_facts1 t
  funext j
  show V c main_v34 (((cfg1.win 6).blk t).view.emb j) = V c main_v34 j
  refine congrArg _ (funext fun a => Fin.ext ?_)
  match a with
  | ⟨0, _⟩ => show win1_6.index t (0 : Fin 1) * 128 + 1 * (j 0).val = (j 0).val; omega

theorem small1_8 (c : Dev nD) (t : Fin cfg1.N) : iblk1 V c 8 t = (V c main_v36 : S128x128.Idx → EReal) := by
  obtain ⟨-, -, -, -, -, -, -, -, -, -, -, e80, e81, -⟩ := index_facts1 t
  funext j
  show V c main_v36 (((cfg1.win 8).blk t).view.emb j) = V c main_v36 j
  refine congrArg _ (funext fun a => Fin.ext ?_)
  match a with
  | ⟨0, _⟩ => show win1_8.index t (0 : Fin 2) * 128 + 1 * (j 0).val = (j 0).val; omega
  | ⟨1, _⟩ => show win1_8.index t (1 : Fin 2) * 128 + 1 * (j 1).val = (j 1).val; omega

/-- What point t writes back is its block of the whole-array function. -/
theorem flushed1_eq (c : Dev nD) (t : Fin cfg1.N) :
    (dat1 (F := Ideal) V c).flushed 9 t = ((cfg1.win 9).blk t).view.read (Elt Ideal) (whole1 V c) := by
  show (cfg1.win 9).cut (grid1.coords t) ((dat1 V c).after 9 t) = _
  rw [after1_9]
  funext j
  obtain ⟨p, q, rfl⟩ : ∃ (p : Fin 5000) (q : Fin 128), j = ix2 p q := ⟨j 0, j 1, eq_ix2 j⟩
  have ht : t.val < 20 := Nat.lt_of_lt_of_eq t.isLt N_1
  have hn : t.val * 5000 + p.val < 100000 := by have := p.isLt; omega
  obtain ⟨-, -, -, -, -, -, -, -, -, -, -, -, -, e90, e91⟩ := index_facts1 t
  have hemb : ((cfg1.win 9).blk t).view.emb (ix2 p q) = (ix2 (⟨t.val * 5000 + p.val, hn⟩ : Fin 100000) q : S100000x128.Idx) :=
    funext fun a => Fin.ext (by
      match a with
      | ⟨0, _⟩ => show win1_9.index t (0 : Fin 2) * 5000 + 1 * p.val = t.val * 5000 + p.val; omega
      | ⟨1, _⟩ => show win1_9.index t (1 : Fin 2) * 128 + 1 * q.val = q.val; omega)
  refine (out1_9_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  rw [View.read_apply, hemb, small1_2, small1_3, small1_4, small1_5, small1_6, small1_8,
    rows1_7 V c t p ⟨t.val * 5000 + p.val, hn⟩ rfl]
  unfold whole1 combineRow Cert.Gcn4.lin
  refine congrArg (· * _) (Finset.sum_congr rfl fun k _ => ?_)
  rw [rows1_0 V c t p ⟨t.val * 5000 + p.val, hn⟩ rfl k, rows1_1 V c t p ⟨t.val * 5000 + p.val, hn⟩ rfl k]

/-- A row of the array is in point t's block exactly when it is one of the block's 5000 rows. -/
theorem mem_blk1 (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v37).slice (win1_9.rect t)).set ↔ _
  rw [View.set_slice_whole, Rect.mem_set_unit]
  exact Iff.rfl

/-- Every row is covered: row r by point r / 5000. -/
theorem cover1 (i : S100000x128.Idx) :
    ∃ t : Fin cfg1.N, (cfg1.win 9).flush t = true ∧ i ∈ ((cfg1.win 9).blk t).view.set := by
  have hi0 : (i 0).val < 100000 := idx2_lt0 i
  have hi1 : (i 1).val < 128 := idx2_lt1 i
  have htl : (i 0).val / 5000 < cfg1.N := Nat.lt_of_lt_of_eq (by omega : (i 0).val / 5000 < 20) N_1.symm
  obtain ⟨-, -, -, -, -, -, -, -, -, -, -, -, -, e90, e91⟩ := index_facts1 ⟨(i 0).val / 5000, htl⟩
  refine ⟨⟨(i 0).val / 5000, htl⟩, flush1_9 _, ?_⟩
  rw [mem_blk1]
  intro a
  match a with
  | ⟨0, _⟩ =>
    show win1_9.index ⟨(i 0).val / 5000, htl⟩ (0 : Fin 2) * 5000 ≤ (i 0).val ∧ (i 0).val < win1_9.index ⟨(i 0).val / 5000, htl⟩ (0 : Fin 2) * 5000 + 5000
    rw [e90]; show (i 0).val / 5000 * 5000 ≤ (i 0).val ∧ (i 0).val < (i 0).val / 5000 * 5000 + 5000; omega
  | ⟨1, _⟩ =>
    show win1_9.index ⟨(i 0).val / 5000, htl⟩ (1 : Fin 2) * 128 ≤ (i 1).val ∧ (i 1).val < win1_9.index ⟨(i 0).val / 5000, htl⟩ (1 : Fin 2) * 128 + 128
    rw [e91]; omega

/-- The output array after the region, entry by entry: row n of the normalised hidden layer times the weight
    matrix, scaled by the factor of node n. -/
theorem region1_array (c : Dev nD) (n : Fin 100000) (q : Fin 128) :
    (dat1 (F := Ideal) V c).arrAt 9 cfg1.N (ix2 n q)
      = combineRow (V c main_v24) (V c main_v14) (V c main_v26) (V c main_v28) (V c main_v30) (V c main_v32) (V c main_v34) (V c main_v11) (V c main_v36) n q := by
  rw [(dat1 V c).arrAt_eq_of_cover 9 (whole1 V c) (fun t _ => flushed1_eq V c t) (cover1)]
  rfl

end Cert.KernelIdeal.Regions

end
-- ==== Proof.KRegion2.lean ====
/-
  Combine kernel number 2: from the blocks to the whole array.

  The kernel runs over 20 grid points; point t works on rows 5000 t to 5000 t + 4999 of the feature matrices and of the
  column of node factors, and on the whole of the small operands (bias, scale, shift, running statistics, weight).
  What point t writes back is rows 5000 t ... of ONE function of the arrays as the region finds them: row n of the
  normalised hidden layer times the weight matrix, scaled by the factor of node n. Row n is covered by point n / 5000,
  so after the last point the output array holds that function everywhere.
-/
import proofs.«150997_j34024730919242_2_alg».proof.Proof.KBody1
import proofs.«150997_j34024730919242_2_alg».proof.Proof.KRegionSpec
import Idealize.ShloMosaic.Lib.Pipeline.Value

noncomputable section

open scoped BigOperators

namespace Cert.KernelIdeal.Regions

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block index of every window at every grid point: the row windows move with the point, the small operands
    stay at their one block. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 1) = 0
    ∧ win2_4.index t (0 : Fin 1) = 0
    ∧ win2_5.index t (0 : Fin 1) = 0
    ∧ win2_6.index t (0 : Fin 1) = 0
    ∧ win2_7.index t (0 : Fin 2) = t.val ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- The whole output array as one function of the arrays the region finds. -/
def whole2 (c : Dev nD) : S100000x128.Idx → EReal := fun i =>
  combineRow (V c main_v47) (V c main_v37) (V c main_v49) (V c main_v51) (V c main_v53) (V c main_v55) (V c main_v57) (V c main_v11) (V c main_v59)
    ⟨(i 0).val, idx2_lt0 i⟩ ⟨(i 1).val, idx2_lt1 i⟩

/-- A row block of a feature matrix at point t is rows 5000 t ... of the array. -/
theorem rows2_0 (c : Dev nD) (t : Fin cfg2.N) (p : Fin 5000) (n : Fin 100000) (hn : n.val = t.val * 5000 + p.val) (k : Fin 128) :
    iblk2 V c 0 t (ix2 p k) = (V c main_v47 : S100000x128.Idx → EReal) (ix2 n k) := by
  obtain ⟨e00, e01, -⟩ := index_facts2 t
  show V c main_v47 (((cfg2.win 0).blk t).view.emb (ix2 p k)) = _
  refine congrArg _ (funext fun a => Fin.ext ?_)
  match a with
  | ⟨0, _⟩ => show win2_0.index t (0 : Fin 2) * 5000 + 1 * p.val = n.val; omega
  | ⟨1, _⟩ => show win2_0.index t (1 : Fin 2) * 128 + 1 * k.val = k.val; omega

theorem rows2_1 (c : Dev nD) (t : Fin cfg2.N) (p : Fin 5000) (n : Fin 100000) (hn : n.val = t.val * 5000 + p.val) (k : Fin 128) :
    iblk2 V c 1 t (ix2 p k) = (V c main_v37 : S100000x128.Idx → EReal) (ix2 n k) := by
  obtain ⟨-, -, e10, e11, -⟩ := index_facts2 t
  show V c main_v37 (((cfg2.win 1).blk t).view.emb (ix2 p k)) = _
  refine congrArg _ (funext fun a => Fin.ext ?_)
  match a with
  | ⟨0, _⟩ => show win2_1.index t (0 : Fin 2) * 5000 + 1 * p.val = n.val; omega
  | ⟨1, _⟩ => show win2_1.index t (1 : Fin 2) * 128 + 1 * k.val = k.val; omega

/-- The block of the column of node factors at point t is rows 5000 t ... of the column. -/
theorem rows2_7 (c : Dev nD) (t : Fin cfg2.N) (p : Fin 5000) (n : Fin 100000) (hn : n.val = t.val * 5000 + p.val) :
    iblk2 V c 7 t (ix2 p (0 : Fin 1)) = (V c main_v11 : S100000x1.Idx → EReal) (ix2 n (0 : Fin 1)) := by
  obtain ⟨-, -, -, -, -, -, -, -, -, e70, e71, -⟩ := index_facts2 t
  show V c main_v11 (((cfg2.win 7).blk t).view.emb (ix2 p (0 : Fin 1))) = _
  refine congrArg _ (funext fun a => Fin.ext ?_)
  match a with
  | ⟨0, _⟩ => show win2_7.index t (0 : Fin 2) * 5000 + 1 * p.val = n.val; omega
  | ⟨1, _⟩ => show win2_7.index t (1 : Fin 2) * 1 + 1 * 0 = 0; omega

/-- The block of a small operand is the whole operand, at every point. -/
theorem small2_2 (c : Dev nD) (t : Fin cfg2.N) : iblk2 V c 2 t = (V c main_v49 : S128.Idx → EReal) := by
  obtain ⟨-, -, -, -, e, -⟩ := index_facts2 t
  funext j
  show V c main_v49 (((cfg2.win 2).blk t).view.emb j) = V c main_v49 j
  refine congrArg _ (funext fun a => Fin.ext ?_)
  match a with
  | ⟨0, _⟩ => show win2_2.index t (0 : Fin 1) * 128 + 1 * (j 0).val = (j 0).val; omega

theorem small2_3 (c : Dev nD) (t : Fin cfg2.N) : iblk2 V c 3 t = (V c main_v51 : S128.Idx → EReal) := by
  obtain ⟨-, -, -, -, -, e, -⟩ := index_facts2 t
  funext j
  show V c main_v51 (((cfg2.win 3).blk t).view.emb j) = V c main_v51 j
  refine congrArg _ (funext fun a => Fin.ext ?_)
  match a with
  | ⟨0, _⟩ => show win2_3.index t (0 : Fin 1) * 128 + 1 * (j 0).val = (j 0).val; omega

theorem small2_4 (c : Dev nD) (t : Fin cfg2.N) : iblk2 V c 4 t = (V c main_v53 : S128.Idx → EReal) := by
  obtain ⟨-, -, -, -, -, -, e, -⟩ := index_facts2 t
  funext j
  show V c main_v53 (((cfg2.win 4).blk t).view.emb j) = V c main_v53 j
  refine congrArg _ (funext fun a => Fin.ext ?_)
  match a with
  | ⟨0, _⟩ => show win2_4.index t (0 : Fin 1) * 128 + 1 * (j 0).val = (j 0).val; omega

theorem small2_5 (c : Dev nD) (t : Fin cfg2.N) : iblk2 V c 5 t = (V c main_v55 : S128.Idx → EReal) := by
  obtain ⟨-, -, -, -, -, -, -, e, -⟩ := index_facts2 t
  funext j
  show V c main_v55 (((cfg2.win 5).blk t).view.emb j) = V c main_v55 j
  refine congrArg _ (funext fun a => Fin.ext ?_)
  match a with
  | ⟨0, _⟩ => show win2_5.index t (0 : Fin 1) * 128 + 1 * (j 0).val = (j 0).val; omega

theorem small2_6 (c : Dev nD) (t : Fin cfg2.N) : iblk2 V c 6 t = (V c main_v57 : S128.Idx → EReal) := by
  obtain ⟨-, -, -, -, -, -, -, -, e, -⟩ := index_facts2 t
  funext j
  show V c main_v57 (((cfg2.win 6).blk t).view.emb j) = V c main_v57 j
  refine congrArg _ (funext fun a => Fin.ext ?_)
  match a with
  | ⟨0, _⟩ => show win2_6.index t (0 : Fin 1) * 128 + 1 * (j 0).val = (j 0).val; omega

theorem small2_8 (c : Dev nD) (t : Fin cfg2.N) : iblk2 V c 8 t = (V c main_v59 : S128x128.Idx → EReal) := by
  obtain ⟨-, -, -, -, -, -, -, -, -, -, -, e80, e81, -⟩ := index_facts2 t
  funext j
  show V c main_v59 (((cfg2.win 8).blk t).view.emb j) = V c main_v59 j
  refine congrArg _ (funext fun a => Fin.ext ?_)
  match a with
  | ⟨0, _⟩ => show win2_8.index t (0 : Fin 2) * 128 + 1 * (j 0).val = (j 0).val; omega
  | ⟨1, _⟩ => show win2_8.index t (1 : Fin 2) * 128 + 1 * (j 1).val = (j 1).val; omega

/-- What point t writes back is its block of the whole-array function. -/
theorem flushed2_eq (c : Dev nD) (t : Fin cfg2.N) :
    (dat2 (F := Ideal) V c).flushed 9 t = ((cfg2.win 9).blk t).view.read (Elt Ideal) (whole2 V c) := by
  show (cfg2.win 9).cut (grid2.coords t) ((dat2 V c).after 9 t) = _
  rw [after2_9]
  rw [out2_9_eq]
  funext j
  obtain ⟨p, q, rfl⟩ : ∃ (p : Fin 5000) (q : Fin 128), j = ix2 p q := ⟨j 0, j 1, eq_ix2 j⟩
  have ht : t.val < 20 := Nat.lt_of_lt_of_eq t.isLt N_2
  have hn : t.val * 5000 + p.val < 100000 := by have := p.isLt; omega
  obtain ⟨-, -, -, -, -, -, -, -, -, -, -, -, -, e90, e91⟩ := index_facts2 t
  have hemb : ((cfg2.win 9).blk t).view.emb (ix2 p q) = (ix2 (⟨t.val * 5000 + p.val, hn⟩ : Fin 100000) q : S100000x128.Idx) :=
    funext fun a => Fin.ext (by
      match a with
      | ⟨0, _⟩ => show win2_9.index t (0 : Fin 2) * 5000 + 1 * p.val = t.val * 5000 + p.val; omega
      | ⟨1, _⟩ => show win2_9.index t (1 : Fin 2) * 128 + 1 * q.val = q.val; omega)
  refine (out1_9_apply (iblk2 V c 0 t) (iblk2 V c 1 t) (iblk2 V c 2 t) (iblk2 V c 3 t) (iblk2 V c 4 t) (iblk2 V c 5 t)
    (iblk2 V c 6 t) (iblk2 V c 7 t) (iblk2 V c 8 t) p q).trans ?_
  rw [View.read_apply, hemb, small2_2, small2_3, small2_4, small2_5, small2_6, small2_8,
    rows2_7 V c t p ⟨t.val * 5000 + p.val, hn⟩ rfl]
  unfold whole2 combineRow Cert.Gcn4.lin
  refine congrArg (· * _) (Finset.sum_congr rfl fun k _ => ?_)
  rw [rows2_0 V c t p ⟨t.val * 5000 + p.val, hn⟩ rfl k, rows2_1 V c t p ⟨t.val * 5000 + p.val, hn⟩ rfl k]

/-- A row of the array is in point t's block exactly when it is one of the block's 5000 rows. -/
theorem mem_blk2 (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v60).slice (win2_9.rect t)).set ↔ _
  rw [View.set_slice_whole, Rect.mem_set_unit]
  exact Iff.rfl

/-- Every row is covered: row r by point r / 5000. -/
theorem cover2 (i : S100000x128.Idx) :
    ∃ t : Fin cfg2.N, (cfg2.win 9).flush t = true ∧ i ∈ ((cfg2.win 9).blk t).view.set := by
  have hi0 : (i 0).val < 100000 := idx2_lt0 i
  have hi1 : (i 1).val < 128 := idx2_lt1 i
  have htl : (i 0).val / 5000 < cfg2.N := Nat.lt_of_lt_of_eq (by omega : (i 0).val / 5000 < 20) N_2.symm
  obtain ⟨-, -, -, -, -, -, -, -, -, -, -, -, -, e90, e91⟩ := index_facts2 ⟨(i 0).val / 5000, htl⟩
  refine ⟨⟨(i 0).val / 5000, htl⟩, flush2_9 _, ?_⟩
  rw [mem_blk2]
  intro a
  match a with
  | ⟨0, _⟩ =>
    show win2_9.index ⟨(i 0).val / 5000, htl⟩ (0 : Fin 2) * 5000 ≤ (i 0).val ∧ (i 0).val < win2_9.index ⟨(i 0).val / 5000, htl⟩ (0 : Fin 2) * 5000 + 5000
    rw [e90]; show (i 0).val / 5000 * 5000 ≤ (i 0).val ∧ (i 0).val < (i 0).val / 5000 * 5000 + 5000; omega
  | ⟨1, _⟩ =>
    show win2_9.index ⟨(i 0).val / 5000, htl⟩ (1 : Fin 2) * 128 ≤ (i 1).val ∧ (i 1).val < win2_9.index ⟨(i 0).val / 5000, htl⟩ (1 : Fin 2) * 128 + 128
    rw [e91]; omega

/-- The output array after the region, entry by entry: row n of the normalised hidden layer times the weight
    matrix, scaled by the factor of node n. -/
theorem region2_array (c : Dev nD) (n : Fin 100000) (q : Fin 128) :
    (dat2 (F := Ideal) V c).arrAt 9 cfg2.N (ix2 n q)
      = combineRow (V c main_v47) (V c main_v37) (V c main_v49) (V c main_v51) (V c main_v53) (V c main_v55) (V c main_v57) (V c main_v11) (V c main_v59) n q := by
  rw [(dat2 V c).arrAt_eq_of_cover 9 (whole2 V c) (fun t _ => flushed2_eq V c t) (cover2)]
  rfl

end Cert.KernelIdeal.Regions

end
-- ==== Proof.KRegion3.lean ====
/-
  Combine kernel number 3: from the blocks to the whole array.

  The kernel runs over 20 grid points; point t works on rows 5000 t to 5000 t + 4999 of the feature matrices and of the
  column of node factors, and on the whole of the small operands (bias, scale, shift, running statistics, weight).
  What point t writes back is rows 5000 t ... of ONE function of the arrays as the region finds them: row n of the
  normalised hidden layer times the weight matrix, scaled by the factor of node n. Row n is covered by point n / 5000,
  so after the last point the output array holds that function everywhere.
-/
import proofs.«150997_j34024730919242_2_alg».proof.Proof.KBody1
import proofs.«150997_j34024730919242_2_alg».proof.Proof.KRegionSpec
import Idealize.ShloMosaic.Lib.Pipeline.Value

noncomputable section

open scoped BigOperators

namespace Cert.KernelIdeal.Regions

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block index of every window at every grid point: the row windows move with the point, the small operands
    stay at their one block. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 1) = 0
    ∧ win3_4.index t (0 : Fin 1) = 0
    ∧ win3_5.index t (0 : Fin 1) = 0
    ∧ win3_6.index t (0 : Fin 1) = 0
    ∧ win3_7.index t (0 : Fin 2) = t.val ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- The whole output array as one function of the arrays the region finds. -/
def whole3 (c : Dev nD) : S100000x128.Idx → EReal := fun i =>
  combineRow (V c main_v70) (V c main_v60) (V c main_v72) (V c main_v74) (V c main_v76) (V c main_v78) (V c main_v80) (V c main_v11) (V c main_v82)
    ⟨(i 0).val, idx2_lt0 i⟩ ⟨(i 1).val, idx2_lt1 i⟩

/-- A row block of a feature matrix at point t is rows 5000 t ... of the array. -/
theorem rows3_0 (c : Dev nD) (t : Fin cfg3.N) (p : Fin 5000) (n : Fin 100000) (hn : n.val = t.val * 5000 + p.val) (k : Fin 128) :
    iblk3 V c 0 t (ix2 p k) = (V c main_v70 : S100000x128.Idx → EReal) (ix2 n k) := by
  obtain ⟨e00, e01, -⟩ := index_facts3 t
  show V c main_v70 (((cfg3.win 0).blk t).view.emb (ix2 p k)) = _
  refine congrArg _ (funext fun a => Fin.ext ?_)
  match a with
  | ⟨0, _⟩ => show win3_0.index t (0 : Fin 2) * 5000 + 1 * p.val = n.val; omega
  | ⟨1, _⟩ => show win3_0.index t (1 : Fin 2) * 128 + 1 * k.val = k.val; omega

theorem rows3_1 (c : Dev nD) (t : Fin cfg3.N) (p : Fin 5000) (n : Fin 100000) (hn : n.val = t.val * 5000 + p.val) (k : Fin 128) :
    iblk3 V c 1 t (ix2 p k) = (V c main_v60 : S100000x128.Idx → EReal) (ix2 n k) := by
  obtain ⟨-, -, e10, e11, -⟩ := index_facts3 t
  show V c main_v60 (((cfg3.win 1).blk t).view.emb (ix2 p k)) = _
  refine congrArg _ (funext fun a => Fin.ext ?_)
  match a with
  | ⟨0, _⟩ => show win3_1.index t (0 : Fin 2) * 5000 + 1 * p.val = n.val; omega
  | ⟨1, _⟩ => show win3_1.index t (1 : Fin 2) * 128 + 1 * k.val = k.val; omega

/-- The block of the column of node factors at point t is rows 5000 t ... of the column. -/
theorem rows3_7 (c : Dev nD) (t : Fin cfg3.N) (p : Fin 5000) (n : Fin 100000) (hn : n.val = t.val * 5000 + p.val) :
    iblk3 V c 7 t (ix2 p (0 : Fin 1)) = (V c main_v11 : S100000x1.Idx → EReal) (ix2 n (0 : Fin 1)) := by
  obtain ⟨-, -, -, -, -, -, -, -, -, e70, e71, -⟩ := index_facts3 t
  show V c main_v11 (((cfg3.win 7).blk t).view.emb (ix2 p (0 : Fin 1))) = _
  refine congrArg _ (funext fun a => Fin.ext ?_)
  match a with
  | ⟨0, _⟩ => show win3_7.index t (0 : Fin 2) * 5000 + 1 * p.val = n.val; omega
  | ⟨1, _⟩ => show win3_7.index t (1 : Fin 2) * 1 + 1 * 0 = 0; omega

/-- The block of a small operand is the whole operand, at every point. -/
theorem small3_2 (c : Dev nD) (t : Fin cfg3.N) : iblk3 V c 2 t = (V c main_v72 : S128.Idx → EReal) := by
  obtain ⟨-, -, -, -, e, -⟩ := index_facts3 t
  funext j
  show V c main_v72 (((cfg3.win 2).blk t).view.emb j) = V c main_v72 j
  refine congrArg _ (funext fun a => Fin.ext ?_)
  match a with
  | ⟨0, _⟩ => show win3_2.index t (0 : Fin 1) * 128 + 1 * (j 0).val = (j 0).val; omega

theorem small3_3 (c : Dev nD) (t : Fin cfg3.N) : iblk3 V c 3 t = (V c main_v74 : S128.Idx → EReal) := by
  obtain ⟨-, -, -, -, -, e, -⟩ := index_facts3 t
  funext j
  show V c main_v74 (((cfg3.win 3).blk t).view.emb j) = V c main_v74 j
  refine congrArg _ (funext fun a => Fin.ext ?_)
  match a with
  | ⟨0, _⟩ => show win3_3.index t (0 : Fin 1) * 128 + 1 * (j 0).val = (j 0).val; omega

theorem small3_4 (c : Dev nD) (t : Fin cfg3.N) : iblk3 V c 4 t = (V c main_v76 : S128.Idx → EReal) := by
  obtain ⟨-, -, -, -, -, -, e, -⟩ := index_facts3 t
  funext j
  show V c main_v76 (((cfg3.win 4).blk t).view.emb j) = V c main_v76 j
  refine congrArg _ (funext fun a => Fin.ext ?_)
  match a with
  | ⟨0, _⟩ => show win3_4.index t (0 : Fin 1) * 128 + 1 * (j 0).val = (j 0).val; omega

theorem small3_5 (c : Dev nD) (t : Fin cfg3.N) : iblk3 V c 5 t = (V c main_v78 : S128.Idx → EReal) := by
  obtain ⟨-, -, -, -, -, -, -, e, -⟩ := index_facts3 t
  funext j
  show V c main_v78 (((cfg3.win 5).blk t).view.emb j) = V c main_v78 j
  refine congrArg _ (funext fun a => Fin.ext ?_)
  match a with
  | ⟨0, _⟩ => show win3_5.index t (0 : Fin 1) * 128 + 1 * (j 0).val = (j 0).val; omega

theorem small3_6 (c : Dev nD) (t : Fin cfg3.N) : iblk3 V c 6 t = (V c main_v80 : S128.Idx → EReal) := by
  obtain ⟨-, -, -, -, -, -, -, -, e, -⟩ := index_facts3 t
  funext j
  show V c main_v80 (((cfg3.win 6).blk t).view.emb j) = V c main_v80 j
  refine congrArg _ (funext fun a => Fin.ext ?_)
  match a with
  | ⟨0, _⟩ => show win3_6.index t (0 : Fin 1) * 128 + 1 * (j 0).val = (j 0).val; omega

theorem small3_8 (c : Dev nD) (t : Fin cfg3.N) : iblk3 V c 8 t = (V c main_v82 : S128x128.Idx → EReal) := by
  obtain ⟨-, -, -, -, -, -, -, -, -, -, -, e80, e81, -⟩ := index_facts3 t
  funext j
  show V c main_v82 (((cfg3.win 8).blk t).view.emb j) = V c main_v82 j
  refine congrArg _ (funext fun a => Fin.ext ?_)
  match a with
  | ⟨0, _⟩ => show win3_8.index t (0 : Fin 2) * 128 + 1 * (j 0).val = (j 0).val; omega
  | ⟨1, _⟩ => show win3_8.index t (1 : Fin 2) * 128 + 1 * (j 1).val = (j 1).val; omega

/-- What point t writes back is its block of the whole-array function. -/
theorem flushed3_eq (c : Dev nD) (t : Fin cfg3.N) :
    (dat3 (F := Ideal) V c).flushed 9 t = ((cfg3.win 9).blk t).view.read (Elt Ideal) (whole3 V c) := by
  show (cfg3.win 9).cut (grid3.coords t) ((dat3 V c).after 9 t) = _
  rw [after3_9]
  rw [out3_9_eq]
  funext j
  obtain ⟨p, q, rfl⟩ : ∃ (p : Fin 5000) (q : Fin 128), j = ix2 p q := ⟨j 0, j 1, eq_ix2 j⟩
  have ht : t.val < 20 := Nat.lt_of_lt_of_eq t.isLt N_3
  have hn : t.val * 5000 + p.val < 100000 := by have := p.isLt; omega
  obtain ⟨-, -, -, -, -, -, -, -, -, -, -, -, -, e90, e91⟩ := index_facts3 t
  have hemb : ((cfg3.win 9).blk t).view.emb (ix2 p q) = (ix2 (⟨t.val * 5000 + p.val, hn⟩ : Fin 100000) q : S100000x128.Idx) :=
    funext fun a => Fin.ext (by
      match a with
      | ⟨0, _⟩ => show win3_9.index t (0 : Fin 2) * 5000 + 1 * p.val = t.val * 5000 + p.val; omega
      | ⟨1, _⟩ => show win3_9.index t (1 : Fin 2) * 128 + 1 * q.val = q.val; omega)
  refine (out1_9_apply (iblk3 V c 0 t) (iblk3 V c 1 t) (iblk3 V c 2 t) (iblk3 V c 3 t) (iblk3 V c 4 t) (iblk3 V c 5 t)
    (iblk3 V c 6 t) (iblk3 V c 7 t) (iblk3 V c 8 t) p q).trans ?_
  rw [View.read_apply, hemb, small3_2, small3_3, small3_4, small3_5, small3_6, small3_8,
    rows3_7 V c t p ⟨t.val * 5000 + p.val, hn⟩ rfl]
  unfold whole3 combineRow Cert.Gcn4.lin
  refine congrArg (· * _) (Finset.sum_congr rfl fun k _ => ?_)
  rw [rows3_0 V c t p ⟨t.val * 5000 + p.val, hn⟩ rfl k, rows3_1 V c t p ⟨t.val * 5000 + p.val, hn⟩ rfl k]

/-- A row of the array is in point t's block exactly when it is one of the block's 5000 rows. -/
theorem mem_blk3 (t : Fin cfg3.N) (i : S100000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v83).slice (win3_9.rect t)).set ↔ _
  rw [View.set_slice_whole, Rect.mem_set_unit]
  exact Iff.rfl

/-- Every row is covered: row r by point r / 5000. -/
theorem cover3 (i : S100000x128.Idx) :
    ∃ t : Fin cfg3.N, (cfg3.win 9).flush t = true ∧ i ∈ ((cfg3.win 9).blk t).view.set := by
  have hi0 : (i 0).val < 100000 := idx2_lt0 i
  have hi1 : (i 1).val < 128 := idx2_lt1 i
  have htl : (i 0).val / 5000 < cfg3.N := Nat.lt_of_lt_of_eq (by omega : (i 0).val / 5000 < 20) N_3.symm
  obtain ⟨-, -, -, -, -, -, -, -, -, -, -, -, -, e90, e91⟩ := index_facts3 ⟨(i 0).val / 5000, htl⟩
  refine ⟨⟨(i 0).val / 5000, htl⟩, flush3_9 _, ?_⟩
  rw [mem_blk3]
  intro a
  match a with
  | ⟨0, _⟩ =>
    show win3_9.index ⟨(i 0).val / 5000, htl⟩ (0 : Fin 2) * 5000 ≤ (i 0).val ∧ (i 0).val < win3_9.index ⟨(i 0).val / 5000, htl⟩ (0 : Fin 2) * 5000 + 5000
    rw [e90]; show (i 0).val / 5000 * 5000 ≤ (i 0).val ∧ (i 0).val < (i 0).val / 5000 * 5000 + 5000; omega
  | ⟨1, _⟩ =>
    show win3_9.index ⟨(i 0).val / 5000, htl⟩ (1 : Fin 2) * 128 ≤ (i 1).val ∧ (i 1).val < win3_9.index ⟨(i 0).val / 5000, htl⟩ (1 : Fin 2) * 128 + 128
    rw [e91]; omega

/-- The output array after the region, entry by entry: row n of the normalised hidden layer times the weight
    matrix, scaled by the factor of node n. -/
theorem region3_array (c : Dev nD) (n : Fin 100000) (q : Fin 128) :
    (dat3 (F := Ideal) V c).arrAt 9 cfg3.N (ix2 n q)
      = combineRow (V c main_v70) (V c main_v60) (V c main_v72) (V c main_v74) (V c main_v76) (V c main_v78) (V c main_v80) (V c main_v11) (V c main_v82) n q := by
  rw [(dat3 V c).arrAt_eq_of_cover 9 (whole3 V c) (fun t _ => flushed3_eq V c t) (cover3)]
  rfl

end Cert.KernelIdeal.Regions

end
-- ==== Proof.KBody4.lean ====
/-
  The body of the last kernel, read at one entry of its block of 5000 rows: the normalised hidden entry itself,
      norm (factor p * (agg (p, q) + own (p, q))) q,
  the row's factor times the sum of the aggregated entry and the row's own entry, then bias, running statistics,
  scale, shift and the rectifier.
-/
import proofs.«150997_j34024730919242_2_alg».proof.Proof.Gen.KernelIdeal.Frame
import proofs.«150997_j34024730919242_2_alg».proof.Proof.KBodyLib
import proofs.«150997_j34024730919242_2_alg».proof.Proof.Spec

noncomputable section

open scoped BigOperators

namespace Cert.KernelIdeal.Regions

open Idealize.ShloMosaic Idealize.ShloMosaic.ValueIdx Cert.KernelIdeal Cert.KernelIdeal.Gen

theorem zero2_4 : (![0, 0] : Fin 2 → Nat) = fun _ => 0 := funext fun a => by fin_cases a <;> rfl
theorem zero1_4 : (![0] : Fin 1 → Nat) = fun _ => 0 := funext fun a => by fin_cases a; rfl

/-- What the last kernel's body stores, at (p, q). -/
theorem out4_8_apply (x0 x1 : Vec Ideal S5000x128 .f32) (x2 x3 x4 x5 x6 : Vec Ideal S128 .f32) (x7 : Vec Ideal S5000x1 .f32)
    (p : Fin 5000) (q : Fin 128) :
    out4_8 (F := Ideal) x0 x1 x2 x3 x4 x5 x6 x7 (ix2 p q)
      = Cert.Gcn4.norm x2 x5 x6 x3 x4 (x7 (ix2 p 0) * (x0 (ix2 p q) + x1 (ix2 p q))) q := by
  unfold out4_8
  rw [View.canon_unit_zero zero2_4]
  simp only [View.ld_unit_zero (S := S5000x128) zero2_4, View.ld_unit_zero (S := S128) zero1_4,
    View.ld_unit_zero (S := S5000x1) zero2_4]
  unfold k4_pay1
  simp only [shapeCast_self]
  unfold Cert.Gcn4.norm
  simp only [maximumf_apply, addf_apply, mulf_apply, subf_apply, broadcast_apply, broadcastTo_row_apply, broadcastTo_a1_ab_apply]
  rfl

end Cert.KernelIdeal.Regions

end
-- ==== Proof.KRegion4.lean ====
/-
  The last kernel: from the blocks to the whole array.

  The kernel runs over 20 grid points; point t works on rows 5000 t to 5000 t + 4999 of the two feature matrices and of
  the column of node factors, and on the whole of the small operands (bias, scale, shift, running statistics). What
  point t writes back is rows 5000 t ... of ONE function of the arrays as the region finds them, the normalised hidden
  entry of node n and column q. Row n is covered by point n / 5000, so after the last point the output array holds that
  function everywhere.
-/
import proofs.«150997_j34024730919242_2_alg».proof.Proof.KBody4
import proofs.«150997_j34024730919242_2_alg».proof.Proof.KRegionSpec
import Idealize.ShloMosaic.Lib.Pipeline.Value

noncomputable section

open scoped BigOperators

namespace Cert.KernelIdeal.Regions

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block index of every window at every grid point: the row windows move with the point, the small operands
    stay at their one block. -/
theorem index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 1) = 0
    ∧ win4_3.index t (0 : Fin 1) = 0
    ∧ win4_4.index t (0 : Fin 1) = 0
    ∧ win4_5.index t (0 : Fin 1) = 0
    ∧ win4_6.index t (0 : Fin 1) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- The whole output array as one function of the arrays the region finds. -/
def whole4 (c : Dev nD) : S100000x128.Idx → EReal := fun i =>
  finalRow (V c main_v93) (V c main_v83) (V c main_v95) (V c main_v97) (V c main_v99) (V c main_v101) (V c main_v103) (V c main_v11)
    ⟨(i 0).val, idx2_lt0 i⟩ ⟨(i 1).val, idx2_lt1 i⟩

/-- A row block of a feature matrix at point t is rows 5000 t ... of the array. -/
theorem rows4_0 (c : Dev nD) (t : Fin cfg4.N) (p : Fin 5000) (n : Fin 100000) (hn : n.val = t.val * 5000 + p.val) (k : Fin 128) :
    iblk4 V c 0 t (ix2 p k) = (V c main_v93 : S100000x128.Idx → EReal) (ix2 n k) := by
  obtain ⟨e00, e01, -⟩ := index_facts4 t
  show V c main_v93 (((cfg4.win 0).blk t).view.emb (ix2 p k)) = _
  refine congrArg _ (funext fun a => Fin.ext ?_)
  match a with
  | ⟨0, _⟩ => show win4_0.index t (0 : Fin 2) * 5000 + 1 * p.val = n.val; omega
  | ⟨1, _⟩ => show win4_0.index t (1 : Fin 2) * 128 + 1 * k.val = k.val; omega

theorem rows4_1 (c : Dev nD) (t : Fin cfg4.N) (p : Fin 5000) (n : Fin 100000) (hn : n.val = t.val * 5000 + p.val) (k : Fin 128) :
    iblk4 V c 1 t (ix2 p k) = (V c main_v83 : S100000x128.Idx → EReal) (ix2 n k) := by
  obtain ⟨-, -, e10, e11, -⟩ := index_facts4 t
  show V c main_v83 (((cfg4.win 1).blk t).view.emb (ix2 p k)) = _
  refine congrArg _ (funext fun a => Fin.ext ?_)
  match a with
  | ⟨0, _⟩ => show win4_1.index t (0 : Fin 2) * 5000 + 1 * p.val = n.val; omega
  | ⟨1, _⟩ => show win4_1.index t (1 : Fin 2) * 128 + 1 * k.val = k.val; omega

/-- The block of the column of node factors at point t is rows 5000 t ... of the column. -/
theorem rows4_7 (c : Dev nD) (t : Fin cfg4.N) (p : Fin 5000) (n : Fin 100000) (hn : n.val = t.val * 5000 + p.val) :
    iblk4 V c 7 t (ix2 p (0 : Fin 1)) = (V c main_v11 : S100000x1.Idx → EReal) (ix2 n (0 : Fin 1)) := by
  obtain ⟨-, -, -, -, -, -, -, -, -, e70, e71, -⟩ := index_facts4 t
  show V c main_v11 (((cfg4.win 7).blk t).view.emb (ix2 p (0 : Fin 1))) = _
  refine congrArg _ (funext fun a => Fin.ext ?_)
  match a with
  | ⟨0, _⟩ => show win4_7.index t (0 : Fin 2) * 5000 + 1 * p.val = n.val; omega
  | ⟨1, _⟩ => show win4_7.index t (1 : Fin 2) * 1 + 1 * 0 = 0; omega

/-- The block of a small operand is the whole operand, at every point. -/
theorem small4_2 (c : Dev nD) (t : Fin cfg4.N) : iblk4 V c 2 t = (V c main_v95 : S128.Idx → EReal) := by
  obtain ⟨-, -, -, -, e, -⟩ := index_facts4 t
  funext j
  show V c main_v95 (((cfg4.win 2).blk t).view.emb j) = V c main_v95 j
  refine congrArg _ (funext fun a => Fin.ext ?_)
  match a with
  | ⟨0, _⟩ => show win4_2.index t (0 : Fin 1) * 128 + 1 * (j 0).val = (j 0).val; omega

theorem small4_3 (c : Dev nD) (t : Fin cfg4.N) : iblk4 V c 3 t = (V c main_v97 : S128.Idx → EReal) := by
  obtain ⟨-, -, -, -, -, e, -⟩ := index_facts4 t
  funext j
  show V c main_v97 (((cfg4.win 3).blk t).view.emb j) = V c main_v97 j
  refine congrArg _ (funext fun a => Fin.ext ?_)
  match a with
  | ⟨0, _⟩ => show win4_3.index t (0 : Fin 1) * 128 + 1 * (j 0).val = (j 0).val; omega

theorem small4_4 (c : Dev nD) (t : Fin cfg4.N) : iblk4 V c 4 t = (V c main_v99 : S128.Idx → EReal) := by
  obtain ⟨-, -, -, -, -, -, e, -⟩ := index_facts4 t
  funext j
  show V c main_v99 (((cfg4.win 4).blk t).view.emb j) = V c main_v99 j
  refine congrArg _ (funext fun a => Fin.ext ?_)
  match a with
  | ⟨0, _⟩ => show win4_4.index t (0 : Fin 1) * 128 + 1 * (j 0).val = (j 0).val; omega

theorem small4_5 (c : Dev nD) (t : Fin cfg4.N) : iblk4 V c 5 t = (V c main_v101 : S128.Idx → EReal) := by
  obtain ⟨-, -, -, -, -, -, -, e, -⟩ := index_facts4 t
  funext j
  show V c main_v101 (((cfg4.win 5).blk t).view.emb j) = V c main_v101 j
  refine congrArg _ (funext fun a => Fin.ext ?_)
  match a with
  | ⟨0, _⟩ => show win4_5.index t (0 : Fin 1) * 128 + 1 * (j 0).val = (j 0).val; omega

theorem small4_6 (c : Dev nD) (t : Fin cfg4.N) : iblk4 V c 6 t = (V c main_v103 : S128.Idx → EReal) := by
  obtain ⟨-, -, -, -, -, -, -, -, e, -⟩ := index_facts4 t
  funext j
  show V c main_v103 (((cfg4.win 6).blk t).view.emb j) = V c main_v103 j
  refine congrArg _ (funext fun a => Fin.ext ?_)
  match a with
  | ⟨0, _⟩ => show win4_6.index t (0 : Fin 1) * 128 + 1 * (j 0).val = (j 0).val; omega

/-- What point t writes back is its block of the whole-array function. -/
theorem flushed4_eq (c : Dev nD) (t : Fin cfg4.N) :
    (dat4 (F := Ideal) V c).flushed 8 t = ((cfg4.win 8).blk t).view.read (Elt Ideal) (whole4 V c) := by
  show (cfg4.win 8).cut (grid4.coords t) ((dat4 V c).after 8 t) = _
  rw [after4_8]
  funext j
  obtain ⟨p, q, rfl⟩ : ∃ (p : Fin 5000) (q : Fin 128), j = ix2 p q := ⟨j 0, j 1, eq_ix2 j⟩
  have ht : t.val < 20 := Nat.lt_of_lt_of_eq t.isLt N_4
  have hn : t.val * 5000 + p.val < 100000 := by have := p.isLt; omega
  obtain ⟨-, -, -, -, -, -, -, -, -, -, -, e80, e81⟩ := index_facts4 t
  have hemb : ((cfg4.win 8).blk t).view.emb (ix2 p q) = (ix2 (⟨t.val * 5000 + p.val, hn⟩ : Fin 100000) q : S100000x128.Idx) :=
    funext fun a => Fin.ext (by
      match a with
      | ⟨0, _⟩ => show win4_8.index t (0 : Fin 2) * 5000 + 1 * p.val = t.val * 5000 + p.val; omega
      | ⟨1, _⟩ => show win4_8.index t (1 : Fin 2) * 128 + 1 * q.val = q.val; omega)
  refine (out4_8_apply (iblk4 V c 0 t) (iblk4 V c 1 t) (iblk4 V c 2 t) (iblk4 V c 3 t) (iblk4 V c 4 t) (iblk4 V c 5 t)
    (iblk4 V c 6 t) (iblk4 V c 7 t) p q).trans ?_
  rw [View.read_apply, hemb, small4_2, small4_3, small4_4, small4_5, small4_6,
    rows4_7 V c t p ⟨t.val * 5000 + p.val, hn⟩ rfl, rows4_0 V c t p ⟨t.val * 5000 + p.val, hn⟩ rfl q,
    rows4_1 V c t p ⟨t.val * 5000 + p.val, hn⟩ rfl q]
  rfl

/-- A row of the array is in point t's block exactly when it is one of the block's 5000 rows. -/
theorem mem_blk4 (t : Fin cfg4.N) (i : S100000x128.Idx) :
    i ∈ ((cfg4.win 8).blk t).view.set ↔ ∀ a : Fin 2, win4_8.index t a * S5000x128.size a ≤ (i a).val ∧ (i a).val < win4_8.index t a * S5000x128.size a + S5000x128.size a := by
  show i ∈ ((View.whole main_v104).slice (win4_8.rect t)).set ↔ _
  rw [View.set_slice_whole, Rect.mem_set_unit]
  exact Iff.rfl

/-- Every row is covered: row r by point r / 5000. -/
theorem cover4 (i : S100000x128.Idx) :
    ∃ t : Fin cfg4.N, (cfg4.win 8).flush t = true ∧ i ∈ ((cfg4.win 8).blk t).view.set := by
  have hi0 : (i 0).val < 100000 := idx2_lt0 i
  have hi1 : (i 1).val < 128 := idx2_lt1 i
  have htl : (i 0).val / 5000 < cfg4.N := Nat.lt_of_lt_of_eq (by omega : (i 0).val / 5000 < 20) N_4.symm
  obtain ⟨-, -, -, -, -, -, -, -, -, -, -, e80, e81⟩ := index_facts4 ⟨(i 0).val / 5000, htl⟩
  refine ⟨⟨(i 0).val / 5000, htl⟩, flush4_8 _, ?_⟩
  rw [mem_blk4]
  intro a
  match a with
  | ⟨0, _⟩ =>
    show win4_8.index ⟨(i 0).val / 5000, htl⟩ (0 : Fin 2) * 5000 ≤ (i 0).val ∧ (i 0).val < win4_8.index ⟨(i 0).val / 5000, htl⟩ (0 : Fin 2) * 5000 + 5000
    rw [e80]; show (i 0).val / 5000 * 5000 ≤ (i 0).val ∧ (i 0).val < (i 0).val / 5000 * 5000 + 5000; omega
  | ⟨1, _⟩ =>
    show win4_8.index ⟨(i 0).val / 5000, htl⟩ (1 : Fin 2) * 128 ≤ (i 1).val ∧ (i 1).val < win4_8.index ⟨(i 0).val / 5000, htl⟩ (1 : Fin 2) * 128 + 128
    rw [e81]; omega

/-- The output array after the region, entry by entry: the normalised hidden entry of node n and column q. -/
theorem region4_array (c : Dev nD) (n : Fin 100000) (q : Fin 128) :
    (dat4 (F := Ideal) V c).arrAt 8 cfg4.N (ix2 n q)
      = finalRow (V c main_v93) (V c main_v83) (V c main_v95) (V c main_v97) (V c main_v99) (V c main_v101) (V c main_v103) (V c main_v11) n q := by
  rw [(dat4 V c).arrAt_eq_of_cover 8 (whole4 V c) (fun t _ => flushed4_eq V c t) (cover4)]
  rfl

end Cert.KernelIdeal.Regions

end
-- ==== Proof.LayerAlgebra.lean ====
/-
  One graph-convolution layer with symmetric normalisation, in two arrangements of the same finite sum.

  Every node `n` carries a factor `d n` (the inverse square root of its degree). Message `e` reads the row of node
  `s e` and is added to node `n` when `L e n` holds; `t e` is the node whose factor the message is scaled by at the
  receiving end, and it is `n` whenever the message lands on `n`.

  * `aggRef`: every message is scaled by both end factors, `hw (s e) · (d (s e) · d (t e))`, the node's own row by
    `d n · d n`.
  * `aggKer`: the rows arrive already scaled by their own factor, `y n = hw n · d n`; the messages and the node's own
    row are added unscaled and the total is scaled once by `d n`.

  The two agree on the extended reals because `d n` is a nonnegative real: such a factor distributes over sums of
  arbitrary extended reals, and the rest is commutativity and associativity of the product.
-/
import Idealize.ShloMosaic.PureOps.Ideal

noncomputable section

open scoped BigOperators

namespace Cert.Gcn4

/-- A nonnegative real factor distributes over a finite sum of extended reals. -/
theorem mul_sum_of_real {ι : Type*} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

variable {N E : Type*} [Fintype E]

/-- Messages scaled by both end factors, the node's own row by the square of its factor. -/
def aggRef (d : N → EReal) (s t : E → N) (L : E → N → Prop) [∀ e n, Decidable (L e n)] (hw : N → EReal) (n : N) : EReal :=
  (0 + ∑ e, if L e n then hw (s e) * (d (s e) * d (t e)) else 0) + hw n * (d n * d n)

/-- Rows scaled beforehand by their own factor, the total scaled once by the receiving node's factor. -/
def aggKer (d : N → EReal) (s : E → N) (L : E → N → Prop) [∀ e n, Decidable (L e n)] (y : N → EReal) (n : N) : EReal :=
  d n * ((0 + ∑ e, if L e n then y (s e) else 0) + y n)

theorem aggKer_eq_aggRef (d : N → EReal) (hd0 : ∀ n, 0 ≤ d n) (hdt : ∀ n, d n ≠ ⊤) (s t : E → N)
    (L : E → N → Prop) [∀ e n, Decidable (L e n)] (hL : ∀ e n, L e n → t e = n) (hw : N → EReal) (n : N) :
    aggKer d s L (fun n => hw n * d n) n = aggRef d s t L hw n := by
  unfold aggKer aggRef
  simp only [zero_add]
  rw [EReal.left_distrib_of_nonneg_of_ne_top (hd0 n) (hdt n), mul_sum_of_real _ _ (hd0 n) (hdt n)]
  congr 1
  · refine Finset.sum_congr rfl fun e _ => ?_
    by_cases h : L e n
    · rw [if_pos h, if_pos h, hL e n h, mul_comm (d n), mul_assoc]
    · rw [if_neg h, if_neg h, mul_zero]
  · rw [mul_comm (d n), mul_assoc]

end Cert.Gcn4

end
-- ==== Proof.KChain.lean ====
/-
  The idealized kernel program layer by layer: what each region writes, at an entry, in terms of what the region
  before it wrote.

  Region 0 writes the rows `Y₀ = (hidden0 · W₀) · d` — the first hidden layer times the first weight matrix, every
  row scaled by its node factor `d`. Between two regions the host adds the rows along the edge list; region `j+1`
  scales the sum of that aggregate and the rows by `d` once, adds the bias, normalises, rectifies, and multiplies by
  the next weight matrix, scaling the rows by `d` again for the next aggregation. The last region stops after the
  rectifier.
-/
import proofs.«150997_j34024730919242_2_alg».proof.Proof.KHost
import proofs.«150997_j34024730919242_2_alg».proof.Proof.KRegion0
import proofs.«150997_j34024730919242_2_alg».proof.Proof.KRegion1
import proofs.«150997_j34024730919242_2_alg».proof.Proof.KRegion2
import proofs.«150997_j34024730919242_2_alg».proof.Proof.KRegion3
import proofs.«150997_j34024730919242_2_alg».proof.Proof.KRegion4
import proofs.«150997_j34024730919242_2_alg».proof.Proof.LayerAlgebra

set_option maxRecDepth 16384

noncomputable section

open scoped BigOperators

namespace Cert.KernelIdeal.Chain

open Cert.KernelIdeal Cert.KernelIdeal.Gen Cert.KernelIdeal.HostSide Cert.Gcn4
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The column of node factors, as the first host stretch leaves it. -/
abbrev dcol : S100000x1.Idx → EReal := W1 m ρ c (Proc.devRef .tc main_v11)
/-- Node `n`'s factor. -/
def dK (n : Fin 100000) : EReal := dcol m ρ c (ix2 n 0)
/-- The row message `e` reads. -/
def sK (e : Fin 1600000) : Fin 100000 := Cert.Gcn4.row (srcW m ρ c (ix1 e))
/-- Message `e` is added to node `n`. -/
def LK (e : Fin 1600000) (n : Fin 100000) : Prop := (dstW m ρ c (ix1 e)).toInt = (n.val : ℤ)
instance (e : Fin 1600000) (n : Fin 100000) : Decidable (LK m ρ c e n) := by unfold LK; infer_instance

/-- The node features the last region wrote. -/
abbrev H4 : S100000x128.Idx → EReal := W10 m ρ c (Proc.devRef .tc main_v104)

/-- Region 0: the first hidden layer times the first weight matrix, every row scaled by its node factor. -/
theorem step0 (n : Fin 100000) (q : Fin 128) :
    Y0 m ρ c (ix2 n q)
      = lin (hidden0 (W1 m ρ c (Proc.devRef .tc main_arg0)) (W1 m ρ c (Proc.devRef .tc main_arg3)) (W1 m ρ c (Proc.devRef .tc main_arg4)))
          (W1 m ρ c (Proc.devRef .tc main_v13)) n q * dK m ρ c n := by
  have h := Regions.region0_array (V1 m ρ) c n q
  have ha : Y0 m ρ c = (dat0 (F := Ideal) (V1 m ρ) c).arrAt 5 cfg0.N := W2_arr m ρ c 5
  rw [ha, h]
  rfl

/-- Region 1: the aggregate and the rows scaled once by the node factor, normalised and rectified, times the next
    weight matrix, the rows scaled again. -/
theorem step1 (n : Fin 100000) (q : Fin 128) :
    Y1 m ρ c (ix2 n q)
      = lin (fun n' k => norm (W3 m ρ c (Proc.devRef .tc main_v26)) (W3 m ρ c (Proc.devRef .tc main_v32))
            (W3 m ρ c (Proc.devRef .tc main_v34)) (W3 m ρ c (Proc.devRef .tc main_v28)) (W3 m ρ c (Proc.devRef .tc main_v30))
            (aggKer (dK m ρ c) (sK m ρ c) (LK m ρ c) (fun a => Y0 m ρ c (ix2 a k)) n') k)
          (W3 m ρ c (Proc.devRef .tc main_v36)) n q * dK m ρ c n := by
  have h := Regions.region1_array (V3 m ρ) c n q
  have ha : Y1 m ρ c = (dat1 (F := Ideal) (V3 m ρ) c).arrAt 9 cfg1.N := W4_arr m ρ c 9
  rw [ha, h]
  unfold Regions.combineRow
  have e11 : (V3 m ρ c main_v11 : S100000x1.Idx → EReal) = dcol m ρ c := Kept.at3_main_v11 m ρ c
  have e14 : (V3 m ρ c main_v14 : S100000x128.Idx → EReal) = Y0 m ρ c := Kept.at3_main_v14 m ρ c
  rw [e11, e14]
  refine congrArg₂ (· * ·) (congrArg (fun h => lin h _ n q) (funext fun n' => funext fun k => ?_)) rfl
  show norm _ _ _ _ _ (dcol m ρ c (ix2 n' 0) * (A1 m ρ c (ix2 n' k) + Y0 m ρ c (ix2 n' k))) k = _
  rw [agg1]
  rfl

/-- Region 2: the aggregate and the rows scaled once by the node factor, normalised and rectified, times the next
    weight matrix, the rows scaled again. -/
theorem step2 (n : Fin 100000) (q : Fin 128) :
    Y2 m ρ c (ix2 n q)
      = lin (fun n' k => norm (W5 m ρ c (Proc.devRef .tc main_v49)) (W5 m ρ c (Proc.devRef .tc main_v55))
            (W5 m ρ c (Proc.devRef .tc main_v57)) (W5 m ρ c (Proc.devRef .tc main_v51)) (W5 m ρ c (Proc.devRef .tc main_v53))
            (aggKer (dK m ρ c) (sK m ρ c) (LK m ρ c) (fun a => Y1 m ρ c (ix2 a k)) n') k)
          (W5 m ρ c (Proc.devRef .tc main_v59)) n q * dK m ρ c n := by
  have h := Regions.region2_array (V5 m ρ) c n q
  have ha : Y2 m ρ c = (dat2 (F := Ideal) (V5 m ρ) c).arrAt 9 cfg2.N := W6_arr m ρ c 9
  rw [ha, h]
  unfold Regions.combineRow
  have e11 : (V5 m ρ c main_v11 : S100000x1.Idx → EReal) = dcol m ρ c := Kept.at5_main_v11 m ρ c
  have e14 : (V5 m ρ c main_v37 : S100000x128.Idx → EReal) = Y1 m ρ c := Kept.at5_main_v37 m ρ c
  rw [e11, e14]
  refine congrArg₂ (· * ·) (congrArg (fun h => lin h _ n q) (funext fun n' => funext fun k => ?_)) rfl
  show norm _ _ _ _ _ (dcol m ρ c (ix2 n' 0) * (A2 m ρ c (ix2 n' k) + Y1 m ρ c (ix2 n' k))) k = _
  rw [agg2]
  rfl

/-- Region 3: the aggregate and the rows scaled once by the node factor, normalised and rectified, times the next
    weight matrix, the rows scaled again. -/
theorem step3 (n : Fin 100000) (q : Fin 128) :
    Y3 m ρ c (ix2 n q)
      = lin (fun n' k => norm (W7 m ρ c (Proc.devRef .tc main_v72)) (W7 m ρ c (Proc.devRef .tc main_v78))
            (W7 m ρ c (Proc.devRef .tc main_v80)) (W7 m ρ c (Proc.devRef .tc main_v74)) (W7 m ρ c (Proc.devRef .tc main_v76))
            (aggKer (dK m ρ c) (sK m ρ c) (LK m ρ c) (fun a => Y2 m ρ c (ix2 a k)) n') k)
          (W7 m ρ c (Proc.devRef .tc main_v82)) n q * dK m ρ c n := by
  have h := Regions.region3_array (V7 m ρ) c n q
  have ha : Y3 m ρ c = (dat3 (F := Ideal) (V7 m ρ) c).arrAt 9 cfg3.N := W8_arr m ρ c 9
  rw [ha, h]
  unfold Regions.combineRow
  have e11 : (V7 m ρ c main_v11 : S100000x1.Idx → EReal) = dcol m ρ c := Kept.at7_main_v11 m ρ c
  have e14 : (V7 m ρ c main_v60 : S100000x128.Idx → EReal) = Y2 m ρ c := Kept.at7_main_v60 m ρ c
  rw [e11, e14]
  refine congrArg₂ (· * ·) (congrArg (fun h => lin h _ n q) (funext fun n' => funext fun k => ?_)) rfl
  show norm _ _ _ _ _ (dcol m ρ c (ix2 n' 0) * (A3 m ρ c (ix2 n' k) + Y2 m ρ c (ix2 n' k))) k = _
  rw [agg3]
  rfl

/-- Region 4: the last layer stops after the rectifier. -/
theorem step4 (n : Fin 100000) (q : Fin 128) :
    H4 m ρ c (ix2 n q)
      = norm (W9 m ρ c (Proc.devRef .tc main_v95)) (W9 m ρ c (Proc.devRef .tc main_v101))
          (W9 m ρ c (Proc.devRef .tc main_v103)) (W9 m ρ c (Proc.devRef .tc main_v97)) (W9 m ρ c (Proc.devRef .tc main_v99))
          (aggKer (dK m ρ c) (sK m ρ c) (LK m ρ c) (fun a => Y3 m ρ c (ix2 a q)) n) q := by
  have h := Regions.region4_array (V9 m ρ) c n q
  have ha : H4 m ρ c = (dat4 (F := Ideal) (V9 m ρ) c).arrAt 8 cfg4.N := W10_arr m ρ c 8
  rw [ha, h]
  unfold Regions.finalRow
  have e11 : (V9 m ρ c main_v11 : S100000x1.Idx → EReal) = dcol m ρ c := Kept.at9_main_v11 m ρ c
  have e14 : (V9 m ρ c main_v83 : S100000x128.Idx → EReal) = Y3 m ρ c := Kept.at9_main_v83 m ρ c
  rw [e11, e14]
  show norm _ _ _ _ _ (dcol m ρ c (ix2 n 0) * (A4 m ρ c (ix2 n q) + Y3 m ρ c (ix2 n q))) q = _
  rw [agg4]
  rfl

end Cert.KernelIdeal.Chain

end
-- ==== Proof.BridgeParams.lean ====
/-
  The two idealized programs cut the same pieces out of the same arguments: the two rows of the edge list, the
  node factors `(1 + in-degree)^(-1/2)`, and each layer's weight matrix, bias and normalisation statistics. Here each
  piece as the kernel program's host stretches leave it is identified with the reference program's value of the
  same operations, read at the kernel program's launch contents.
-/
import proofs.«150997_j34024730919242_2_alg».proof.Proof.KHost
import proofs.«150997_j34024730919242_2_alg».proof.Proof.RefRead

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal (nD τ sig)
open Cert.KernelIdeal.Gen

variable (m : (ℓ : Loc nD τ sig) → Buf (Elt Ideal) ℓ) (ρ : Dev nD → PrngReg) (c : Dev nD)

/-- Argument 0 of the kernel program, as launched. -/
abbrev a0 : (⟨2, ![100000, 128]⟩ : Shape).Idx → EReal := m ((c : Thread nD τ).loc Cert.KernelIdeal.main_arg0)
/-- Argument 1 of the kernel program, as launched. -/
abbrev a1 : (⟨2, ![2, 1600000]⟩ : Shape).Idx → BitVec 32 := m ((c : Thread nD τ).loc Cert.KernelIdeal.main_arg1)
/-- Argument 2 of the kernel program, as launched. -/
abbrev a2 : (⟨1, ![100000]⟩ : Shape).Idx → BitVec 32 := m ((c : Thread nD τ).loc Cert.KernelIdeal.main_arg2)
/-- Argument 3 of the kernel program, as launched. -/
abbrev a3 : (⟨2, ![128, 128]⟩ : Shape).Idx → EReal := m ((c : Thread nD τ).loc Cert.KernelIdeal.main_arg3)
/-- Argument 4 of the kernel program, as launched. -/
abbrev a4 : (⟨1, ![128]⟩ : Shape).Idx → EReal := m ((c : Thread nD τ).loc Cert.KernelIdeal.main_arg4)
/-- Argument 5 of the kernel program, as launched. -/
abbrev a5 : (⟨3, ![4, 128, 128]⟩ : Shape).Idx → EReal := m ((c : Thread nD τ).loc Cert.KernelIdeal.main_arg5)
/-- Argument 6 of the kernel program, as launched. -/
abbrev a6 : (⟨2, ![4, 128]⟩ : Shape).Idx → EReal := m ((c : Thread nD τ).loc Cert.KernelIdeal.main_arg6)
/-- Argument 7 of the kernel program, as launched. -/
abbrev a7 : (⟨2, ![4, 128]⟩ : Shape).Idx → EReal := m ((c : Thread nD τ).loc Cert.KernelIdeal.main_arg7)
/-- Argument 8 of the kernel program, as launched. -/
abbrev a8 : (⟨2, ![4, 128]⟩ : Shape).Idx → EReal := m ((c : Thread nD τ).loc Cert.KernelIdeal.main_arg8)
/-- Argument 9 of the kernel program, as launched. -/
abbrev a9 : (⟨2, ![4, 128]⟩ : Shape).Idx → EReal := m ((c : Thread nD τ).loc Cert.KernelIdeal.main_arg9)
/-- Argument 10 of the kernel program, as launched. -/
abbrev a10 : (⟨2, ![4, 128]⟩ : Shape).Idx → EReal := m ((c : Thread nD τ).loc Cert.KernelIdeal.main_arg10)
/-- Argument 11 of the kernel program, as launched. -/
abbrev a11 : (⟨2, ![128, 64]⟩ : Shape).Idx → EReal := m ((c : Thread nD τ).loc Cert.KernelIdeal.main_arg11)
/-- Argument 12 of the kernel program, as launched. -/
abbrev a12 : (⟨1, ![64]⟩ : Shape).Idx → EReal := m ((c : Thread nD τ).loc Cert.KernelIdeal.main_arg12)
/-- Argument 13 of the kernel program, as launched. -/
abbrev a13 : (⟨2, ![64, 10]⟩ : Shape).Idx → EReal := m ((c : Thread nD τ).loc Cert.KernelIdeal.main_arg13)
/-- Argument 14 of the kernel program, as launched. -/
abbrev a14 : (⟨1, ![10]⟩ : Shape).Idx → EReal := m ((c : Thread nD τ).loc Cert.KernelIdeal.main_arg14)

/-! ## The edge list, the node factors, the first weight matrix -/

set_option maxHeartbeats 2000000 in
theorem src_eq : Cert.KernelIdeal.HostSide.srcW m ρ c = Cert.ReferenceIdeal.ReadP.val_main_v1 (F := Ideal) (a1 m c) := by
  show StableHlo.after hostOps0 (W0 m ρ c) (Proc.devRef .tc Cert.KernelIdeal.main_v1) = _
  after_results
  all_goals rfl

set_option maxHeartbeats 2000000 in
theorem dst_eq : Cert.KernelIdeal.HostSide.dstW m ρ c = Cert.ReferenceIdeal.ReadP.val_main_v3 (F := Ideal) (a1 m c) := by
  show StableHlo.after hostOps0 (W0 m ρ c) (Proc.devRef .tc Cert.KernelIdeal.main_v3) = _
  after_results
  all_goals rfl

set_option maxHeartbeats 2000000 in
theorem dcol_eq : (W1 m ρ c (Proc.devRef .tc Cert.KernelIdeal.main_v11) : Cert.KernelIdeal.S100000x1.Idx → EReal)
    = shapeCast Cert.KernelIdeal.S100000x1 (Cert.ReferenceIdeal.ReadP.val_main_v10 (F := Ideal) (a1 m c)) Cert.KernelIdeal.Facts₀.shapeCasts_S100000_S100000x1 := by
  show StableHlo.after hostOps0 (W0 m ρ c) (Proc.devRef .tc Cert.KernelIdeal.main_v11) = _
  after_results
  all_goals rfl

set_option maxHeartbeats 2000000 in
theorem w0_eq : (W1 m ρ c (Proc.devRef .tc Cert.KernelIdeal.main_v13) : Cert.KernelIdeal.S128x128.Idx → EReal) = Cert.ReferenceIdeal.ReadP.val_main_v33 (F := Ideal) (a5 m c) := by
  show StableHlo.after hostOps0 (W0 m ρ c) (Proc.devRef .tc Cert.KernelIdeal.main_v13) = _
  after_results
  all_goals rfl

/-! ## Layer 0's parameters, as the host stretch before region 1 cuts them out of the arguments -/

set_option maxHeartbeats 2000000 in
theorem p_main_v26 : (W3 m ρ c (Proc.devRef .tc Cert.KernelIdeal.main_v26) : Cert.KernelIdeal.S128.Idx → EReal) = Cert.ReferenceIdeal.ReadP.val_main_v53 (F := Ideal) (a6 m c) := by
  show StableHlo.after hostOps1 (W2 m ρ c) (Proc.devRef .tc Cert.KernelIdeal.main_v26) = _
  after_results
  rw [Cert.KernelIdeal.Kept.at2_main_arg6, Cert.KernelIdeal.Kept.at1_main_arg6]
  rfl

set_option maxHeartbeats 2000000 in
theorem p_main_v32 : (W3 m ρ c (Proc.devRef .tc Cert.KernelIdeal.main_v32) : Cert.KernelIdeal.S128.Idx → EReal) = Cert.ReferenceIdeal.ReadP.val_main_v58 (F := Ideal) (a9 m c) := by
  show StableHlo.after hostOps1 (W2 m ρ c) (Proc.devRef .tc Cert.KernelIdeal.main_v32) = _
  after_results
  rw [Cert.KernelIdeal.Kept.at2_main_arg9, Cert.KernelIdeal.Kept.at1_main_arg9]
  rfl

set_option maxHeartbeats 2000000 in
theorem p_main_v34 : (W3 m ρ c (Proc.devRef .tc Cert.KernelIdeal.main_v34) : Cert.KernelIdeal.S128.Idx → EReal) = Cert.ReferenceIdeal.ReadP.val_main_v63 (F := Ideal) (a10 m c) := by
  show StableHlo.after hostOps1 (W2 m ρ c) (Proc.devRef .tc Cert.KernelIdeal.main_v34) = _
  after_results
  rw [Cert.KernelIdeal.Kept.at2_main_arg10, Cert.KernelIdeal.Kept.at1_main_arg10]
  rfl

set_option maxHeartbeats 2000000 in
theorem p_main_v28 : (W3 m ρ c (Proc.devRef .tc Cert.KernelIdeal.main_v28) : Cert.KernelIdeal.S128.Idx → EReal) = Cert.ReferenceIdeal.ReadP.val_main_v71 (F := Ideal) (a7 m c) := by
  show StableHlo.after hostOps1 (W2 m ρ c) (Proc.devRef .tc Cert.KernelIdeal.main_v28) = _
  after_results
  rw [Cert.KernelIdeal.Kept.at2_main_arg7, Cert.KernelIdeal.Kept.at1_main_arg7]
  rfl

set_option maxHeartbeats 2000000 in
theorem p_main_v30 : (W3 m ρ c (Proc.devRef .tc Cert.KernelIdeal.main_v30) : Cert.KernelIdeal.S128.Idx → EReal) = Cert.ReferenceIdeal.ReadP.val_main_v76 (F := Ideal) (a8 m c) := by
  show StableHlo.after hostOps1 (W2 m ρ c) (Proc.devRef .tc Cert.KernelIdeal.main_v30) = _
  after_results
  rw [Cert.KernelIdeal.Kept.at2_main_arg8, Cert.KernelIdeal.Kept.at1_main_arg8]
  rfl

set_option maxHeartbeats 2000000 in
theorem p_main_v36 : (W3 m ρ c (Proc.devRef .tc Cert.KernelIdeal.main_v36) : Cert.KernelIdeal.S128x128.Idx → EReal) = Cert.ReferenceIdeal.ReadP.val_main_v82 (F := Ideal) (a5 m c) := by
  show StableHlo.after hostOps1 (W2 m ρ c) (Proc.devRef .tc Cert.KernelIdeal.main_v36) = _
  after_results
  rw [Cert.KernelIdeal.Kept.at2_main_arg5, Cert.KernelIdeal.Kept.at1_main_arg5]
  rfl

/-! ## Layer 1's parameters, as the host stretch before region 2 cuts them out of the arguments -/

set_option maxHeartbeats 2000000 in
theorem p_main_v49 : (W5 m ρ c (Proc.devRef .tc Cert.KernelIdeal.main_v49) : Cert.KernelIdeal.S128.Idx → EReal) = Cert.ReferenceIdeal.ReadP.val_main_v102 (F := Ideal) (a6 m c) := by
  show StableHlo.after hostOps2 (W4 m ρ c) (Proc.devRef .tc Cert.KernelIdeal.main_v49) = _
  after_results
  rw [Cert.KernelIdeal.Kept.at4_main_arg6, Cert.KernelIdeal.Kept.at1_main_arg6]
  rfl

set_option maxHeartbeats 2000000 in
theorem p_main_v55 : (W5 m ρ c (Proc.devRef .tc Cert.KernelIdeal.main_v55) : Cert.KernelIdeal.S128.Idx → EReal) = Cert.ReferenceIdeal.ReadP.val_main_v107 (F := Ideal) (a9 m c) := by
  show StableHlo.after hostOps2 (W4 m ρ c) (Proc.devRef .tc Cert.KernelIdeal.main_v55) = _
  after_results
  rw [Cert.KernelIdeal.Kept.at4_main_arg9, Cert.KernelIdeal.Kept.at1_main_arg9]
  rfl

set_option maxHeartbeats 2000000 in
theorem p_main_v57 : (W5 m ρ c (Proc.devRef .tc Cert.KernelIdeal.main_v57) : Cert.KernelIdeal.S128.Idx → EReal) = Cert.ReferenceIdeal.ReadP.val_main_v112 (F := Ideal) (a10 m c) := by
  show StableHlo.after hostOps2 (W4 m ρ c) (Proc.devRef .tc Cert.KernelIdeal.main_v57) = _
  after_results
  rw [Cert.KernelIdeal.Kept.at4_main_arg10, Cert.KernelIdeal.Kept.at1_main_arg10]
  rfl

set_option maxHeartbeats 2000000 in
theorem p_main_v51 : (W5 m ρ c (Proc.devRef .tc Cert.KernelIdeal.main_v51) : Cert.KernelIdeal.S128.Idx → EReal) = Cert.ReferenceIdeal.ReadP.val_main_v120 (F := Ideal) (a7 m c) := by
  show StableHlo.after hostOps2 (W4 m ρ c) (Proc.devRef .tc Cert.KernelIdeal.main_v51) = _
  after_results
  rw [Cert.KernelIdeal.Kept.at4_main_arg7, Cert.KernelIdeal.Kept.at1_main_arg7]
  rfl

set_option maxHeartbeats 2000000 in
theorem p_main_v53 : (W5 m ρ c (Proc.devRef .tc Cert.KernelIdeal.main_v53) : Cert.KernelIdeal.S128.Idx → EReal) = Cert.ReferenceIdeal.ReadP.val_main_v125 (F := Ideal) (a8 m c) := by
  show StableHlo.after hostOps2 (W4 m ρ c) (Proc.devRef .tc Cert.KernelIdeal.main_v53) = _
  after_results
  rw [Cert.KernelIdeal.Kept.at4_main_arg8, Cert.KernelIdeal.Kept.at1_main_arg8]
  rfl

set_option maxHeartbeats 2000000 in
theorem p_main_v59 : (W5 m ρ c (Proc.devRef .tc Cert.KernelIdeal.main_v59) : Cert.KernelIdeal.S128x128.Idx → EReal) = Cert.ReferenceIdeal.ReadP.val_main_v131 (F := Ideal) (a5 m c) := by
  show StableHlo.after hostOps2 (W4 m ρ c) (Proc.devRef .tc Cert.KernelIdeal.main_v59) = _
  after_results
  rw [Cert.KernelIdeal.Kept.at4_main_arg5, Cert.KernelIdeal.Kept.at1_main_arg5]
  rfl

/-! ## Layer 2's parameters, as the host stretch before region 3 cuts them out of the arguments -/

set_option maxHeartbeats 2000000 in
theorem p_main_v72 : (W7 m ρ c (Proc.devRef .tc Cert.KernelIdeal.main_v72) : Cert.KernelIdeal.S128.Idx → EReal) = Cert.ReferenceIdeal.ReadP.val_main_v151 (F := Ideal) (a6 m c) := by
  show StableHlo.after hostOps3 (W6 m ρ c) (Proc.devRef .tc Cert.KernelIdeal.main_v72) = _
  after_results
  rw [Cert.KernelIdeal.Kept.at6_main_arg6, Cert.KernelIdeal.Kept.at1_main_arg6]
  rfl

set_option maxHeartbeats 2000000 in
theorem p_main_v78 : (W7 m ρ c (Proc.devRef .tc Cert.KernelIdeal.main_v78) : Cert.KernelIdeal.S128.Idx → EReal) = Cert.ReferenceIdeal.ReadP.val_main_v156 (F := Ideal) (a9 m c) := by
  show StableHlo.after hostOps3 (W6 m ρ c) (Proc.devRef .tc Cert.KernelIdeal.main_v78) = _
  after_results
  rw [Cert.KernelIdeal.Kept.at6_main_arg9, Cert.KernelIdeal.Kept.at1_main_arg9]
  rfl

set_option maxHeartbeats 2000000 in
theorem p_main_v80 : (W7 m ρ c (Proc.devRef .tc Cert.KernelIdeal.main_v80) : Cert.KernelIdeal.S128.Idx → EReal) = Cert.ReferenceIdeal.ReadP.val_main_v161 (F := Ideal) (a10 m c) := by
  show StableHlo.after hostOps3 (W6 m ρ c) (Proc.devRef .tc Cert.KernelIdeal.main_v80) = _
  after_results
  rw [Cert.KernelIdeal.Kept.at6_main_arg10, Cert.KernelIdeal.Kept.at1_main_arg10]
  rfl

set_option maxHeartbeats 2000000 in
theorem p_main_v74 : (W7 m ρ c (Proc.devRef .tc Cert.KernelIdeal.main_v74) : Cert.KernelIdeal.S128.Idx → EReal) = Cert.ReferenceIdeal.ReadP.val_main_v169 (F := Ideal) (a7 m c) := by
  show StableHlo.after hostOps3 (W6 m ρ c) (Proc.devRef .tc Cert.KernelIdeal.main_v74) = _
  after_results
  rw [Cert.KernelIdeal.Kept.at6_main_arg7, Cert.KernelIdeal.Kept.at1_main_arg7]
  rfl

set_option maxHeartbeats 2000000 in
theorem p_main_v76 : (W7 m ρ c (Proc.devRef .tc Cert.KernelIdeal.main_v76) : Cert.KernelIdeal.S128.Idx → EReal) = Cert.ReferenceIdeal.ReadP.val_main_v174 (F := Ideal) (a8 m c) := by
  show StableHlo.after hostOps3 (W6 m ρ c) (Proc.devRef .tc Cert.KernelIdeal.main_v76) = _
  after_results
  rw [Cert.KernelIdeal.Kept.at6_main_arg8, Cert.KernelIdeal.Kept.at1_main_arg8]
  rfl

set_option maxHeartbeats 2000000 in
theorem p_main_v82 : (W7 m ρ c (Proc.devRef .tc Cert.KernelIdeal.main_v82) : Cert.KernelIdeal.S128x128.Idx → EReal) = Cert.ReferenceIdeal.ReadP.val_main_v180 (F := Ideal) (a5 m c) := by
  show StableHlo.after hostOps3 (W6 m ρ c) (Proc.devRef .tc Cert.KernelIdeal.main_v82) = _
  after_results
  rw [Cert.KernelIdeal.Kept.at6_main_arg5, Cert.KernelIdeal.Kept.at1_main_arg5]
  rfl

/-! ## Layer 3's parameters, as the host stretch before region 4 cuts them out of the arguments -/

set_option maxHeartbeats 2000000 in
theorem p_main_v95 : (W9 m ρ c (Proc.devRef .tc Cert.KernelIdeal.main_v95) : Cert.KernelIdeal.S128.Idx → EReal) = Cert.ReferenceIdeal.ReadP.val_main_v200 (F := Ideal) (a6 m c) := by
  show StableHlo.after hostOps4 (W8 m ρ c) (Proc.devRef .tc Cert.KernelIdeal.main_v95) = _
  after_results
  rw [Cert.KernelIdeal.Kept.at8_main_arg6, Cert.KernelIdeal.Kept.at1_main_arg6]
  rfl

set_option maxHeartbeats 2000000 in
theorem p_main_v101 : (W9 m ρ c (Proc.devRef .tc Cert.KernelIdeal.main_v101) : Cert.KernelIdeal.S128.Idx → EReal) = Cert.ReferenceIdeal.ReadP.val_main_v205 (F := Ideal) (a9 m c) := by
  show StableHlo.after hostOps4 (W8 m ρ c) (Proc.devRef .tc Cert.KernelIdeal.main_v101) = _
  after_results
  rw [Cert.KernelIdeal.Kept.at8_main_arg9, Cert.KernelIdeal.Kept.at1_main_arg9]
  rfl

set_option maxHeartbeats 2000000 in
theorem p_main_v103 : (W9 m ρ c (Proc.devRef .tc Cert.KernelIdeal.main_v103) : Cert.KernelIdeal.S128.Idx → EReal) = Cert.ReferenceIdeal.ReadP.val_main_v210 (F := Ideal) (a10 m c) := by
  show StableHlo.after hostOps4 (W8 m ρ c) (Proc.devRef .tc Cert.KernelIdeal.main_v103) = _
  after_results
  rw [Cert.KernelIdeal.Kept.at8_main_arg10, Cert.KernelIdeal.Kept.at1_main_arg10]
  rfl

set_option maxHeartbeats 2000000 in
theorem p_main_v97 : (W9 m ρ c (Proc.devRef .tc Cert.KernelIdeal.main_v97) : Cert.KernelIdeal.S128.Idx → EReal) = Cert.ReferenceIdeal.ReadP.val_main_v218 (F := Ideal) (a7 m c) := by
  show StableHlo.after hostOps4 (W8 m ρ c) (Proc.devRef .tc Cert.KernelIdeal.main_v97) = _
  after_results
  rw [Cert.KernelIdeal.Kept.at8_main_arg7, Cert.KernelIdeal.Kept.at1_main_arg7]
  rfl

set_option maxHeartbeats 2000000 in
theorem p_main_v99 : (W9 m ρ c (Proc.devRef .tc Cert.KernelIdeal.main_v99) : Cert.KernelIdeal.S128.Idx → EReal) = Cert.ReferenceIdeal.ReadP.val_main_v223 (F := Ideal) (a8 m c) := by
  show StableHlo.after hostOps4 (W8 m ρ c) (Proc.devRef .tc Cert.KernelIdeal.main_v99) = _
  after_results
  rw [Cert.KernelIdeal.Kept.at8_main_arg8, Cert.KernelIdeal.Kept.at1_main_arg8]
  rfl

end Cert.Bridge

end
-- ==== Proof.RefLayerCount.lean ====
/-
  The node factor of a graph convolution is the inverse square root of a degree: one plus the number of messages
  that land on the node. The count is a finite sum of ones and zeros, hence a natural number; one more than a
  natural number is a positive real, and the inverse square root of a positive real is a nonnegative real.
-/
import Idealize.ShloMosaic.PureOps.Ideal
import Idealize.ShloMosaic.PureOps.Ideal.Laws

noncomputable section

open scoped BigOperators

namespace Cert.ReferenceIdeal.Layers

open Idealize.ShloMosaic

/-- A finite sum of ones and zeros is a natural number. -/
theorem sum_ones_eq_nat {ι : Type*} (s : Finset ι) (P : ι → Prop) [DecidablePred P] :
    ∃ k : ℕ, (∑ e ∈ s, if P e then (1 : EReal) else 0) = ((k : ℝ) : EReal) := by
  classical
  induction s using Finset.induction_on with
  | empty => exact ⟨0, by simp⟩
  | insert a s ha ih =>
    obtain ⟨k, hk⟩ := ih
    rw [Finset.sum_insert ha, hk]
    by_cases h : P a
    · refine ⟨k + 1, ?_⟩
      rw [if_pos h, ← EReal.coe_one, ← EReal.coe_add]
      congr 1
      push_cast
      ring
    · exact ⟨k, by rw [if_neg h, zero_add]⟩

/-- The inverse square root of one more than a count is a nonnegative real. -/
theorem rsqrt_count (k : ℕ) :
    ∃ r : ℝ, 0 ≤ r ∧ Ideal.rsqrt ((0 + ((k : ℝ) : EReal)) + 1) = (r : EReal) := by
  refine ⟨(Real.sqrt ((k : ℝ) + 1))⁻¹, inv_nonneg.mpr (Real.sqrt_nonneg _), ?_⟩
  have hpos : (0 : ℝ) < (k : ℝ) + 1 := by positivity
  rw [zero_add, ← EReal.coe_one, ← EReal.coe_add, Ideal.rsqrt_coe, if_neg (not_lt.mpr hpos.le), if_neg hpos.ne']

end Cert.ReferenceIdeal.Layers

end
-- ==== Proof.RefLayerBase.lean ====
/-
  The parts of the reference network that every layer shares, read at one entry.

  The edge list gives each message a source word and a target word (signed 32-bit node numbers). The node factor
  `dn` is the inverse square root of the degree (one plus the number of messages whose target word is the node).
  A message reads the row `srow` its fixed-up, clamped source word names, is scaled by the factors of `srow` and of
  `trow` (the row its target word names), and lands on node `n` exactly when its target word, read signed, is `n`.
  The first hidden layer is the rectified `x · w + b`.
-/
import proofs.«150997_j34024730919242_2_alg».proof.Proof.RefRead
import proofs.«150997_j34024730919242_2_alg».proof.Proof.LibEdges
import proofs.«150997_j34024730919242_2_alg».proof.Proof.EdgeIdx
import proofs.«150997_j34024730919242_2_alg».proof.Proof.Spec
import proofs.«150997_j34024730919242_2_alg».proof.Proof.LayerAlgebra
import proofs.«150997_j34024730919242_2_alg».proof.Proof.RefLayerCount
import Idealize.ShloMosaic.Lib.IdealHost

noncomputable section

open scoped BigOperators

namespace Cert.ReferenceIdeal.Layers

open Cert.ReferenceIdeal Cert.ReferenceIdeal.ReadP Idealize.ShloMosaic Idealize.ShloMosaic.ValueIdx

/-- The node factor: the inverse square root of the node's degree. -/
abbrev dn (x1 : (⟨S2x1600000, .i32⟩ : BufTy).Contents (Elt Ideal)) (n : Fin 100000) : EReal := val_main_v10 (F := Ideal) x1 (ix1 n)

/-- The row a message reads: its source word, fixed up and clamped. -/
abbrev srow (x1 : (⟨S2x1600000, .i32⟩ : BufTy).Contents (Elt Ideal)) (e : Fin 1600000) : Fin 100000 := Cert.Gcn4.row (val_main_v1 (F := Ideal) x1 (ix1 e))

/-- The row gathered at a message's target word. -/
abbrev trow (x1 : (⟨S2x1600000, .i32⟩ : BufTy).Contents (Elt Ideal)) (e : Fin 1600000) : Fin 100000 := Cert.Gcn4.row (val_main_v3 (F := Ideal) x1 (ix1 e))

/-- Message `e` is added to node `n`: its target word, read signed, is `n`. -/
abbrev lands (x1 : (⟨S2x1600000, .i32⟩ : BufTy).Contents (Elt Ideal)) (e : Fin 1600000) (n : Fin 100000) : Prop := (val_main_v3 (F := Ideal) x1 (ix1 e)).toInt = (n.val : ℤ)

/-- A message that lands on node `n` gathers the factor of `n` at its target word. -/
theorem trow_of_lands (x1 : (⟨S2x1600000, .i32⟩ : BufTy).Contents (Elt Ideal)) (e : Fin 1600000) (n : Fin 100000) (h : lands x1 e n) : trow x1 e = n :=
  Cert.Gcn4.row_of_toInt _ n h

/-- The column of fixed-up source words at message `e`. -/
theorem srcCol_apply (x1 : (⟨S2x1600000, .i32⟩ : BufTy).Contents (Elt Ideal)) (e : Fin 1600000) :
    val_main_v16 (F := Ideal) x1 (ix2 e 0) = Cert.Gcn4.fixWord (val_main_v1 (F := Ideal) x1 (ix1 e)) :=
  Cert.Gcn4.fixCol_apply Facts₀.bcast_S_S1600000 Facts₀.bcast_S1600000_S1600000x1_0 (val_main_v1 (F := Ideal) x1) e

/-- The column of fixed-up target words at message `e`. -/
theorem tgtCol_apply (x1 : (⟨S2x1600000, .i32⟩ : BufTy).Contents (Elt Ideal)) (e : Fin 1600000) :
    val_main_v23 (F := Ideal) x1 (ix2 e 0) = Cert.Gcn4.fixWord (val_main_v3 (F := Ideal) x1 (ix1 e)) :=
  Cert.Gcn4.fixCol_apply Facts₀.bcast_S_S1600000 Facts₀.bcast_S1600000_S1600000x1_0 (val_main_v3 (F := Ideal) x1) e

/-- The factor gathered at a message's source word is the factor of the row the message reads. -/
theorem dSrc_apply (x1 : (⟨S2x1600000, .i32⟩ : BufTy).Contents (Elt Ideal)) (e : Fin 1600000) : val_main_v17 (F := Ideal) x1 (ix1 e) = dn x1 (srow x1 e) := by
  have h := Cert.Edges.vecGather_apply (N := 100000) (E := 1600000) (by norm_num)
    Facts₀.gather_S100000_S1600000x1_S1600000_n_0_n_n_0_1_1_wf (val_main_v10 (F := Ideal) x1) (val_main_v16 (F := Ideal) x1) e
  rw [srcCol_apply] at h
  exact h

/-- The factor gathered at a message's target word. -/
theorem dTgt_apply (x1 : (⟨S2x1600000, .i32⟩ : BufTy).Contents (Elt Ideal)) (e : Fin 1600000) : val_main_v24 (F := Ideal) x1 (ix1 e) = dn x1 (trow x1 e) := by
  have h := Cert.Edges.vecGather_apply (N := 100000) (E := 1600000) (by norm_num)
    Facts₀.gather_S100000_S1600000x1_S1600000_n_0_n_n_0_1_1_wf (val_main_v10 (F := Ideal) x1) (val_main_v23 (F := Ideal) x1) e
  rw [tgtCol_apply] at h
  exact h

/-- A message's weight: the product of the factors at its two ends. -/
theorem weight_apply (x1 : (⟨S2x1600000, .i32⟩ : BufTy).Contents (Elt Ideal)) (e : Fin 1600000) :
    val_main_v25 (F := Ideal) x1 (ix1 e) = dn x1 (srow x1 e) * dn x1 (trow x1 e) := by
  rw [val_main_v25_apply, dSrc_apply, dTgt_apply, Ideal.mulf_def]

/-- A node's own weight: the square of its factor. -/
theorem self_apply (x1 : (⟨S2x1600000, .i32⟩ : BufTy).Contents (Elt Ideal)) (n : Fin 100000) : val_main_v26 (F := Ideal) x1 (ix1 n) = dn x1 n * dn x1 n :=
  (val_main_v26_apply (F := Ideal) x1 (ix1 n)).trans (Ideal.mulf_def _ _)

/-- The first hidden layer at `(n, q)`. -/
theorem hidden (x0 : (⟨S100000x128, .f32⟩ : BufTy).Contents (Elt Ideal)) (x3 : (⟨S128x128, .f32⟩ : BufTy).Contents (Elt Ideal)) (x4 : (⟨S128, .f32⟩ : BufTy).Contents (Elt Ideal)) (n : Fin 100000) (q : Fin 128) :
    val_main_v31 (F := Ideal) x0 x3 x4 (ix2 n q) = Cert.Gcn4.hidden0 x0 x3 x4 n q := by
  rw [val_main_v31_apply, val_main_v30_apply, val_main_v27_apply, val_main_v29_apply, val_main_v28_apply,
    val_main_call0_v0_apply, val_main_call0_cst_apply]
  have e1 : ∀ k : Fin 128, lidx_main_v27 (ix2 n q) k = ix2 n k := fun k => funext fun a => by
    match a with
    | ⟨0, _⟩ => rfl
    | ⟨1, _⟩ => rfl
  have e2 : ∀ k : Fin 128, ridx_main_v27 (ix2 n q) k = ix2 k q := fun k => funext fun a => by
    match a with
    | ⟨0, _⟩ => rfl
    | ⟨1, _⟩ => rfl
  have e3 : idx_main_v28 (idx_main_v29 (ix2 n q)) = ix1 q := funext fun a => by
    match a with
    | ⟨0, _⟩ => rfl
  simp only [e1, e2, e3, Ideal.maximumf_def, Ideal.addf_def, Ideal.ofBits_def]
  rfl

/-- The degree of a node is one more than a natural number: the count of the messages landing on it. -/
theorem degree_apply (x1 : (⟨S2x1600000, .i32⟩ : BufTy).Contents (Elt Ideal)) (n : Fin 100000) :
    ∃ k : ℕ, val_main_v9 (F := Ideal) x1 (ix1 n) = (0 + ((k : ℝ) : EReal)) + 1 := by
  obtain ⟨k, hk⟩ := sum_ones_eq_nat (Finset.univ : Finset (Fin 1600000))
    (fun e => (val_main_v6 (F := Ideal) x1 (ix2 e 0)).toInt = (n.val : ℤ))
  refine ⟨k, ?_⟩
  have h7 : val_main_v7 (F := Ideal) x1 (ix1 n) = val_main_v5 (F := Ideal) (ix1 n)
      + ∑ e : Fin 1600000, if (val_main_v6 (F := Ideal) x1 (ix2 e 0)).toInt = (n.val : ℤ) then val_main_v4 (F := Ideal) (ix1 e) else 0 :=
    Cert.Edges.vecScatterAdd_apply (N := 100000) (E := 1600000) Facts₀.scatter_S100000_S1600000x1_S1600000_n_0_0_1_wf
      (val_main_v5 (F := Ideal)) (val_main_v6 (F := Ideal) x1) (val_main_v4 (F := Ideal)) n
  have h5 : val_main_v5 (F := Ideal) (ix1 n) = 0 := by
    rw [val_main_v5_apply, val_main_cst_0_apply, Ideal.ofBits_def]
    exact Ideal.ofBits_zero_f32
  have h4 : ∀ e : Fin 1600000, val_main_v4 (F := Ideal) (ix1 e) = 1 := fun e => by
    rw [val_main_v4_apply, val_main_cst_apply, Ideal.ofBits_def]
    exact Ideal.ofBits_one_f32
  have h8 : val_main_v8 (F := Ideal) (ix1 n) = 1 := by
    rw [val_main_v8_apply, val_main_cst_1_apply, Ideal.ofBits_def]
    exact Ideal.ofBits_one_f32
  rw [val_main_v9_apply, h7, h5, h8, Ideal.addf_def]
  simp only [h4]
  rw [hk]

/-- The node factor is a nonnegative real. -/
theorem dn_real (x1 : (⟨S2x1600000, .i32⟩ : BufTy).Contents (Elt Ideal)) (n : Fin 100000) : ∃ r : ℝ, 0 ≤ r ∧ dn x1 n = (r : EReal) := by
  obtain ⟨k, hk⟩ := degree_apply x1 n
  obtain ⟨r, hr0, hr⟩ := rsqrt_count k
  refine ⟨r, hr0, ?_⟩
  show val_main_v10 (F := Ideal) x1 (ix1 n) = _
  rw [val_main_v10_apply, hk, Ideal.hostUnary_rsqrt_def]
  exact hr

theorem dn_nonneg (x1 : (⟨S2x1600000, .i32⟩ : BufTy).Contents (Elt Ideal)) (n : Fin 100000) : 0 ≤ dn x1 n := by
  obtain ⟨r, hr0, hr⟩ := dn_real x1 n
  rw [hr]
  exact EReal.coe_nonneg.mpr hr0

theorem dn_ne_top (x1 : (⟨S2x1600000, .i32⟩ : BufTy).Contents (Elt Ideal)) (n : Fin 100000) : dn x1 n ≠ ⊤ := by
  obtain ⟨r, _, hr⟩ := dn_real x1 n
  rw [hr]
  exact EReal.coe_ne_top r

end Cert.ReferenceIdeal.Layers

end
-- ==== Proof.RefLayer0.lean ====
/-
  Layer 0 of the reference network at one entry `(n, q)`.

  The layer's input `h` is multiplied by its weight matrix; every message reads the product's row at its source
  node, scaled by the factors at its two ends, and is added to the node its target word names; the node's own row is
  added scaled by the square of its factor; then come the bias, the normalisation by the running statistics and
  the rectifier. At the extended reals the accumulating scatter is the exact sum over the messages that land on `n`.
-/
import proofs.«150997_j34024730919242_2_alg».proof.Proof.RefLayerBase

noncomputable section

open scoped BigOperators

namespace Cert.ReferenceIdeal.Layers

open Cert.ReferenceIdeal Cert.ReferenceIdeal.ReadP Idealize.ShloMosaic Idealize.ShloMosaic.ValueIdx

/-- The product of the layer's input with its weight matrix at `(n, q)`. -/
theorem lin0_apply (x0 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (n : Fin 100000) (q : Fin 128) :
    val_main_v34 (F := Ideal) x0 x3 x4 x5 (ix2 n q)
      = Cert.Gcn4.lin (fun a k => val_main_v31 (F := Ideal) x0 x3 x4 (ix2 a k)) (val_main_v33 (F := Ideal) x5) n q := by
  rw [val_main_v34_apply]
  have e1 : ∀ k : Fin 128, lidx_main_v34 (ix2 n q) k = ix2 n k := fun k => funext fun a => by
    match a with
    | ⟨0, _⟩ => rfl
    | ⟨1, _⟩ => rfl
  have e2 : ∀ k : Fin 128, ridx_main_v34 (ix2 n q) k = ix2 k q := fun k => funext fun a => by
    match a with
    | ⟨0, _⟩ => rfl
    | ⟨1, _⟩ => rfl
  simp only [e1, e2, Cert.Gcn4.lin]

/-- The rows the messages read: entry `(e, q)` is the product's entry `q` in the row of message `e`'s source node. -/
theorem msgRows0_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (e : Fin 1600000) (q : Fin 128) :
    val_main_v41 (F := Ideal) x0 x1 x3 x4 x5 (ix2 e q) = val_main_v34 (F := Ideal) x0 x3 x4 x5 (ix2 (srow x1 e) q) := by
  have hc : val_main_v40 (F := Ideal) x1 = val_main_v16 (F := Ideal) x1 := rfl
  have h := Cert.Edges.rowsGather_apply (N := 100000) (C := 128) (E := 1600000) (by norm_num)
    Facts₀.gather_S100000x128_S1600000x1_S1600000x128_1_0_n_n_0_1_1128_wf (val_main_v34 (F := Ideal) x0 x3 x4 x5) (val_main_v40 (F := Ideal) x1) e q
  rw [hc, srcCol_apply] at h
  exact h

/-- The message weights spread over the columns. -/
theorem msgWeight0_apply (x1 : (⟨S2x1600000, .i32⟩ : BufTy).Contents (Elt Ideal)) (e : Fin 1600000) (q : Fin 128) :
    val_main_v43 (F := Ideal) x1 (ix2 e q) = dn x1 (srow x1 e) * dn x1 (trow x1 e) := by
  rw [val_main_v43_apply, val_main_v42_apply]
  have e1 : idx_main_v42 (idx_main_v43 (ix2 e q)) = ix1 e := funext fun a => by
    match a with
    | ⟨0, _⟩ => rfl
  rw [e1]
  exact weight_apply x1 e

/-- The nodes' own weights spread over the columns. -/
theorem selfWeight0_apply (x1 : (⟨S2x1600000, .i32⟩ : BufTy).Contents (Elt Ideal)) (n : Fin 100000) (q : Fin 128) :
    val_main_v49 (F := Ideal) x1 (ix2 n q) = dn x1 n * dn x1 n := by
  rw [val_main_v49_apply, val_main_v48_apply]
  have e1 : idx_main_v48 (idx_main_v49 (ix2 n q)) = ix1 n := funext fun a => by
    match a with
    | ⟨0, _⟩ => rfl
  rw [e1]
  exact self_apply x1 n

/-- The sum of the weighted messages that land on node `n`, at column `q`. -/
theorem agg0_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (n : Fin 100000) (q : Fin 128) :
    val_main_v47 (F := Ideal) x0 x1 x3 x4 x5 (ix2 n q)
      = 0 + ∑ e : Fin 1600000, if lands x1 e n then
          val_main_v34 (F := Ideal) x0 x3 x4 x5 (ix2 (srow x1 e) q) * (dn x1 (srow x1 e) * dn x1 (trow x1 e)) else 0 := by
  have h := Cert.Edges.rowsScatterAdd_apply (N := 100000) (C := 128) (E := 1600000)
    Facts₀.scatter_S100000x128_S1600000x1_S1600000x128_1_0_0_1_wf (val_main_v45 (F := Ideal)) (val_main_v46 (F := Ideal) x1) (val_main_v44 (F := Ideal) x0 x1 x3 x4 x5) n q
  have hz : val_main_v45 (F := Ideal) (ix2 n q) = 0 := by
    rw [val_main_v45_apply, val_main_cst_7_apply, Ideal.ofBits_def]
    exact Ideal.ofBits_zero_f32
  have hcol : ∀ e : Fin 1600000, val_main_v46 (F := Ideal) x1 (ix2 e 0) = val_main_v3 (F := Ideal) x1 (ix1 e) := fun e =>
    Cert.Gcn4.rawCol_apply Facts₀.bcast_S1600000_S1600000x1_0 (val_main_v3 (F := Ideal) x1) e
  have hupd : ∀ e : Fin 1600000, val_main_v44 (F := Ideal) x0 x1 x3 x4 x5 (ix2 e q)
      = val_main_v34 (F := Ideal) x0 x3 x4 x5 (ix2 (srow x1 e) q) * (dn x1 (srow x1 e) * dn x1 (trow x1 e)) := fun e => by
    rw [val_main_v44_apply, msgRows0_apply, msgWeight0_apply, Ideal.mulf_def]
  rw [hz] at h
  simp only [hcol, hupd] at h
  exact h

/-- The bias spread over the rows. -/
theorem bias0_apply (x6 : (⟨S4x128, .f32⟩ : BufTy).Contents (Elt Ideal)) (n : Fin 100000) (q : Fin 128) :
    val_main_v55 (F := Ideal) x6 (ix2 n q) = val_main_v53 (F := Ideal) x6 (ix1 q) := by
  rw [val_main_v55_apply, val_main_v54_apply]
  exact congrArg (val_main_v53 (F := Ideal) x6) (funext fun a => by
    match a with
    | ⟨0, _⟩ => rfl)

/-- The running mean spread over the rows. -/
theorem mean0_apply (x9 : (⟨S4x128, .f32⟩ : BufTy).Contents (Elt Ideal)) (n : Fin 100000) (q : Fin 128) :
    val_main_v60 (F := Ideal) x9 (ix2 n q) = val_main_v58 (F := Ideal) x9 (ix1 q) := by
  rw [val_main_v60_apply, val_main_v59_apply]
  exact congrArg (val_main_v58 (F := Ideal) x9) (funext fun a => by
    match a with
    | ⟨0, _⟩ => rfl)

/-- The scale spread over the rows. -/
theorem gamma0_apply (x7 : (⟨S4x128, .f32⟩ : BufTy).Contents (Elt Ideal)) (n : Fin 100000) (q : Fin 128) :
    val_main_v73 (F := Ideal) x7 (ix2 n q) = val_main_v71 (F := Ideal) x7 (ix1 q) := by
  rw [val_main_v73_apply, val_main_v72_apply]
  exact congrArg (val_main_v71 (F := Ideal) x7) (funext fun a => by
    match a with
    | ⟨0, _⟩ => rfl)

/-- The shift spread over the rows. -/
theorem beta0_apply (x8 : (⟨S4x128, .f32⟩ : BufTy).Contents (Elt Ideal)) (n : Fin 100000) (q : Fin 128) :
    val_main_v78 (F := Ideal) x8 (ix2 n q) = val_main_v76 (F := Ideal) x8 (ix1 q) := by
  rw [val_main_v78_apply, val_main_v77_apply]
  exact congrArg (val_main_v76 (F := Ideal) x8) (funext fun a => by
    match a with
    | ⟨0, _⟩ => rfl)

/-- The inverse standard deviation `(var + ε)^(-1/2)` spread over the rows. -/
theorem istd0_apply (x10 : (⟨S4x128, .f32⟩ : BufTy).Contents (Elt Ideal)) (n : Fin 100000) (q : Fin 128) :
    val_main_v68 (F := Ideal) x10 (ix2 n q) = Ideal.rsqrt (val_main_v63 (F := Ideal) x10 (ix1 q) + Ideal.ofBits .f32 0x3727C5AC#32) := by
  rw [val_main_v68_apply, val_main_v67_apply, val_main_v66_apply, val_main_v65_apply, val_main_v64_apply, val_main_cst_8_apply]
  have e1 : idx_main_v67 (idx_main_v68 (ix2 n q)) = ix1 q := funext fun a => by
    match a with
    | ⟨0, _⟩ => rfl
  rw [e1, Ideal.hostUnary_rsqrt_def, Ideal.addf_def, Ideal.ofBits_def]

/-- The rectifier's zero. -/
theorem reluZero0_apply (n : Fin 100000) (q : Fin 128) :
    val_main_call1_v0 (F := Ideal) (ix2 n q) = Ideal.ofBits .f32 0x00000000#32 := by
  rw [val_main_call1_v0_apply, val_main_call1_cst_apply, Ideal.ofBits_def]

/-- Layer 0 at `(n, q)`: the normalised, rectified aggregate of the products' rows. -/
theorem layer0 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v80 (F := Ideal) x0 x1 x3 x4 x5 x6 x7 x8 x9 x10 (ix2 n q)
      = Cert.Gcn4.norm (val_main_v53 (F := Ideal) x6) (val_main_v58 (F := Ideal) x9) (val_main_v63 (F := Ideal) x10) (val_main_v71 (F := Ideal) x7) (val_main_v76 (F := Ideal) x8)
          (Cert.Gcn4.aggRef (dn x1) (srow x1) (trow x1) (lands x1)
            (fun n' => Cert.Gcn4.lin (fun a k => val_main_v31 (F := Ideal) x0 x3 x4 (ix2 a k)) (val_main_v33 (F := Ideal) x5) n' q) n) q := by
  rw [val_main_v80_apply, val_main_v79_apply, val_main_v74_apply, val_main_v69_apply, val_main_v61_apply, val_main_v56_apply, val_main_v51_apply, val_main_v50_apply]
  rw [agg0_apply, selfWeight0_apply, bias0_apply, mean0_apply, istd0_apply, gamma0_apply, beta0_apply,
    reluZero0_apply]
  simp only [lin0_apply, Ideal.maximumf_def, Ideal.addf_def, Ideal.subf_def, Ideal.mulf_def, Cert.Gcn4.norm,
    Cert.Gcn4.aggRef]

end Cert.ReferenceIdeal.Layers

end
-- ==== Proof.RefLayer1.lean ====
/-
  Layer 1 of the reference network at one entry `(n, q)`.

  The layer's input `h` is multiplied by its weight matrix; every message reads the product's row at its source
  node, scaled by the factors at its two ends, and is added to the node its target word names; the node's own row is
  added scaled by the square of its factor; then come the bias, the normalisation by the running statistics and
  the rectifier. At the extended reals the accumulating scatter is the exact sum over the messages that land on `n`.
-/
import proofs.«150997_j34024730919242_2_alg».proof.Proof.RefLayerBase

noncomputable section

open scoped BigOperators

namespace Cert.ReferenceIdeal.Layers

open Cert.ReferenceIdeal Cert.ReferenceIdeal.ReadP Idealize.ShloMosaic Idealize.ShloMosaic.ValueIdx

/-- The product of the layer's input with its weight matrix at `(n, q)`. -/
theorem lin1_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v83 (F := Ideal) x0 x1 x3 x4 x5 x6 x7 x8 x9 x10 (ix2 n q)
      = Cert.Gcn4.lin (fun a k => val_main_v80 (F := Ideal) x0 x1 x3 x4 x5 x6 x7 x8 x9 x10 (ix2 a k)) (val_main_v82 (F := Ideal) x5) n q := by
  rw [val_main_v83_apply]
  have e1 : ∀ k : Fin 128, lidx_main_v83 (ix2 n q) k = ix2 n k := fun k => funext fun a => by
    match a with
    | ⟨0, _⟩ => rfl
    | ⟨1, _⟩ => rfl
  have e2 : ∀ k : Fin 128, ridx_main_v83 (ix2 n q) k = ix2 k q := fun k => funext fun a => by
    match a with
    | ⟨0, _⟩ => rfl
    | ⟨1, _⟩ => rfl
  simp only [e1, e2, Cert.Gcn4.lin]

/-- The rows the messages read: entry `(e, q)` is the product's entry `q` in the row of message `e`'s source node. -/
theorem msgRows1_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (e : Fin 1600000) (q : Fin 128) :
    val_main_v90 (F := Ideal) x0 x1 x3 x4 x5 x6 x7 x8 x9 x10 (ix2 e q) = val_main_v83 (F := Ideal) x0 x1 x3 x4 x5 x6 x7 x8 x9 x10 (ix2 (srow x1 e) q) := by
  have hc : val_main_v89 (F := Ideal) x1 = val_main_v16 (F := Ideal) x1 := rfl
  have h := Cert.Edges.rowsGather_apply (N := 100000) (C := 128) (E := 1600000) (by norm_num)
    Facts₀.gather_S100000x128_S1600000x1_S1600000x128_1_0_n_n_0_1_1128_wf (val_main_v83 (F := Ideal) x0 x1 x3 x4 x5 x6 x7 x8 x9 x10) (val_main_v89 (F := Ideal) x1) e q
  rw [hc, srcCol_apply] at h
  exact h

/-- The message weights spread over the columns. -/
theorem msgWeight1_apply (x1 : (⟨S2x1600000, .i32⟩ : BufTy).Contents (Elt Ideal)) (e : Fin 1600000) (q : Fin 128) :
    val_main_v92 (F := Ideal) x1 (ix2 e q) = dn x1 (srow x1 e) * dn x1 (trow x1 e) := by
  rw [val_main_v92_apply, val_main_v91_apply]
  have e1 : idx_main_v91 (idx_main_v92 (ix2 e q)) = ix1 e := funext fun a => by
    match a with
    | ⟨0, _⟩ => rfl
  rw [e1]
  exact weight_apply x1 e

/-- The nodes' own weights spread over the columns. -/
theorem selfWeight1_apply (x1 : (⟨S2x1600000, .i32⟩ : BufTy).Contents (Elt Ideal)) (n : Fin 100000) (q : Fin 128) :
    val_main_v98 (F := Ideal) x1 (ix2 n q) = dn x1 n * dn x1 n := by
  rw [val_main_v98_apply, val_main_v97_apply]
  have e1 : idx_main_v97 (idx_main_v98 (ix2 n q)) = ix1 n := funext fun a => by
    match a with
    | ⟨0, _⟩ => rfl
  rw [e1]
  exact self_apply x1 n

/-- The sum of the weighted messages that land on node `n`, at column `q`. -/
theorem agg1_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v96 (F := Ideal) x0 x1 x3 x4 x5 x6 x7 x8 x9 x10 (ix2 n q)
      = 0 + ∑ e : Fin 1600000, if lands x1 e n then
          val_main_v83 (F := Ideal) x0 x1 x3 x4 x5 x6 x7 x8 x9 x10 (ix2 (srow x1 e) q) * (dn x1 (srow x1 e) * dn x1 (trow x1 e)) else 0 := by
  have h := Cert.Edges.rowsScatterAdd_apply (N := 100000) (C := 128) (E := 1600000)
    Facts₀.scatter_S100000x128_S1600000x1_S1600000x128_1_0_0_1_wf (val_main_v94 (F := Ideal)) (val_main_v95 (F := Ideal) x1) (val_main_v93 (F := Ideal) x0 x1 x3 x4 x5 x6 x7 x8 x9 x10) n q
  have hz : val_main_v94 (F := Ideal) (ix2 n q) = 0 := by
    rw [val_main_v94_apply, val_main_cst_11_apply, Ideal.ofBits_def]
    exact Ideal.ofBits_zero_f32
  have hcol : ∀ e : Fin 1600000, val_main_v95 (F := Ideal) x1 (ix2 e 0) = val_main_v3 (F := Ideal) x1 (ix1 e) := fun e =>
    Cert.Gcn4.rawCol_apply Facts₀.bcast_S1600000_S1600000x1_0 (val_main_v3 (F := Ideal) x1) e
  have hupd : ∀ e : Fin 1600000, val_main_v93 (F := Ideal) x0 x1 x3 x4 x5 x6 x7 x8 x9 x10 (ix2 e q)
      = val_main_v83 (F := Ideal) x0 x1 x3 x4 x5 x6 x7 x8 x9 x10 (ix2 (srow x1 e) q) * (dn x1 (srow x1 e) * dn x1 (trow x1 e)) := fun e => by
    rw [val_main_v93_apply, msgRows1_apply, msgWeight1_apply, Ideal.mulf_def]
  rw [hz] at h
  simp only [hcol, hupd] at h
  exact h

/-- The bias spread over the rows. -/
theorem bias1_apply (x6 : (⟨S4x128, .f32⟩ : BufTy).Contents (Elt Ideal)) (n : Fin 100000) (q : Fin 128) :
    val_main_v104 (F := Ideal) x6 (ix2 n q) = val_main_v102 (F := Ideal) x6 (ix1 q) := by
  rw [val_main_v104_apply, val_main_v103_apply]
  exact congrArg (val_main_v102 (F := Ideal) x6) (funext fun a => by
    match a with
    | ⟨0, _⟩ => rfl)

/-- The running mean spread over the rows. -/
theorem mean1_apply (x9 : (⟨S4x128, .f32⟩ : BufTy).Contents (Elt Ideal)) (n : Fin 100000) (q : Fin 128) :
    val_main_v109 (F := Ideal) x9 (ix2 n q) = val_main_v107 (F := Ideal) x9 (ix1 q) := by
  rw [val_main_v109_apply, val_main_v108_apply]
  exact congrArg (val_main_v107 (F := Ideal) x9) (funext fun a => by
    match a with
    | ⟨0, _⟩ => rfl)

/-- The scale spread over the rows. -/
theorem gamma1_apply (x7 : (⟨S4x128, .f32⟩ : BufTy).Contents (Elt Ideal)) (n : Fin 100000) (q : Fin 128) :
    val_main_v122 (F := Ideal) x7 (ix2 n q) = val_main_v120 (F := Ideal) x7 (ix1 q) := by
  rw [val_main_v122_apply, val_main_v121_apply]
  exact congrArg (val_main_v120 (F := Ideal) x7) (funext fun a => by
    match a with
    | ⟨0, _⟩ => rfl)

/-- The shift spread over the rows. -/
theorem beta1_apply (x8 : (⟨S4x128, .f32⟩ : BufTy).Contents (Elt Ideal)) (n : Fin 100000) (q : Fin 128) :
    val_main_v127 (F := Ideal) x8 (ix2 n q) = val_main_v125 (F := Ideal) x8 (ix1 q) := by
  rw [val_main_v127_apply, val_main_v126_apply]
  exact congrArg (val_main_v125 (F := Ideal) x8) (funext fun a => by
    match a with
    | ⟨0, _⟩ => rfl)

/-- The inverse standard deviation `(var + ε)^(-1/2)` spread over the rows. -/
theorem istd1_apply (x10 : (⟨S4x128, .f32⟩ : BufTy).Contents (Elt Ideal)) (n : Fin 100000) (q : Fin 128) :
    val_main_v117 (F := Ideal) x10 (ix2 n q) = Ideal.rsqrt (val_main_v112 (F := Ideal) x10 (ix1 q) + Ideal.ofBits .f32 0x3727C5AC#32) := by
  rw [val_main_v117_apply, val_main_v116_apply, val_main_v115_apply, val_main_v114_apply, val_main_v113_apply, val_main_cst_12_apply]
  have e1 : idx_main_v116 (idx_main_v117 (ix2 n q)) = ix1 q := funext fun a => by
    match a with
    | ⟨0, _⟩ => rfl
  rw [e1, Ideal.hostUnary_rsqrt_def, Ideal.addf_def, Ideal.ofBits_def]

/-- The rectifier's zero. -/
theorem reluZero1_apply (n : Fin 100000) (q : Fin 128) :
    val_main_call2_v0 (F := Ideal) (ix2 n q) = Ideal.ofBits .f32 0x00000000#32 := by
  rw [val_main_call2_v0_apply, val_main_call2_cst_apply, Ideal.ofBits_def]

/-- Layer 1 at `(n, q)`: the normalised, rectified aggregate of the products' rows. -/
theorem layer1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v129 (F := Ideal) x0 x1 x3 x4 x5 x6 x7 x8 x9 x10 (ix2 n q)
      = Cert.Gcn4.norm (val_main_v102 (F := Ideal) x6) (val_main_v107 (F := Ideal) x9) (val_main_v112 (F := Ideal) x10) (val_main_v120 (F := Ideal) x7) (val_main_v125 (F := Ideal) x8)
          (Cert.Gcn4.aggRef (dn x1) (srow x1) (trow x1) (lands x1)
            (fun n' => Cert.Gcn4.lin (fun a k => val_main_v80 (F := Ideal) x0 x1 x3 x4 x5 x6 x7 x8 x9 x10 (ix2 a k)) (val_main_v82 (F := Ideal) x5) n' q) n) q := by
  rw [val_main_v129_apply, val_main_v128_apply, val_main_v123_apply, val_main_v118_apply, val_main_v110_apply, val_main_v105_apply, val_main_v100_apply, val_main_v99_apply]
  rw [agg1_apply, selfWeight1_apply, bias1_apply, mean1_apply, istd1_apply, gamma1_apply, beta1_apply,
    reluZero1_apply]
  simp only [lin1_apply, Ideal.maximumf_def, Ideal.addf_def, Ideal.subf_def, Ideal.mulf_def, Cert.Gcn4.norm,
    Cert.Gcn4.aggRef]

end Cert.ReferenceIdeal.Layers

end
-- ==== Proof.RefLayer2.lean ====
/-
  Layer 2 of the reference network at one entry `(n, q)`.

  The layer's input `h` is multiplied by its weight matrix; every message reads the product's row at its source
  node, scaled by the factors at its two ends, and is added to the node its target word names; the node's own row is
  added scaled by the square of its factor; then come the bias, the normalisation by the running statistics and
  the rectifier. At the extended reals the accumulating scatter is the exact sum over the messages that land on `n`.
-/
import proofs.«150997_j34024730919242_2_alg».proof.Proof.RefLayerBase

noncomputable section

open scoped BigOperators

namespace Cert.ReferenceIdeal.Layers

open Cert.ReferenceIdeal Cert.ReferenceIdeal.ReadP Idealize.ShloMosaic Idealize.ShloMosaic.ValueIdx

/-- The product of the layer's input with its weight matrix at `(n, q)`. -/
theorem lin2_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v132 (F := Ideal) x0 x1 x3 x4 x5 x6 x7 x8 x9 x10 (ix2 n q)
      = Cert.Gcn4.lin (fun a k => val_main_v129 (F := Ideal) x0 x1 x3 x4 x5 x6 x7 x8 x9 x10 (ix2 a k)) (val_main_v131 (F := Ideal) x5) n q := by
  rw [val_main_v132_apply]
  have e1 : ∀ k : Fin 128, lidx_main_v132 (ix2 n q) k = ix2 n k := fun k => funext fun a => by
    match a with
    | ⟨0, _⟩ => rfl
    | ⟨1, _⟩ => rfl
  have e2 : ∀ k : Fin 128, ridx_main_v132 (ix2 n q) k = ix2 k q := fun k => funext fun a => by
    match a with
    | ⟨0, _⟩ => rfl
    | ⟨1, _⟩ => rfl
  simp only [e1, e2, Cert.Gcn4.lin]

/-- The rows the messages read: entry `(e, q)` is the product's entry `q` in the row of message `e`'s source node. -/
theorem msgRows2_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (e : Fin 1600000) (q : Fin 128) :
    val_main_v139 (F := Ideal) x0 x1 x3 x4 x5 x6 x7 x8 x9 x10 (ix2 e q) = val_main_v132 (F := Ideal) x0 x1 x3 x4 x5 x6 x7 x8 x9 x10 (ix2 (srow x1 e) q) := by
  have hc : val_main_v138 (F := Ideal) x1 = val_main_v16 (F := Ideal) x1 := rfl
  have h := Cert.Edges.rowsGather_apply (N := 100000) (C := 128) (E := 1600000) (by norm_num)
    Facts₀.gather_S100000x128_S1600000x1_S1600000x128_1_0_n_n_0_1_1128_wf (val_main_v132 (F := Ideal) x0 x1 x3 x4 x5 x6 x7 x8 x9 x10) (val_main_v138 (F := Ideal) x1) e q
  rw [hc, srcCol_apply] at h
  exact h

/-- The message weights spread over the columns. -/
theorem msgWeight2_apply (x1 : (⟨S2x1600000, .i32⟩ : BufTy).Contents (Elt Ideal)) (e : Fin 1600000) (q : Fin 128) :
    val_main_v141 (F := Ideal) x1 (ix2 e q) = dn x1 (srow x1 e) * dn x1 (trow x1 e) := by
  rw [val_main_v141_apply, val_main_v140_apply]
  have e1 : idx_main_v140 (idx_main_v141 (ix2 e q)) = ix1 e := funext fun a => by
    match a with
    | ⟨0, _⟩ => rfl
  rw [e1]
  exact weight_apply x1 e

/-- The nodes' own weights spread over the columns. -/
theorem selfWeight2_apply (x1 : (⟨S2x1600000, .i32⟩ : BufTy).Contents (Elt Ideal)) (n : Fin 100000) (q : Fin 128) :
    val_main_v147 (F := Ideal) x1 (ix2 n q) = dn x1 n * dn x1 n := by
  rw [val_main_v147_apply, val_main_v146_apply]
  have e1 : idx_main_v146 (idx_main_v147 (ix2 n q)) = ix1 n := funext fun a => by
    match a with
    | ⟨0, _⟩ => rfl
  rw [e1]
  exact self_apply x1 n

/-- The sum of the weighted messages that land on node `n`, at column `q`. -/
theorem agg2_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v145 (F := Ideal) x0 x1 x3 x4 x5 x6 x7 x8 x9 x10 (ix2 n q)
      = 0 + ∑ e : Fin 1600000, if lands x1 e n then
          val_main_v132 (F := Ideal) x0 x1 x3 x4 x5 x6 x7 x8 x9 x10 (ix2 (srow x1 e) q) * (dn x1 (srow x1 e) * dn x1 (trow x1 e)) else 0 := by
  have h := Cert.Edges.rowsScatterAdd_apply (N := 100000) (C := 128) (E := 1600000)
    Facts₀.scatter_S100000x128_S1600000x1_S1600000x128_1_0_0_1_wf (val_main_v143 (F := Ideal)) (val_main_v144 (F := Ideal) x1) (val_main_v142 (F := Ideal) x0 x1 x3 x4 x5 x6 x7 x8 x9 x10) n q
  have hz : val_main_v143 (F := Ideal) (ix2 n q) = 0 := by
    rw [val_main_v143_apply, val_main_cst_15_apply, Ideal.ofBits_def]
    exact Ideal.ofBits_zero_f32
  have hcol : ∀ e : Fin 1600000, val_main_v144 (F := Ideal) x1 (ix2 e 0) = val_main_v3 (F := Ideal) x1 (ix1 e) := fun e =>
    Cert.Gcn4.rawCol_apply Facts₀.bcast_S1600000_S1600000x1_0 (val_main_v3 (F := Ideal) x1) e
  have hupd : ∀ e : Fin 1600000, val_main_v142 (F := Ideal) x0 x1 x3 x4 x5 x6 x7 x8 x9 x10 (ix2 e q)
      = val_main_v132 (F := Ideal) x0 x1 x3 x4 x5 x6 x7 x8 x9 x10 (ix2 (srow x1 e) q) * (dn x1 (srow x1 e) * dn x1 (trow x1 e)) := fun e => by
    rw [val_main_v142_apply, msgRows2_apply, msgWeight2_apply, Ideal.mulf_def]
  rw [hz] at h
  simp only [hcol, hupd] at h
  exact h

/-- The bias spread over the rows. -/
theorem bias2_apply (x6 : (⟨S4x128, .f32⟩ : BufTy).Contents (Elt Ideal)) (n : Fin 100000) (q : Fin 128) :
    val_main_v153 (F := Ideal) x6 (ix2 n q) = val_main_v151 (F := Ideal) x6 (ix1 q) := by
  rw [val_main_v153_apply, val_main_v152_apply]
  exact congrArg (val_main_v151 (F := Ideal) x6) (funext fun a => by
    match a with
    | ⟨0, _⟩ => rfl)

/-- The running mean spread over the rows. -/
theorem mean2_apply (x9 : (⟨S4x128, .f32⟩ : BufTy).Contents (Elt Ideal)) (n : Fin 100000) (q : Fin 128) :
    val_main_v158 (F := Ideal) x9 (ix2 n q) = val_main_v156 (F := Ideal) x9 (ix1 q) := by
  rw [val_main_v158_apply, val_main_v157_apply]
  exact congrArg (val_main_v156 (F := Ideal) x9) (funext fun a => by
    match a with
    | ⟨0, _⟩ => rfl)

/-- The scale spread over the rows. -/
theorem gamma2_apply (x7 : (⟨S4x128, .f32⟩ : BufTy).Contents (Elt Ideal)) (n : Fin 100000) (q : Fin 128) :
    val_main_v171 (F := Ideal) x7 (ix2 n q) = val_main_v169 (F := Ideal) x7 (ix1 q) := by
  rw [val_main_v171_apply, val_main_v170_apply]
  exact congrArg (val_main_v169 (F := Ideal) x7) (funext fun a => by
    match a with
    | ⟨0, _⟩ => rfl)

/-- The shift spread over the rows. -/
theorem beta2_apply (x8 : (⟨S4x128, .f32⟩ : BufTy).Contents (Elt Ideal)) (n : Fin 100000) (q : Fin 128) :
    val_main_v176 (F := Ideal) x8 (ix2 n q) = val_main_v174 (F := Ideal) x8 (ix1 q) := by
  rw [val_main_v176_apply, val_main_v175_apply]
  exact congrArg (val_main_v174 (F := Ideal) x8) (funext fun a => by
    match a with
    | ⟨0, _⟩ => rfl)

/-- The inverse standard deviation `(var + ε)^(-1/2)` spread over the rows. -/
theorem istd2_apply (x10 : (⟨S4x128, .f32⟩ : BufTy).Contents (Elt Ideal)) (n : Fin 100000) (q : Fin 128) :
    val_main_v166 (F := Ideal) x10 (ix2 n q) = Ideal.rsqrt (val_main_v161 (F := Ideal) x10 (ix1 q) + Ideal.ofBits .f32 0x3727C5AC#32) := by
  rw [val_main_v166_apply, val_main_v165_apply, val_main_v164_apply, val_main_v163_apply, val_main_v162_apply, val_main_cst_16_apply]
  have e1 : idx_main_v165 (idx_main_v166 (ix2 n q)) = ix1 q := funext fun a => by
    match a with
    | ⟨0, _⟩ => rfl
  rw [e1, Ideal.hostUnary_rsqrt_def, Ideal.addf_def, Ideal.ofBits_def]

/-- The rectifier's zero. -/
theorem reluZero2_apply (n : Fin 100000) (q : Fin 128) :
    val_main_call3_v0 (F := Ideal) (ix2 n q) = Ideal.ofBits .f32 0x00000000#32 := by
  rw [val_main_call3_v0_apply, val_main_call3_cst_apply, Ideal.ofBits_def]

/-- Layer 2 at `(n, q)`: the normalised, rectified aggregate of the products' rows. -/
theorem layer2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v178 (F := Ideal) x0 x1 x3 x4 x5 x6 x7 x8 x9 x10 (ix2 n q)
      = Cert.Gcn4.norm (val_main_v151 (F := Ideal) x6) (val_main_v156 (F := Ideal) x9) (val_main_v161 (F := Ideal) x10) (val_main_v169 (F := Ideal) x7) (val_main_v174 (F := Ideal) x8)
          (Cert.Gcn4.aggRef (dn x1) (srow x1) (trow x1) (lands x1)
            (fun n' => Cert.Gcn4.lin (fun a k => val_main_v129 (F := Ideal) x0 x1 x3 x4 x5 x6 x7 x8 x9 x10 (ix2 a k)) (val_main_v131 (F := Ideal) x5) n' q) n) q := by
  rw [val_main_v178_apply, val_main_v177_apply, val_main_v172_apply, val_main_v167_apply, val_main_v159_apply, val_main_v154_apply, val_main_v149_apply, val_main_v148_apply]
  rw [agg2_apply, selfWeight2_apply, bias2_apply, mean2_apply, istd2_apply, gamma2_apply, beta2_apply,
    reluZero2_apply]
  simp only [lin2_apply, Ideal.maximumf_def, Ideal.addf_def, Ideal.subf_def, Ideal.mulf_def, Cert.Gcn4.norm,
    Cert.Gcn4.aggRef]

end Cert.ReferenceIdeal.Layers

end
-- ==== Proof.RefLayer3.lean ====
/-
  Layer 3 of the reference network at one entry `(n, q)`.

  The layer's input `h` is multiplied by its weight matrix; every message reads the product's row at its source
  node, scaled by the factors at its two ends, and is added to the node its target word names; the node's own row is
  added scaled by the square of its factor; then come the bias, the normalisation by the running statistics and
  the rectifier. At the extended reals the accumulating scatter is the exact sum over the messages that land on `n`.
-/
import proofs.«150997_j34024730919242_2_alg».proof.Proof.RefLayerBase

noncomputable section

open scoped BigOperators

namespace Cert.ReferenceIdeal.Layers

open Cert.ReferenceIdeal Cert.ReferenceIdeal.ReadP Idealize.ShloMosaic Idealize.ShloMosaic.ValueIdx

/-- The product of the layer's input with its weight matrix at `(n, q)`. -/
theorem lin3_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v181 (F := Ideal) x0 x1 x3 x4 x5 x6 x7 x8 x9 x10 (ix2 n q)
      = Cert.Gcn4.lin (fun a k => val_main_v178 (F := Ideal) x0 x1 x3 x4 x5 x6 x7 x8 x9 x10 (ix2 a k)) (val_main_v180 (F := Ideal) x5) n q := by
  rw [val_main_v181_apply]
  have e1 : ∀ k : Fin 128, lidx_main_v181 (ix2 n q) k = ix2 n k := fun k => funext fun a => by
    match a with
    | ⟨0, _⟩ => rfl
    | ⟨1, _⟩ => rfl
  have e2 : ∀ k : Fin 128, ridx_main_v181 (ix2 n q) k = ix2 k q := fun k => funext fun a => by
    match a with
    | ⟨0, _⟩ => rfl
    | ⟨1, _⟩ => rfl
  simp only [e1, e2, Cert.Gcn4.lin]

/-- The rows the messages read: entry `(e, q)` is the product's entry `q` in the row of message `e`'s source node. -/
theorem msgRows3_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (e : Fin 1600000) (q : Fin 128) :
    val_main_v188 (F := Ideal) x0 x1 x3 x4 x5 x6 x7 x8 x9 x10 (ix2 e q) = val_main_v181 (F := Ideal) x0 x1 x3 x4 x5 x6 x7 x8 x9 x10 (ix2 (srow x1 e) q) := by
  have hc : val_main_v187 (F := Ideal) x1 = val_main_v16 (F := Ideal) x1 := rfl
  have h := Cert.Edges.rowsGather_apply (N := 100000) (C := 128) (E := 1600000) (by norm_num)
    Facts₀.gather_S100000x128_S1600000x1_S1600000x128_1_0_n_n_0_1_1128_wf (val_main_v181 (F := Ideal) x0 x1 x3 x4 x5 x6 x7 x8 x9 x10) (val_main_v187 (F := Ideal) x1) e q
  rw [hc, srcCol_apply] at h
  exact h

/-- The message weights spread over the columns. -/
theorem msgWeight3_apply (x1 : (⟨S2x1600000, .i32⟩ : BufTy).Contents (Elt Ideal)) (e : Fin 1600000) (q : Fin 128) :
    val_main_v190 (F := Ideal) x1 (ix2 e q) = dn x1 (srow x1 e) * dn x1 (trow x1 e) := by
  rw [val_main_v190_apply, val_main_v189_apply]
  have e1 : idx_main_v189 (idx_main_v190 (ix2 e q)) = ix1 e := funext fun a => by
    match a with
    | ⟨0, _⟩ => rfl
  rw [e1]
  exact weight_apply x1 e

/-- The nodes' own weights spread over the columns. -/
theorem selfWeight3_apply (x1 : (⟨S2x1600000, .i32⟩ : BufTy).Contents (Elt Ideal)) (n : Fin 100000) (q : Fin 128) :
    val_main_v196 (F := Ideal) x1 (ix2 n q) = dn x1 n * dn x1 n := by
  rw [val_main_v196_apply, val_main_v195_apply]
  have e1 : idx_main_v195 (idx_main_v196 (ix2 n q)) = ix1 n := funext fun a => by
    match a with
    | ⟨0, _⟩ => rfl
  rw [e1]
  exact self_apply x1 n

/-- The sum of the weighted messages that land on node `n`, at column `q`. -/
theorem agg3_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v194 (F := Ideal) x0 x1 x3 x4 x5 x6 x7 x8 x9 x10 (ix2 n q)
      = 0 + ∑ e : Fin 1600000, if lands x1 e n then
          val_main_v181 (F := Ideal) x0 x1 x3 x4 x5 x6 x7 x8 x9 x10 (ix2 (srow x1 e) q) * (dn x1 (srow x1 e) * dn x1 (trow x1 e)) else 0 := by
  have h := Cert.Edges.rowsScatterAdd_apply (N := 100000) (C := 128) (E := 1600000)
    Facts₀.scatter_S100000x128_S1600000x1_S1600000x128_1_0_0_1_wf (val_main_v192 (F := Ideal)) (val_main_v193 (F := Ideal) x1) (val_main_v191 (F := Ideal) x0 x1 x3 x4 x5 x6 x7 x8 x9 x10) n q
  have hz : val_main_v192 (F := Ideal) (ix2 n q) = 0 := by
    rw [val_main_v192_apply, val_main_cst_19_apply, Ideal.ofBits_def]
    exact Ideal.ofBits_zero_f32
  have hcol : ∀ e : Fin 1600000, val_main_v193 (F := Ideal) x1 (ix2 e 0) = val_main_v3 (F := Ideal) x1 (ix1 e) := fun e =>
    Cert.Gcn4.rawCol_apply Facts₀.bcast_S1600000_S1600000x1_0 (val_main_v3 (F := Ideal) x1) e
  have hupd : ∀ e : Fin 1600000, val_main_v191 (F := Ideal) x0 x1 x3 x4 x5 x6 x7 x8 x9 x10 (ix2 e q)
      = val_main_v181 (F := Ideal) x0 x1 x3 x4 x5 x6 x7 x8 x9 x10 (ix2 (srow x1 e) q) * (dn x1 (srow x1 e) * dn x1 (trow x1 e)) := fun e => by
    rw [val_main_v191_apply, msgRows3_apply, msgWeight3_apply, Ideal.mulf_def]
  rw [hz] at h
  simp only [hcol, hupd] at h
  exact h

/-- The bias spread over the rows. -/
theorem bias3_apply (x6 : (⟨S4x128, .f32⟩ : BufTy).Contents (Elt Ideal)) (n : Fin 100000) (q : Fin 128) :
    val_main_v202 (F := Ideal) x6 (ix2 n q) = val_main_v200 (F := Ideal) x6 (ix1 q) := by
  rw [val_main_v202_apply, val_main_v201_apply]
  exact congrArg (val_main_v200 (F := Ideal) x6) (funext fun a => by
    match a with
    | ⟨0, _⟩ => rfl)

/-- The running mean spread over the rows. -/
theorem mean3_apply (x9 : (⟨S4x128, .f32⟩ : BufTy).Contents (Elt Ideal)) (n : Fin 100000) (q : Fin 128) :
    val_main_v207 (F := Ideal) x9 (ix2 n q) = val_main_v205 (F := Ideal) x9 (ix1 q) := by
  rw [val_main_v207_apply, val_main_v206_apply]
  exact congrArg (val_main_v205 (F := Ideal) x9) (funext fun a => by
    match a with
    | ⟨0, _⟩ => rfl)

/-- The scale spread over the rows. -/
theorem gamma3_apply (x7 : (⟨S4x128, .f32⟩ : BufTy).Contents (Elt Ideal)) (n : Fin 100000) (q : Fin 128) :
    val_main_v220 (F := Ideal) x7 (ix2 n q) = val_main_v218 (F := Ideal) x7 (ix1 q) := by
  rw [val_main_v220_apply, val_main_v219_apply]
  exact congrArg (val_main_v218 (F := Ideal) x7) (funext fun a => by
    match a with
    | ⟨0, _⟩ => rfl)

/-- The shift spread over the rows. -/
theorem beta3_apply (x8 : (⟨S4x128, .f32⟩ : BufTy).Contents (Elt Ideal)) (n : Fin 100000) (q : Fin 128) :
    val_main_v225 (F := Ideal) x8 (ix2 n q) = val_main_v223 (F := Ideal) x8 (ix1 q) := by
  rw [val_main_v225_apply, val_main_v224_apply]
  exact congrArg (val_main_v223 (F := Ideal) x8) (funext fun a => by
    match a with
    | ⟨0, _⟩ => rfl)

/-- The inverse standard deviation `(var + ε)^(-1/2)` spread over the rows. -/
theorem istd3_apply (x10 : (⟨S4x128, .f32⟩ : BufTy).Contents (Elt Ideal)) (n : Fin 100000) (q : Fin 128) :
    val_main_v215 (F := Ideal) x10 (ix2 n q) = Ideal.rsqrt (val_main_v210 (F := Ideal) x10 (ix1 q) + Ideal.ofBits .f32 0x3727C5AC#32) := by
  rw [val_main_v215_apply, val_main_v214_apply, val_main_v213_apply, val_main_v212_apply, val_main_v211_apply, val_main_cst_20_apply]
  have e1 : idx_main_v214 (idx_main_v215 (ix2 n q)) = ix1 q := funext fun a => by
    match a with
    | ⟨0, _⟩ => rfl
  rw [e1, Ideal.hostUnary_rsqrt_def, Ideal.addf_def, Ideal.ofBits_def]

/-- The rectifier's zero. -/
theorem reluZero3_apply (n : Fin 100000) (q : Fin 128) :
    val_main_call4_v0 (F := Ideal) (ix2 n q) = Ideal.ofBits .f32 0x00000000#32 := by
  rw [val_main_call4_v0_apply, val_main_call4_cst_apply, Ideal.ofBits_def]

/-- Layer 3 at `(n, q)`: the normalised, rectified aggregate of the products' rows. -/
theorem layer3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S4x128, .f32⟩ : BufTy).Contents (Elt Ideal)) (x10 : (⟨S4x128, .f32⟩ : BufTy).Contents (Elt Ideal)) (n : Fin 100000) (q : Fin 128) :
    val_main_v227 (F := Ideal) x0 x1 x3 x4 x5 x6 x7 x8 x9 x10 (ix2 n q)
      = Cert.Gcn4.norm (val_main_v200 (F := Ideal) x6) (val_main_v205 (F := Ideal) x9) (val_main_v210 (F := Ideal) x10) (val_main_v218 (F := Ideal) x7) (val_main_v223 (F := Ideal) x8)
          (Cert.Gcn4.aggRef (dn x1) (srow x1) (trow x1) (lands x1)
            (fun n' => Cert.Gcn4.lin (fun a k => val_main_v178 (F := Ideal) x0 x1 x3 x4 x5 x6 x7 x8 x9 x10 (ix2 a k)) (val_main_v180 (F := Ideal) x5) n' q) n) q := by
  rw [val_main_v227_apply, val_main_v226_apply, val_main_v221_apply, val_main_v216_apply, val_main_v208_apply, val_main_v203_apply, val_main_v198_apply, val_main_v197_apply]
  rw [agg3_apply, selfWeight3_apply, bias3_apply, mean3_apply, istd3_apply, gamma3_apply, beta3_apply,
    reluZero3_apply]
  simp only [lin3_apply, Ideal.maximumf_def, Ideal.addf_def, Ideal.subf_def, Ideal.mulf_def, Cert.Gcn4.norm,
    Cert.Gcn4.aggRef]

end Cert.ReferenceIdeal.Layers

end
-- ==== Proof.Bridge.lean ====
/-
  The two idealized programs compute the same node features.

  By induction over the layers: after region `j` the kernel program holds `(Hⱼ · Wⱼ) · d` — the reference
  program's layer-`j` features times the next weight matrix, every row scaled by its node factor. The kernel
  program's next step adds these rows along the edge list and scales the total once by `d`; the reference program
  scales every message by both end factors. The node factors are nonnegative reals, so the two arrangements agree
  on the extended reals (`aggKer_eq_aggRef`), and after the shared bias, normalisation and rectifier the next
  layer's features are equal. The last layer's features are what both programs' read-outs start from.
-/
import proofs.«150997_j34024730919242_2_alg».proof.Proof.KChain
import proofs.«150997_j34024730919242_2_alg».proof.Proof.BridgeParams
import proofs.«150997_j34024730919242_2_alg».proof.Proof.RefLayer0
import proofs.«150997_j34024730919242_2_alg».proof.Proof.RefLayer1
import proofs.«150997_j34024730919242_2_alg».proof.Proof.RefLayer2
import proofs.«150997_j34024730919242_2_alg».proof.Proof.RefLayer3

set_option maxRecDepth 16384

noncomputable section

open scoped BigOperators

namespace Cert.Bridge

open Idealize.ShloMosaic Idealize.ShloMosaic.TcCoe Idealize.SL.Sem Idealize.ShloMosaic.StableHlo Idealize.ShloMosaic.ValueIdx
open Cert.KernelIdeal (nD τ sig)
open Cert.KernelIdeal.Gen
open Cert.ReferenceIdeal.ReadP Cert.ReferenceIdeal.Layers Cert.Gcn4

variable (m : (ℓ : Loc nD τ sig) → Buf (Elt Ideal) ℓ) (ρ : Dev nD → PrngReg) (c : Dev nD)

/-- The reference program's features before the first layer and after each layer, row by row. -/
abbrev RH0 : Fin 100000 → Fin 128 → EReal := fun a k => val_main_v31 (F := Ideal) (a0 m c) (a3 m c) (a4 m c) (ix2 a k)
abbrev RH1 : Fin 100000 → Fin 128 → EReal := fun a k => val_main_v80 (F := Ideal) (a0 m c) (a1 m c) (a3 m c) (a4 m c) (a5 m c) (a6 m c) (a7 m c) (a8 m c) (a9 m c) (a10 m c) (ix2 a k)
abbrev RH2 : Fin 100000 → Fin 128 → EReal := fun a k => val_main_v129 (F := Ideal) (a0 m c) (a1 m c) (a3 m c) (a4 m c) (a5 m c) (a6 m c) (a7 m c) (a8 m c) (a9 m c) (a10 m c) (ix2 a k)
abbrev RH3 : Fin 100000 → Fin 128 → EReal := fun a k => val_main_v178 (F := Ideal) (a0 m c) (a1 m c) (a3 m c) (a4 m c) (a5 m c) (a6 m c) (a7 m c) (a8 m c) (a9 m c) (a10 m c) (ix2 a k)

/-- A node's factor in the kernel program is its factor in the reference program. -/
theorem dK_eq (n : Fin 100000) : Cert.KernelIdeal.Chain.dK m ρ c n = dn (a1 m c) n := by
  unfold Cert.KernelIdeal.Chain.dK Cert.KernelIdeal.Chain.dcol
  rw [dcol_eq]
  exact shapeCast_apply _ _ (ix2 n 0) (ix1 n) (by
    rw [Shape.rowMajor_val_one, Shape.rowMajor_val_two]
    show n.val = n.val * 1 + 0
    omega)

/-- The kernel program's aggregation of rows that carry their node factor is the reference program's of the bare rows. -/
theorem kernel_agg (hw : Fin 100000 → EReal) (n : Fin 100000) :
    aggKer (Cert.KernelIdeal.Chain.dK m ρ c) (Cert.KernelIdeal.Chain.sK m ρ c) (Cert.KernelIdeal.Chain.LK m ρ c) (fun a => hw a * dn (a1 m c) a) n
      = aggRef (dn (a1 m c)) (srow (a1 m c)) (trow (a1 m c)) (lands (a1 m c)) hw n := by
  rw [← aggKer_eq_aggRef (dn (a1 m c)) (dn_nonneg _) (dn_ne_top _) (srow (a1 m c)) (trow (a1 m c)) (lands (a1 m c))
    (fun e n h => Cert.Gcn4.row_of_toInt _ n h) hw n]
  unfold aggKer
  rw [dK_eq]
  refine congrArg (fun z => dn (a1 m c) n * ((0 + z) + hw n * dn (a1 m c) n)) (Finset.sum_congr rfl fun e _ => ?_)
  have hs : Cert.KernelIdeal.Chain.sK m ρ c e = srow (a1 m c) e := by unfold Cert.KernelIdeal.Chain.sK; rw [src_eq]
  have hl : Cert.KernelIdeal.Chain.LK m ρ c e n ↔ lands (a1 m c) e n := by unfold Cert.KernelIdeal.Chain.LK; rw [dst_eq]
  rw [hs]
  exact if_congr hl rfl rfl

/-- After region 0 the kernel program holds the first hidden layer times the first weight matrix, rows scaled. -/
theorem claim0 (n : Fin 100000) (q : Fin 128) :
    Cert.KernelIdeal.HostSide.Y0 m ρ c (ix2 n q) = lin (RH0 m c) (val_main_v33 (F := Ideal) (a5 m c)) n q * dn (a1 m c) n := by
  rw [Cert.KernelIdeal.Chain.step0, Cert.KernelIdeal.Kept.at1_main_arg0, Cert.KernelIdeal.Kept.at1_main_arg3, Cert.KernelIdeal.Kept.at1_main_arg4, w0_eq, dK_eq]
  refine congrArg₂ (· * ·) (congrArg (fun h => lin h _ n q) (funext fun a => funext fun k => ?_)) rfl
  exact (hidden (a0 m c) (a3 m c) (a4 m c) a k).symm

/-- After region 1 the kernel program holds the reference program's layer-1 features times the next weight
    matrix, every row scaled by its node factor. -/
theorem claim1 (n : Fin 100000) (q : Fin 128) :
    Cert.KernelIdeal.HostSide.Y1 m ρ c (ix2 n q) = lin (RH1 m c) (val_main_v82 (F := Ideal) (a5 m c)) n q * dn (a1 m c) n := by
  rw [Cert.KernelIdeal.Chain.step1, p_main_v26, p_main_v32, p_main_v34, p_main_v28, p_main_v30, p_main_v36, dK_eq]
  refine congrArg₂ (· * ·) (congrArg (fun h => lin h _ n q) (funext fun n' => funext fun k => ?_)) rfl
  show _ = val_main_v80 (F := Ideal) (a0 m c) (a1 m c) (a3 m c) (a4 m c) (a5 m c) (a6 m c) (a7 m c) (a8 m c) (a9 m c) (a10 m c) (ix2 n' k)
  rw [layer0]
  refine congrArg (fun z => norm _ _ _ _ _ z k) ?_
  rw [show (fun a => Cert.KernelIdeal.HostSide.Y0 m ρ c (ix2 a k)) = fun a => lin (RH0 m c) (val_main_v33 (F := Ideal) (a5 m c)) a k * dn (a1 m c) a
    from funext fun a => claim0 m ρ c a k]
  exact kernel_agg m ρ c _ n'

/-- After region 2 the kernel program holds the reference program's layer-2 features times the next weight
    matrix, every row scaled by its node factor. -/
theorem claim2 (n : Fin 100000) (q : Fin 128) :
    Cert.KernelIdeal.HostSide.Y2 m ρ c (ix2 n q) = lin (RH2 m c) (val_main_v131 (F := Ideal) (a5 m c)) n q * dn (a1 m c) n := by
  rw [Cert.KernelIdeal.Chain.step2, p_main_v49, p_main_v55, p_main_v57, p_main_v51, p_main_v53, p_main_v59, dK_eq]
  refine congrArg₂ (· * ·) (congrArg (fun h => lin h _ n q) (funext fun n' => funext fun k => ?_)) rfl
  show _ = val_main_v129 (F := Ideal) (a0 m c) (a1 m c) (a3 m c) (a4 m c) (a5 m c) (a6 m c) (a7 m c) (a8 m c) (a9 m c) (a10 m c) (ix2 n' k)
  rw [layer1]
  refine congrArg (fun z => norm _ _ _ _ _ z k) ?_
  rw [show (fun a => Cert.KernelIdeal.HostSide.Y1 m ρ c (ix2 a k)) = fun a => lin (RH1 m c) (val_main_v82 (F := Ideal) (a5 m c)) a k * dn (a1 m c) a
    from funext fun a => claim1 m ρ c a k]
  exact kernel_agg m ρ c _ n'

/-- After region 3 the kernel program holds the reference program's layer-3 features times the next weight
    matrix, every row scaled by its node factor. -/
theorem claim3 (n : Fin 100000) (q : Fin 128) :
    Cert.KernelIdeal.HostSide.Y3 m ρ c (ix2 n q) = lin (RH3 m c) (val_main_v180 (F := Ideal) (a5 m c)) n q * dn (a1 m c) n := by
  rw [Cert.KernelIdeal.Chain.step3, p_main_v72, p_main_v78, p_main_v80, p_main_v74, p_main_v76, p_main_v82, dK_eq]
  refine congrArg₂ (· * ·) (congrArg (fun h => lin h _ n q) (funext fun n' => funext fun k => ?_)) rfl
  show _ = val_main_v178 (F := Ideal) (a0 m c) (a1 m c) (a3 m c) (a4 m c) (a5 m c) (a6 m c) (a7 m c) (a8 m c) (a9 m c) (a10 m c) (ix2 n' k)
  rw [layer2]
  refine congrArg (fun z => norm _ _ _ _ _ z k) ?_
  rw [show (fun a => Cert.KernelIdeal.HostSide.Y2 m ρ c (ix2 a k)) = fun a => lin (RH2 m c) (val_main_v131 (F := Ideal) (a5 m c)) a k * dn (a1 m c) a
    from funext fun a => claim2 m ρ c a k]
  exact kernel_agg m ρ c _ n'

/-- The node features the kernel program's last region writes are the reference program's last layer. -/
theorem features_eq : Cert.KernelIdeal.Chain.H4 m ρ c = val_main_v227 (F := Ideal) (a0 m c) (a1 m c) (a3 m c) (a4 m c) (a5 m c) (a6 m c) (a7 m c) (a8 m c) (a9 m c) (a10 m c) := by
  funext i
  obtain ⟨n, q, rfl⟩ : ∃ (n : Fin 100000) (q : Fin 128), i = ix2 n q := ⟨i 0, i 1, eq_ix2 i⟩
  rw [Cert.KernelIdeal.Chain.step4, p_main_v95, p_main_v101, p_main_v103, p_main_v97, p_main_v99, layer3]
  refine congrArg (fun z => norm _ _ _ _ _ z q) ?_
  rw [show (fun a => Cert.KernelIdeal.HostSide.Y3 m ρ c (ix2 a q)) = fun a => lin (RH3 m c) (val_main_v180 (F := Ideal) (a5 m c)) a q * dn (a1 m c) a
    from funext fun a => claim3 m ρ c a q]
  exact kernel_agg m ρ c _ n

end Cert.Bridge

end
-- ==== Proof.lean ====
/-
  The proof of `Cert.Claim`: a four-layer graph convolution network with normalisation by running statistics, a mean
  over each graph's nodes and a two-layer read-out, as five kernels among host stretches, against its plain reference.

  The kernel program pre-scales every node's row by the node factor `d = (1 + in-degree)^(-1/2)` inside the producing
  kernel, adds the rows along the edge list unscaled, and scales the total once by `d` in the next kernel; the reference
  scales every message by both end factors. Because `d` is a nonnegative real the two arrangements agree on the
  extended reals whatever the features are (Proof/LayerAlgebra.lean), layer by layer (Proof/Bridge.lean), and both
  programs end with the same read-out of the last layer's features (Proof/KTail.lean). The ideal pass rewrote nothing,
  so `preserves` is trivial; the frames are the generated ones, the reference's its run with the result dropped.
-/
import proofs.«150997_j34024730919242_2_alg».proof.Defs
import proofs.«150997_j34024730919242_2_alg».proof.Proof.Gen.Kernel
import proofs.«150997_j34024730919242_2_alg».proof.Proof.Gen.Kernel.Skeleton
import proofs.«150997_j34024730919242_2_alg».proof.Proof.Gen.Kernel.Launch
import proofs.«150997_j34024730919242_2_alg».proof.Proof.Gen.Kernel.Points
import proofs.«150997_j34024730919242_2_alg».proof.Proof.Gen.Kernel.Frame
import proofs.«150997_j34024730919242_2_alg».proof.Proof.Gen.KernelIdeal
import proofs.«150997_j34024730919242_2_alg».proof.Proof.Gen.KernelIdeal.Skeleton
import proofs.«150997_j34024730919242_2_alg».proof.Proof.Gen.KernelIdeal.Launch
import proofs.«150997_j34024730919242_2_alg».proof.Proof.Gen.KernelIdeal.Points
import proofs.«150997_j34024730919242_2_alg».proof.Proof.Gen.KernelIdeal.Frame
import proofs.«150997_j34024730919242_2_alg».proof.Proof.Gen.ReferenceIdeal
import proofs.«150997_j34024730919242_2_alg».proof.Proof.Gen.Pre_finite_inputs
import proofs.«150997_j34024730919242_2_alg».proof.Proof.KRun
import proofs.«150997_j34024730919242_2_alg».proof.Proof.KTail
import proofs.«150997_j34024730919242_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference program's result is the read-out — graph means, then the two dense layers — of its last layer's
    node features: the same operations the kernel program ends with. -/
theorem reference_result (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) (x7 : (⟨Cert.ReferenceIdeal.S4x128, .f32⟩ : BufTy).Contents (Elt Ideal)) (x8 : (⟨Cert.ReferenceIdeal.S4x128, .f32⟩ : BufTy).Contents (Elt Ideal)) (x9 : (⟨Cert.ReferenceIdeal.S4x128, .f32⟩ : BufTy).Contents (Elt Ideal)) (x10 : (⟨Cert.ReferenceIdeal.S4x128, .f32⟩ : BufTy).Contents (Elt Ideal)) (x11 : (⟨Cert.ReferenceIdeal.S128x64, .f32⟩ : BufTy).Contents (Elt Ideal)) (x12 : (⟨Cert.ReferenceIdeal.S64, .f32⟩ : BufTy).Contents (Elt Ideal)) (x13 : (⟨Cert.ReferenceIdeal.S64x10, .f32⟩ : BufTy).Contents (Elt Ideal)) (x14 : (⟨Cert.ReferenceIdeal.S10, .f32⟩ : BufTy).Contents (Elt Ideal)) :
    Cert.ReferenceIdeal.ReadP.val_main_v248 (F := Ideal) x0 x1 x2 x3 x4 x5 x6 x7 x8 x9 x10 x11 x12 x13 x14
      = Cert.KernelIdeal.Tail.tailOp (Cert.ReferenceIdeal.ReadP.val_main_v227 (F := Ideal) x0 x1 x3 x4 x5 x6 x7 x8 x9 x10) x2 x11 x12 x13 x14 := by
  generalize hh : Cert.ReferenceIdeal.ReadP.val_main_v227 (F := Ideal) x0 x1 x3 x4 x5 x6 x7 x8 x9 x10 = h
  unfold Cert.ReferenceIdeal.ReadP.val_main_v248 Cert.ReferenceIdeal.ReadP.val_main_v245 Cert.ReferenceIdeal.ReadP.val_main_v244
    Cert.ReferenceIdeal.ReadP.val_main_v243 Cert.ReferenceIdeal.ReadP.val_main_v240 Cert.ReferenceIdeal.ReadP.val_main_v239
    Cert.ReferenceIdeal.ReadP.val_main_v230
  rw [hh]
  rfl

/-- From memories that agree on the arguments both idealized programs run and end with the same result: the
    read-out of the same node features. -/
theorem algebraic : Cert.algebraic_KernelIdeal_ReferenceIdeal := by
  intro m ρ m' ρ' _ hagree
  refine ⟨fun c => Cert.KernelIdeal.Gen.W13 m ρ c (Proc.devRef .tc Cert.KernelIdeal.main_v125),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14⟩ := hagree c
  rw [Cert.ReferenceIdeal.ReadP.val_main_v248_eq, h0, h1, h2, h3, h4, h5, h6, h7, h8, h9, h10, h11, h12, h13, h14, reference_result]
  exact ((Cert.KernelIdeal.Tail.result_eq m ρ c).trans
    (congrArg (fun h => Cert.KernelIdeal.Tail.tailOp h _ _ _ _ _) (Cert.Bridge.features_eq m ρ c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
